-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x5000 : Shape := ⟨2, ![8192, 5000]⟩
abbrev S4000x5000 : Shape := ⟨2, ![4000, 5000]⟩
abbrev S4000 : Shape := ⟨1, ![4000]⟩
abbrev S2000x4000 : Shape := ⟨2, ![2000, 4000]⟩
abbrev S2000 : Shape := ⟨1, ![2000]⟩
abbrev S1000x2000 : Shape := ⟨2, ![1000, 2000]⟩
abbrev S1000 : Shape := ⟨1, ![1000]⟩
abbrev S200x1000 : Shape := ⟨2, ![200, 1000]⟩
abbrev S200 : Shape := ⟨1, ![200]⟩
abbrev S50x200 : Shape := ⟨2, ![50, 200]⟩
abbrev S50 : Shape := ⟨1, ![50]⟩
abbrev S_ : Shape := ⟨0, ![]⟩

class Facts : Prop where
  bcast_S_S8192x5000 : S_.BroadcastsInDim S8192x5000 (![] : Fin 0 → Fin S8192x5000.rank)
  reducesTo_S8192x5000_S_d0_1 : S8192x5000.ReducesTo [0, 1] S_
  h_S_ : 0 < S_.numel
  bcast_S_S4000x5000 : S_.BroadcastsInDim S4000x5000 (![] : Fin 0 → Fin S4000x5000.rank)
  reducesTo_S4000x5000_S_d0_1 : S4000x5000.ReducesTo [0, 1] S_
  bcast_S_S4000 : S_.BroadcastsInDim S4000 (![] : Fin 0 → Fin S4000.rank)
  reducesTo_S4000_S_d0 : S4000.ReducesTo [0] S_
  bcast_S_S2000x4000 : S_.BroadcastsInDim S2000x4000 (![] : Fin 0 → Fin S2000x4000.rank)
  reducesTo_S2000x4000_S_d0_1 : S2000x4000.ReducesTo [0, 1] S_
  bcast_S_S2000 : S_.BroadcastsInDim S2000 (![] : Fin 0 → Fin S2000.rank)
  reducesTo_S2000_S_d0 : S2000.ReducesTo [0] S_
  bcast_S_S1000x2000 : S_.BroadcastsInDim S1000x2000 (![] : Fin 0 → Fin S1000x2000.rank)
  reducesTo_S1000x2000_S_d0_1 : S1000x2000.ReducesTo [0, 1] S_
  bcast_S_S1000 : S_.BroadcastsInDim S1000 (![] : Fin 0 → Fin S1000.rank)
  reducesTo_S1000_S_d0 : S1000.ReducesTo [0] S_
  bcast_S_S200x1000 : S_.BroadcastsInDim S200x1000 (![] : Fin 0 → Fin S200x1000.rank)
  reducesTo_S200x1000_S_d0_1 : S200x1000.ReducesTo [0, 1] S_
  bcast_S_S200 : S_.BroadcastsInDim S200 (![] : Fin 0 → Fin S200.rank)
  reducesTo_S200_S_d0 : S200.ReducesTo [0] S_
  bcast_S_S50x200 : S_.BroadcastsInDim S50x200 (![] : Fin 0 → Fin S50x200.rank)
  reducesTo_S50x200_S_d0_1 : S50x200.ReducesTo [0, 1] S_
  bcast_S_S50 : S_.BroadcastsInDim S50 (![] : Fin 0 → Fin S50.rank)
  reducesTo_S50_S_d0 : S50.ReducesTo [0] S_

variable [Facts]

def fn_part7 {F : FTy → Type} [FloatOps F] (main_arg25 : FVec F S50x200 .f32) (main_arg26 : FVec F S50 .f32) (main_v118 : IVec S_ 1) (main_v119 : FVec F S1000 .f32) : IVec S_ 1 :=
  let main_cst_46 : FVec F S_ .f32 := constant S_ .f32 0x7F800000#32
  let main_v120 : FVec F S1000 .f32 := broadcastInDim S1000 ![] bcast_S_S1000 main_cst_46
  let main_v121 : IVec S1000 1 := cmpf .olt main_v119 main_v120
  let main_c_47 : IVec S_ 1 := constantI S_ 1 1#1
  let main_v122 : IVec S_ 1 := (fun x v => Host.reduce IntOp.andi x v reducesTo_S1000_S_d0 h_S_) main_v121 main_c_47
  let main_v123 : IVec S_ 1 := andi main_v118 main_v122
  let main_v124 : FVec F S50x200 .f32 := Host.absf main_arg25
  let main_cst_48 : FVec F S_ .f32 := constant S_ .f32 0x7F800000#32
  let main_v125 : FVec F S50x200 .f32 := broadcastInDim S50x200 ![] bcast_S_S50x200 main_cst_48
  let main_v126 : IVec S50x200 1 := cmpf .olt main_v124 main_v125
  let main_c_49 : IVec S_ 1 := constantI S_ 1 1#1
  let main_v127 : IVec S_ 1 := (fun x v => Host.reduce IntOp.andi x v reducesTo_S50x200_S_d0_1 h_S_) main_v126 main_c_49
  let main_v128 : IVec S_ 1 := andi main_v123 main_v127
  let main_v129 : FVec F S50 .f32 := Host.absf main_arg26
  let main_cst_50 : FVec F S_ .f32 := constant S_ .f32 0x7F800000#32
  let main_v130 : FVec F S50 .f32 := broadcastInDim S50 ![] bcast_S_S50 main_cst_50
  let main_v131 : IVec S50 1 := cmpf .olt main_v129 main_v130
  let main_c_51 : IVec S_ 1 := constantI S_ 1 1#1
  let main_v132 : IVec S_ 1 := (fun x v => Host.reduce IntOp.andi x v reducesTo_S50_S_d0 h_S_) main_v131 main_c_51
  let main_v133 : IVec S_ 1 := andi main_v128 main_v132
  main_v133

def fn_part6 {F : FTy → Type} [FloatOps F] (main_arg21 : FVec F S1000 .f32) (main_arg22 : FVec F S1000 .f32) (main_arg23 : FVec F S1000 .f32) (main_arg24 : FVec F S1000 .f32) (main_arg25 : FVec F S50x200 .f32) (main_arg26 : FVec F S50 .f32) (main_v98 : IVec S_ 1) (main_v101 : IVec S2000 1) (main_c_39 : IVec S_ 1) : IVec S_ 1 :=
  let main_v102 : IVec S_ 1 := (fun x v => Host.reduce IntOp.andi x v reducesTo_S2000_S_d0 h_S_) main_v101 main_c_39
  let main_v103 : IVec S_ 1 := andi main_v98 main_v102
  let main_v104 : FVec F S1000 .f32 := Host.absf main_arg21
  let main_cst_40 : FVec F S_ .f32 := constant S_ .f32 0x7F800000#32
  let main_v105 : FVec F S1000 .f32 := broadcastInDim S1000 ![] bcast_S_S1000 main_cst_40
  let main_v106 : IVec S1000 1 := cmpf .olt main_v104 main_v105
  let main_c_41 : IVec S_ 1 := constantI S_ 1 1#1
  let main_v107 : IVec S_ 1 := (fun x v => Host.reduce IntOp.andi x v reducesTo_S1000_S_d0 h_S_) main_v106 main_c_41
  let main_v108 : IVec S_ 1 := andi main_v103 main_v107
  let main_v109 : FVec F S1000 .f32 := Host.absf main_arg22
  let main_cst_42 : FVec F S_ .f32 := constant S_ .f32 0x7F800000#32
  let main_v110 : FVec F S1000 .f32 := broadcastInDim S1000 ![] bcast_S_S1000 main_cst_42
  let main_v111 : IVec S1000 1 := cmpf .olt main_v109 main_v110
  let main_c_43 : IVec S_ 1 := constantI S_ 1 1#1
  let main_v112 : IVec S_ 1 := (fun x v => Host.reduce IntOp.andi x v reducesTo_S1000_S_d0 h_S_) main_v111 main_c_43
  let main_v113 : IVec S_ 1 := andi main_v108 main_v112
  let main_v114 : FVec F S1000 .f32 := Host.absf main_arg23
  let main_cst_44 : FVec F S_ .f32 := constant S_ .f32 0x7F800000#32
  let main_v115 : FVec F S1000 .f32 := broadcastInDim S1000 ![] bcast_S_S1000 main_cst_44
  let main_v116 : IVec S1000 1 := cmpf .olt main_v114 main_v115
  let main_c_45 : IVec S_ 1 := constantI S_ 1 1#1
  let main_v117 : IVec S_ 1 := (fun x v => Host.reduce IntOp.andi x v reducesTo_S1000_S_d0 h_S_) main_v116 main_c_45
  let main_v118 : IVec S_ 1 := andi main_v113 main_v117
  let main_v119 : FVec F S1000 .f32 := Host.absf main_arg24
  fn_part7 (F := F) main_arg25 main_arg26 main_v118 main_v119

def fn_part5 {F : FTy → Type} [FloatOps F] (main_arg18 : FVec F S2000 .f32) (main_arg19 : FVec F S2000 .f32) (main_arg20 : FVec F S2000 .f32) (main_arg21 : FVec F S1000 .f32) (main_arg22 : FVec F S1000 .f32) (main_arg23 : FVec F S1000 .f32) (main_arg24 : FVec F S1000 .f32) (main_arg25 : FVec F S50x200 .f32) (main_arg26 : FVec F S50 .f32) (main_v83 : IVec S_ 1) (main_v84 : FVec F S2000 .f32) (main_cst_32 : FVec F S_ .f32) : IVec S_ 1 :=
  let main_v85 : FVec F S2000 .f32 := broadcastInDim S2000 ![] bcast_S_S2000 main_cst_32
  let main_v86 : IVec S2000 1 := cmpf .olt main_v84 main_v85
  let main_c_33 : IVec S_ 1 := constantI S_ 1 1#1
  let main_v87 : IVec S_ 1 := (fun x v => Host.reduce IntOp.andi x v reducesTo_S2000_S_d0 h_S_) main_v86 main_c_33
  let main_v88 : IVec S_ 1 := andi main_v83 main_v87
  let main_v89 : FVec F S2000 .f32 := Host.absf main_arg18
  let main_cst_34 : FVec F S_ .f32 := constant S_ .f32 0x7F800000#32
  let main_v90 : FVec F S2000 .f32 := broadcastInDim S2000 ![] bcast_S_S2000 main_cst_34
  let main_v91 : IVec S2000 1 := cmpf .olt main_v89 main_v90
  let main_c_35 : IVec S_ 1 := constantI S_ 1 1#1
  let main_v92 : IVec S_ 1 := (fun x v => Host.reduce IntOp.andi x v reducesTo_S2000_S_d0 h_S_) main_v91 main_c_35
  let main_v93 : IVec S_ 1 := andi main_v88 main_v92
  let main_v94 : FVec F S2000 .f32 := Host.absf main_arg19
  let main_cst_36 : FVec F S_ .f32 := constant S_ .f32 0x7F800000#32
  let main_v95 : FVec F S2000 .f32 := broadcastInDim S2000 ![] bcast_S_S2000 main_cst_36
  let main_v96 : IVec S2000 1 := cmpf .olt main_v94 main_v95
  let main_c_37 : IVec S_ 1 := constantI S_ 1 1#1
  let main_v97 : IVec S_ 1 := (fun x v => Host.reduce IntOp.andi x v reducesTo_S2000_S_d0 h_S_) main_v96 main_c_37
  let main_v98 : IVec S_ 1 := andi main_v93 main_v97
  let main_v99 : FVec F S2000 .f32 := Host.absf main_arg20
  let main_cst_38 : FVec F S_ .f32 := constant S_ .f32 0x7F800000#32
  let main_v100 : FVec F S2000 .f32 := broadcastInDim S2000 ![] bcast_S_S2000 main_cst_38
  let main_v101 : IVec S2000 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S4000 .f32) (main_arg15 : FVec F S4000 .f32) (main_arg16 : FVec F S4000 .f32) (main_arg17 : FVec F S2000 .f32) (main_arg18 : FVec F S2000 .f32) (main_arg19 : FVec F S2000 .f32) (main_arg20 : FVec F S2000 .f32) (main_arg21 : FVec F S1000 .f32) (main_arg22 : FVec F S1000 .f32) (main_arg23 : FVec F S1000 .f32) (main_arg24 : FVec F S1000 .f32) (main_arg25 : FVec F S50x200 .f32) (main_arg26 : FVec F S50 .f32) (main_v63 : IVec S_ 1) (main_v67 : IVec S_ 1) : IVec S_ 1 :=
  let main_v68 : IVec S_ 1 := andi main_v63 main_v67
  let main_v69 : FVec F S4000 .f32 := Host.absf main_arg14
  let main_cst_26 : FVec F S_ .f32 := constant S_ .f32 0x7F800000#32
  let main_v70 : FVec F S4000 .f32 := broadcastInDim S4000 ![] bcast_S_S4000 main_cst_26
  let main_v71 : IVec S4000 1 := cmpf .olt main_v69 main_v70
  let main_c_27 : IVec S_ 1 := constantI S_ 1 1#1
  let main_v72 : IVec S_ 1 := (fun x v => Host.reduce IntOp.andi x v reducesTo_S4000_S_d0 h_S_) main_v71 main_c_27
  let main_v73 : IVec S_ 1 := andi main_v68 main_v72
  let main_v74 : FVec F S4000 .f32 := Host.absf main_arg15
  let main_cst_28 : FVec F S_ .f32 := constant S_ .f32 0x7F800000#32
  let main_v75 : FVec F S4000 .f32 := broadcastInDim S4000 ![] bcast_S_S4000 main_cst_28
  let main_v76 : IVec S4000 1 := cmpf .olt main_v74 main_v75
  let main_c_29 : IVec S_ 1 := constantI S_ 1 1#1
  let main_v77 : IVec S_ 1 := (fun x v => Host.reduce IntOp.andi x v reducesTo_S4000_S_d0 h_S_) main_v76 main_c_29
  let main_v78 : IVec S_ 1 := andi main_v73 main_v77
  let main_v79 : FVec F S4000 .f32 := Host.absf main_arg16
  let main_cst_30 : FVec F S_ .f32 := constant S_ .f32 0x7F800000#32
  let main_v80 : FVec F S4000 .f32 := broadcastInDim S4000 ![] bcast_S_S4000 main_cst_30
  let main_v81 : IVec S4000 1 := cmpf .olt main_v79 main_v80
  let main_c_31 : IVec S_ 1 := constantI S_ 1 1#1
  let main_v82 : IVec S_ 1 := (fun x v => Host.reduce IntOp.andi x v reducesTo_S4000_S_d0 h_S_) main_v81 main_c_31
  let main_v83 : IVec S_ 1 := andi main_v78 main_v82
  let main_v84 : FVec F S2000 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S200 .f32) (main_arg12 : FVec F S200x1000 .f32) (main_arg13 : FVec F S4000 .f32) (main_arg14 : FVec F S4000 .f32) (main_arg15 : FVec F S4000 .f32) (main_arg16 : FVec F S4000 .f32) (main_arg17 : FVec F S2000 .f32) (main_arg18 : FVec F S2000 .f32) (main_arg19 : FVec F S2000 .f32) (main_arg20 : FVec F S2000 .f32) (main_arg21 : FVec F S1000 .f32) (main_arg22 : FVec F S1000 .f32) (main_arg23 : FVec F S1000 .f32) (main_arg24 : FVec F S1000 .f32) (main_arg25 : FVec F S50x200 .f32) (main_arg26 : FVec F S50 .f32) (main_v48 : IVec S_ 1) (main_v49 : FVec F S200x1000 .f32) (main_v50 : FVec F S200x1000 .f32) : IVec S_ 1 :=
  let main_v51 : IVec S200x1000 1 := cmpf .olt main_v49 main_v50
  let main_c_19 : IVec S_ 1 := constantI S_ 1 1#1
  let main_v52 : IVec S_ 1 := (fun x v => Host.reduce IntOp.andi x v reducesTo_S200x1000_S_d0_1 h_S_) main_v51 main_c_19
  let main_v53 : IVec S_ 1 := andi main_v48 main_v52
  let main_v54 : FVec F S200 .f32 := Host.absf main_arg11
  let main_cst_20 : FVec F S_ .f32 := constant S_ .f32 0x7F800000#32
  let main_v55 : FVec F S200 .f32 := broadcastInDim S200 ![] bcast_S_S200 main_cst_20
  let main_v56 : IVec S200 1 := cmpf .olt main_v54 main_v55
  let main_c_21 : IVec S_ 1 := constantI S_ 1 1#1
  let main_v57 : IVec S_ 1 := (fun x v => Host.reduce IntOp.andi x v reducesTo_S200_S_d0 h_S_) main_v56 main_c_21
  let main_v58 : IVec S_ 1 := andi main_v53 main_v57
  let main_v59 : FVec F S200x1000 .f32 := Host.absf main_arg12
  let main_cst_22 : FVec F S_ .f32 := constant S_ .f32 0x7F800000#32
  let main_v60 : FVec F S200x1000 .f32 := broadcastInDim S200x1000 ![] bcast_S_S200x1000 main_cst_22
  let main_v61 : IVec S200x1000 1 := cmpf .olt main_v59 main_v60
  let main_c_23 : IVec S_ 1 := constantI S_ 1 1#1
  let main_v62 : IVec S_ 1 := (fun x v => Host.reduce IntOp.andi x v reducesTo_S200x1000_S_d0_1 h_S_) main_v61 main_c_23
  let main_v63 : IVec S_ 1 := andi main_v58 main_v62
  let main_v64 : FVec F S4000 .f32 := Host.absf main_arg13
  let main_cst_24 : FVec F S_ .f32 := constant S_ .f32 0x7F800000#32
  let main_v65 : FVec F S4000 .f32 := broadcastInDim S4000 ![] bcast_S_S4000 main_cst_24
  let main_v66 : IVec S4000 1 := cmpf .olt main_v64 main_v65
  let main_c_25 : IVec S_ 1 := constantI S_ 1 1#1
  let main_v67 : IVec S_ 1 := (fun x v => Host.reduce IntOp.andi x v reducesTo_S4000_S_d0 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S1000x2000 .f32) (main_arg8 : FVec F S1000 .f32) (main_arg9 : FVec F S1000x2000 .f32) (main_arg10 : FVec F S200x1000 .f32) (main_arg11 : FVec F S200 .f32) (main_arg12 : FVec F S200x1000 .f32) (main_arg13 : FVec F S4000 .f32) (main_arg14 : FVec F S4000 .f32) (main_arg15 : FVec F S4000 .f32) (main_arg16 : FVec F S4000 .f32) (main_arg17 : FVec F S2000 .f32) (main_arg18 : FVec F S2000 .f32) (main_arg19 : FVec F S2000 .f32) (main_arg20 : FVec F S2000 .f32) (main_arg21 : FVec F S1000 .f32) (main_arg22 : FVec F S1000 .f32) (main_arg23 : FVec F S1000 .f32) (main_arg24 : FVec F S1000 .f32) (main_arg25 : FVec F S50x200 .f32) (main_arg26 : FVec F S50 .f32) (main_v33 : IVec S_ 1) : IVec S_ 1 :=
  let main_v34 : FVec F S1000x2000 .f32 := Host.absf main_arg7
  let main_cst_12 : FVec F S_ .f32 := constant S_ .f32 0x7F800000#32
  let main_v35 : FVec F S1000x2000 .f32 := broadcastInDim S1000x2000 ![] bcast_S_S1000x2000 main_cst_12
  let main_v36 : IVec S1000x2000 1 := cmpf .olt main_v34 main_v35
  let main_c_13 : IVec S_ 1 := constantI S_ 1 1#1
  let main_v37 : IVec S_ 1 := (fun x v => Host.reduce IntOp.andi x v reducesTo_S1000x2000_S_d0_1 h_S_) main_v36 main_c_13
  let main_v38 : IVec S_ 1 := andi main_v33 main_v37
  let main_v39 : FVec F S1000 .f32 := Host.absf main_arg8
  let main_cst_14 : FVec F S_ .f32 := constant S_ .f32 0x7F800000#32
  let main_v40 : FVec F S1000 .f32 := broadcastInDim S1000 ![] bcast_S_S1000 main_cst_14
  let main_v41 : IVec S1000 1 := cmpf .olt main_v39 main_v40
  let main_c_15 : IVec S_ 1 := constantI S_ 1 1#1
  let main_v42 : IVec S_ 1 := (fun x v => Host.reduce IntOp.andi x v reducesTo_S1000_S_d0 h_S_) main_v41 main_c_15
  let main_v43 : IVec S_ 1 := andi main_v38 main_v42
  let main_v44 : FVec F S1000x2000 .f32 := Host.absf main_arg9
  let main_cst_16 : FVec F S_ .f32 := constant S_ .f32 0x7F800000#32
  let main_v45 : FVec F S1000x2000 .f32 := broadcastInDim S1000x2000 ![] bcast_S_S1000x2000 main_cst_16
  let main_v46 : IVec S1000x2000 1 := cmpf .olt main_v44 main_v45
  let main_c_17 : IVec S_ 1 := constantI S_ 1 1#1
  let main_v47 : IVec S_ 1 := (fun x v => Host.reduce IntOp.andi x v reducesTo_S1000x2000_S_d0_1 h_S_) main_v46 main_c_17
  let main_v48 : IVec S_ 1 := andi main_v43 main_v47
  let main_v49 : FVec F S200x1000 .f32 := Host.absf main_arg10
  let main_cst_18 : FVec F S_ .f32 := constant S_ .f32 0x7F800000#32
  let main_v50 : FVec F S200x1000 .f32 := broadcastInDim S200x1000 ![] bcast_S_S200x1000 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S2000x4000 .f32) (main_arg5 : FVec F S2000 .f32) (main_arg6 : FVec F S2000x4000 .f32) (main_arg7 : FVec F S1000x2000 .f32) (main_arg8 : FVec F S1000 .f32) (main_arg9 : FVec F S1000x2000 .f32) (main_arg10 : FVec F S200x1000 .f32) (main_arg11 : FVec F S200 .f32) (main_arg12 : FVec F S200x1000 .f32) (main_arg13 : FVec F S4000 .f32) (main_arg14 : FVec F S4000 .f32) (main_arg15 : FVec F S4000 .f32) (main_arg16 : FVec F S4000 .f32) (main_arg17 : FVec F S2000 .f32) (main_arg18 : FVec F S2000 .f32) (main_arg19 : FVec F S2000 .f32) (main_arg20 : FVec F S2000 .f32) (main_arg21 : FVec F S1000 .f32) (main_arg22 : FVec F S1000 .f32) (main_arg23 : FVec F S1000 .f32) (main_arg24 : FVec F S1000 .f32) (main_arg25 : FVec F S50x200 .f32) (main_arg26 : FVec F S50 .f32) (main_v13 : IVec S_ 1) (main_v16 : IVec S4000x5000 1) : IVec S_ 1 :=
  let main_c_5 : IVec S_ 1 := constantI S_ 1 1#1
  let main_v17 : IVec S_ 1 := (fun x v => Host.reduce IntOp.andi x v reducesTo_S4000x5000_S_d0_1 h_S_) main_v16 main_c_5
  let main_v18 : IVec S_ 1 := andi main_v13 main_v17
  let main_v19 : FVec F S2000x4000 .f32 := Host.absf main_arg4
  let main_cst_6 : FVec F S_ .f32 := constant S_ .f32 0x7F800000#32
  let main_v20 : FVec F S2000x4000 .f32 := broadcastInDim S2000x4000 ![] bcast_S_S2000x4000 main_cst_6
  let main_v21 : IVec S2000x4000 1 := cmpf .olt main_v19 main_v20
  let main_c_7 : IVec S_ 1 := constantI S_ 1 1#1
  let main_v22 : IVec S_ 1 := (fun x v => Host.reduce IntOp.andi x v reducesTo_S2000x4000_S_d0_1 h_S_) main_v21 main_c_7
  let main_v23 : IVec S_ 1 := andi main_v18 main_v22
  let main_v24 : FVec F S2000 .f32 := Host.absf main_arg5
  let main_cst_8 : FVec F S_ .f32 := constant S_ .f32 0x7F800000#32
  let main_v25 : FVec F S2000 .f32 := broadcastInDim S2000 ![] bcast_S_S2000 main_cst_8
  let main_v26 : IVec S2000 1 := cmpf .olt main_v24 main_v25
  let main_c_9 : IVec S_ 1 := constantI S_ 1 1#1
  let main_v27 : IVec S_ 1 := (fun x v => Host.reduce IntOp.andi x v reducesTo_S2000_S_d0 h_S_) main_v26 main_c_9
  let main_v28 : IVec S_ 1 := andi main_v23 main_v27
  let main_v29 : FVec F S2000x4000 .f32 := Host.absf main_arg6
  let main_cst_10 : FVec F S_ .f32 := constant S_ .f32 0x7F800000#32
  let main_v30 : FVec F S2000x4000 .f32 := broadcastInDim S2000x4000 ![] bcast_S_S2000x4000 main_cst_10
  let main_v31 : IVec S2000x4000 1 := cmpf .olt main_v29 main_v30
  let main_c_11 : IVec S_ 1 := constantI S_ 1 1#1
  let main_v32 : IVec S_ 1 := (fun x v => Host.reduce IntOp.andi x v reducesTo_S2000x4000_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S8192x5000 .f32) (main_arg1 : FVec F S4000x5000 .f32) (main_arg2 : FVec F S4000 .f32) (main_arg3 : FVec F S4000x5000 .f32) (main_arg4 : FVec F S2000x4000 .f32) (main_arg5 : FVec F S2000 .f32) (main_arg6 : FVec F S2000x4000 .f32) (main_arg7 : FVec F S1000x2000 .f32) (main_arg8 : FVec F S1000 .f32) (main_arg9 : FVec F S1000x2000 .f32) (main_arg10 : FVec F S200x1000 .f32) (main_arg11 : FVec F S200 .f32) (main_arg12 : FVec F S200x1000 .f32) (main_arg13 : FVec F S4000 .f32) (main_arg14 : FVec F S4000 .f32) (main_arg15 : FVec F S4000 .f32) (main_arg16 : FVec F S4000 .f32) (main_arg17 : FVec F S2000 .f32) (main_arg18 : FVec F S2000 .f32) (main_arg19 : FVec F S2000 .f32) (main_arg20 : FVec F S2000 .f32) (main_arg21 : FVec F S1000 .f32) (main_arg22 : FVec F S1000 .f32) (main_arg23 : FVec F S1000 .f32) (main_arg24 : FVec F S1000 .f32) (main_arg25 : FVec F S50x200 .f32) (main_arg26 : FVec F S50 .f32) : IVec S_ 1 :=
  let main_v0 : FVec F S8192x5000 .f32 := Host.absf main_arg0
  let main_cst : FVec F S_ .f32 := constant S_ .f32 0x7F800000#32
  let main_v1 : FVec F S8192x5000 .f32 := broadcastInDim S8192x5000 ![] bcast_S_S8192x5000 main_cst
  let main_v2 : IVec S8192x5000 1 := cmpf .olt main_v0 main_v1
  let main_c : IVec S_ 1 := constantI S_ 1 1#1
  let main_v3 : IVec S_ 1 := (fun x v => Host.reduce IntOp.andi x v reducesTo_S8192x5000_S_d0_1 h_S_) main_v2 main_c
  let main_v4 : FVec F S4000x5000 .f32 := Host.absf main_arg1
  let main_cst_0 : FVec F S_ .f32 := constant S_ .f32 0x7F800000#32
  let main_v5 : FVec F S4000x5000 .f32 := broadcastInDim S4000x5000 ![] bcast_S_S4000x5000 main_cst_0
  let main_v6 : IVec S4000x5000 1 := cmpf .olt main_v4 main_v5
  let main_c_1 : IVec S_ 1 := constantI S_ 1 1#1
  let main_v7 : IVec S_ 1 := (fun x v => Host.reduce IntOp.andi x v reducesTo_S4000x5000_S_d0_1 h_S_) main_v6 main_c_1
  let main_v8 : IVec S_ 1 := andi main_v3 main_v7
  let main_v9 : FVec F S4000 .f32 := Host.absf main_arg2
  let main_cst_2 : FVec F S_ .f32 := constant S_ .f32 0x7F800000#32
  let main_v10 : FVec F S4000 .f32 := broadcastInDim S4000 ![] bcast_S_S4000 main_cst_2
  let main_v11 : IVec S4000 1 := cmpf .olt main_v9 main_v10
  let main_c_3 : IVec S_ 1 := constantI S_ 1 1#1
  let main_v12 : IVec S_ 1 := (fun x v => Host.reduce IntOp.andi x v reducesTo_S4000_S_d0 h_S_) main_v11 main_c_3
  let main_v13 : IVec S_ 1 := andi main_v8 main_v12
  let main_v14 : FVec F S4000x5000 .f32 := Host.absf main_arg3
  let main_cst_4 : FVec F S_ .f32 := constant S_ .f32 0x7F800000#32
  let main_v15 : FVec F S4000x5000 .f32 := broadcastInDim S4000x5000 ![] bcast_S_S4000x5000 main_cst_4
  let main_v16 : IVec S4000x5000 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S8192x5000 : Shape := ⟨2, ![8192, 5000]⟩
abbrev S4000x5000 : Shape := ⟨2, ![4000, 5000]⟩
abbrev S4000 : Shape := ⟨1, ![4000]⟩
abbrev S2000x4000 : Shape := ⟨2, ![2000, 4000]⟩
abbrev S2000 : Shape := ⟨1, ![2000]⟩
abbrev S1000x2000 : Shape := ⟨2, ![1000, 2000]⟩
abbrev S1000 : Shape := ⟨1, ![1000]⟩
abbrev S200x1000 : Shape := ⟨2, ![200, 1000]⟩
abbrev S200 : Shape := ⟨1, ![200]⟩
abbrev S50x200 : Shape := ⟨2, ![50, 200]⟩
abbrev S50 : Shape := ⟨1, ![50]⟩
abbrev S_ : Shape := ⟨0, ![]⟩
abbrev S4096x5000 : Shape := ⟨2, ![4096, 5000]⟩
abbrev S4096 : Shape := ⟨1, ![4096]⟩
abbrev S2048x4000 : Shape := ⟨2, ![2048, 4000]⟩
abbrev S2048x4096 : Shape := ⟨2, ![2048, 4096]⟩
abbrev S2048 : Shape := ⟨1, ![2048]⟩
abbrev S1000x2048 : Shape := ⟨2, ![1000, 2048]⟩
abbrev S8192x4096 : Shape := ⟨2, ![8192, 4096]⟩
abbrev S512x5000 : Shape := ⟨2, ![512, 5000]⟩
abbrev S128x5000 : Shape := ⟨2, ![128, 5000]⟩
abbrev S512x128 : Shape := ⟨2, ![512, 128]⟩
abbrev S1x4096 : Shape := ⟨2, ![1, 4096]⟩
abbrev S256x4096 : Shape := ⟨2, ![256, 4096]⟩
abbrev S8192x2048 : Shape := ⟨2, ![8192, 2048]⟩
abbrev S512x4096 : Shape := ⟨2, ![512, 4096]⟩
abbrev S128x4096 : Shape := ⟨2, ![128, 4096]⟩
abbrev S1x2048 : Shape := ⟨2, ![1, 2048]⟩
abbrev S256x2048 : Shape := ⟨2, ![256, 2048]⟩
abbrev S1x1000 : Shape := ⟨2, ![1, 1000]⟩
abbrev S8192x1000 : Shape := ⟨2, ![8192, 1000]⟩
abbrev S256x1000 : Shape := ⟨2, ![256, 1000]⟩
abbrev S1x200 : Shape := ⟨2, ![1, 200]⟩
abbrev S8192x200 : Shape := ⟨2, ![8192, 200]⟩
abbrev S256x200 : Shape := ⟨2, ![256, 200]⟩
abbrev S1x50 : Shape := ⟨2, ![1, 50]⟩
abbrev S8192x50 : Shape := ⟨2, ![8192, 50]⟩
abbrev S256x50 : Shape := ⟨2, ![256, 50]⟩

abbrev nBuf : Space → Nat
  | .hbm => 105
  | .vmem => 58
  | .smem => 0
  | _ => 0

abbrev bufTy : (tb : Table) → Fin (tcTables nBuf tb) → BufTy
  | .hbm, ⟨0, _⟩ => ⟨S8192x5000, .f32⟩
  | .hbm, ⟨1, _⟩ => ⟨S4000x5000, .f32⟩
  | .hbm, ⟨2, _⟩ => ⟨S4000, .f32⟩
  | .hbm, ⟨3, _⟩ => ⟨S4000x5000, .f32⟩
  | .hbm, ⟨4, _⟩ => ⟨S2000x4000, .f32⟩
  | .hbm, ⟨5, _⟩ => ⟨S2000, .f32⟩
  | .hbm, ⟨6, _⟩ => ⟨S2000x4000, .f32⟩
  | .hbm, ⟨7, _⟩ => ⟨S1000x2000, .f32⟩
  | .hbm, ⟨8, _⟩ => ⟨S1000, .f32⟩
  | .hbm, ⟨9, _⟩ => ⟨S1000x2000, .f32⟩
  | .hbm, ⟨10, _⟩ => ⟨S200x1000, .f32⟩
  | .hbm, ⟨11, _⟩ => ⟨S200, .f32⟩
  | .hbm, ⟨12, _⟩ => ⟨S200x1000, .f32⟩
  | .hbm, ⟨13, _⟩ => ⟨S4000, .f32⟩
  | .hbm, ⟨14, _⟩ => ⟨S4000, .f32⟩
  | .hbm, ⟨15, _⟩ => ⟨S4000, .f32⟩
  | .hbm, ⟨16, _⟩ => ⟨S4000, .f32⟩
  | .hbm, ⟨17, _⟩ => ⟨S2000, .f32⟩
  | .hbm, ⟨18, _⟩ => ⟨S2000, .f32⟩
  | .hbm, ⟨19, _⟩ => ⟨S2000, .f32⟩
  | .hbm, ⟨20, _⟩ => ⟨S2000, .f32⟩
  | .hbm, ⟨21, _⟩ => ⟨S1000, .f32⟩
  | .hbm, ⟨22, _⟩ => ⟨S1000, .f32⟩
  | .hbm, ⟨23, _⟩ => ⟨S1000, .f32⟩
  | .hbm, ⟨24, _⟩ => ⟨S1000, .f32⟩
  | .hbm, ⟨25, _⟩ => ⟨S50x200, .f32⟩
  | .hbm, ⟨26, _⟩ => ⟨S50, .f32⟩
  | .hbm, ⟨27, _⟩ => ⟨S_, .i32⟩
  | .hbm, ⟨28, _⟩ => ⟨S_, .f32⟩
  | .hbm, ⟨29, _⟩ => ⟨S4096x5000, .f32⟩
  | .hbm, ⟨30, _⟩ => ⟨S_, .i32⟩
  | .hbm, ⟨31, _⟩ => ⟨S_, .f32⟩
  | .hbm, ⟨32, _⟩ => ⟨S4096x5000, .f32⟩
  | .hbm, ⟨33, _⟩ => ⟨S_, .i32⟩
  | .hbm, ⟨34, _⟩ => ⟨S_, .f32⟩
  | .hbm, ⟨35, _⟩ => ⟨S4096, .f32⟩
  | .hbm, ⟨36, _⟩ => ⟨S_, .i32⟩
  | .hbm, ⟨37, _⟩ => ⟨S_, .f32⟩
  | .hbm, ⟨38, _⟩ => ⟨S4096, .f32⟩
  | .hbm, ⟨39, _⟩ => ⟨S_, .i32⟩
  | .hbm, ⟨40, _⟩ => ⟨S_, .f32⟩
  | .hbm, ⟨41, _⟩ => ⟨S4096, .f32⟩
  | .hbm, ⟨42, _⟩ => ⟨S_, .i32⟩
  | .hbm, ⟨43, _⟩ => ⟨S_, .f32⟩
  | .hbm, ⟨44, _⟩ => ⟨S4096, .f32⟩
  | .hbm, ⟨45, _⟩ => ⟨S_, .i32⟩
  | .hbm, ⟨46, _⟩ => ⟨S_, .f32⟩
  | .hbm, ⟨47, _⟩ => ⟨S4096, .f32⟩
  | .hbm, ⟨48, _⟩ => ⟨S_, .i32⟩
  | .hbm, ⟨49, _⟩ => ⟨S_, .f32⟩
  | .hbm, ⟨50, _⟩ => ⟨S2048x4000, .f32⟩
  | .hbm, ⟨51, _⟩ => ⟨S_, .i32⟩
  | .hbm, ⟨52, _⟩ => ⟨S_, .f32⟩
  | .hbm, ⟨53, _⟩ => ⟨S2048x4096, .f32⟩
  | .hbm, ⟨54, _⟩ => ⟨S_, .i32⟩
  | .hbm, ⟨55, _⟩ => ⟨S_, .f32⟩
  | .hbm, ⟨56, _⟩ => ⟨S2048x4000, .f32⟩
  | .hbm, ⟨57, _⟩ => ⟨S_, .i32⟩
  | .hbm, ⟨58, _⟩ => ⟨S_, .f32⟩
  | .hbm, ⟨59, _⟩ => ⟨S2048x4096, .f32⟩
  | .hbm, ⟨60, _⟩ => ⟨S_, .i32⟩
  | .hbm, ⟨61, _⟩ => ⟨S_, .f32⟩
  | .hbm, ⟨62, _⟩ => ⟨S2048, .f32⟩
  | .hbm, ⟨63, _⟩ => ⟨S_, .i32⟩
  | .hbm, ⟨64, _⟩ => ⟨S_, .f32⟩
  | .hbm, ⟨65, _⟩ => ⟨S2048, .f32⟩
  | .hbm, ⟨66, _⟩ => ⟨S_, .i32⟩
  | .hbm, ⟨67, _⟩ => ⟨S_, .f32⟩
  | .hbm, ⟨68, _⟩ => ⟨S2048, .f32⟩
  | .hbm, ⟨69, _⟩ => ⟨S_, .i32⟩
  | .hbm, ⟨70, _⟩ => ⟨S_, .f32⟩
  | .hbm, ⟨71, _⟩ => ⟨S2048, .f32⟩
  | .hbm, ⟨72, _⟩ => ⟨S_, .i32⟩
  | .hbm, ⟨73, _⟩ => ⟨S_, .f32⟩
  | .hbm, ⟨74, _⟩ => ⟨S2048, .f32⟩
  | .hbm, ⟨75, _⟩ => ⟨S_, .i32⟩
  | .hbm, ⟨76, _⟩ => ⟨S_, .f32⟩
  | .hbm, ⟨77, _⟩ => ⟨S1000x2048, .f32⟩
  | .hbm, ⟨78, _⟩ => ⟨S_, .i32⟩
  | .hbm, ⟨79, _⟩ => ⟨S_, .f32⟩
  | .hbm, ⟨80, _⟩ => ⟨S1000x2048, .f32⟩
  | .hbm, ⟨81, _⟩ => ⟨S8192x4096, .f32⟩
  | .hbm, ⟨82, _⟩ => ⟨S1x4096, .f32⟩
  | .hbm, ⟨83, _⟩ => ⟨S1x4096, .f32⟩
  | .hbm, ⟨84, _⟩ => ⟨S1x4096, .f32⟩
  | .hbm, ⟨85, _⟩ => ⟨S1x4096, .f32⟩
  | .hbm, ⟨86, _⟩ => ⟨S1x4096, .f32⟩
  | .hbm, ⟨87, _⟩ => ⟨S8192x4096, .f32⟩
  | .hbm, ⟨88, _⟩ => ⟨S8192x2048, .f32⟩
  | .hbm, ⟨89, _⟩ => ⟨S1x2048, .f32⟩
  | .hbm, ⟨90, _⟩ => ⟨S1x2048, .f32⟩
  | .hbm, ⟨91, _⟩ => ⟨S1x2048, .f32⟩
  | .hbm, ⟨92, _⟩ => ⟨S1x2048, .f32⟩
  | .hbm, ⟨93, _⟩ => ⟨S1x2048, .f32⟩
  | .hbm, ⟨94, _⟩ => ⟨S8192x2048, .f32⟩
  | .hbm, ⟨95, _⟩ => ⟨S1x1000, .f32⟩
  | .hbm, ⟨96, _⟩ => ⟨S1x1000, .f32⟩
  | .hbm, ⟨97, _⟩ => ⟨S1x1000, .f32⟩
  | .hbm, ⟨98, _⟩ => ⟨S1x1000, .f32⟩
  | .hbm, ⟨99, _⟩ => ⟨S1x1000, .f32⟩
  | .hbm, ⟨100, _⟩ => ⟨S8192x1000, .f32⟩
  | .hbm, ⟨101, _⟩ => ⟨S1x200, .f32⟩
  | .hbm, ⟨102, _⟩ => ⟨S8192x200, .f32⟩
  | .hbm, ⟨103, _⟩ => ⟨S1x50, .f32⟩
  | .hbm, ⟨104, _⟩ => ⟨S8192x50, .f32⟩
  | .local _ .vmem, ⟨0, _⟩ => ⟨S512x5000, .f32⟩
  | .local _ .vmem, ⟨1, _⟩ => ⟨S512x5000, .f32⟩
  | .local _ .vmem, ⟨2, _⟩ => ⟨S128x5000, .f32⟩
  | .local _ .vmem, ⟨3, _⟩ => ⟨S128x5000, .f32⟩
  | .local _ .vmem, ⟨4, _⟩ => ⟨S128x5000, .f32⟩
  | .local _ .vmem, ⟨5, _⟩ => ⟨S128x5000, .f32⟩
  | .local _ .vmem, ⟨6, _⟩ => ⟨S512x128, .f32⟩
  | .local _ .vmem, ⟨7, _⟩ => ⟨S512x128, .f32⟩
  | .local _ .vmem, ⟨8, _⟩ => ⟨S256x4096, .f32⟩
  | .local _ .vmem, ⟨9, _⟩ => ⟨S256x4096, .f32⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | .local _ .vmem, ⟨14, _⟩ => ⟨S1x4096, .f32⟩
  | .local _ .vmem, ⟨15, _⟩ => ⟨S256x4096, .f32⟩
  | .local _ .vmem, ⟨16, _⟩ => ⟨S256x4096, .f32⟩
  | .local _ .vmem, ⟨17, _⟩ => ⟨S512x4096, .f32⟩
  | .local _ .vmem, ⟨18, _⟩ => ⟨S512x4096, .f32⟩
  | .local _ .vmem, ⟨19, _⟩ => ⟨S128x4096, .f32⟩
  | .local _ .vmem, ⟨20, _⟩ => ⟨S128x4096, .f32⟩
  | .local _ .vmem, ⟨21, _⟩ => ⟨S128x4096, .f32⟩
  | .local _ .vmem, ⟨22, _⟩ => ⟨S128x4096, .f32⟩
  | .local _ .vmem, ⟨23, _⟩ => ⟨S512x128, .f32⟩
  | .local _ .vmem, ⟨24, _⟩ => ⟨S512x128, .f32⟩
  | .local _ .vmem, ⟨25, _⟩ => ⟨S256x2048, .f32⟩
  | .local _ .vmem, ⟨26, _⟩ => ⟨S256x2048, .f32⟩
  | .local _ .vmem, ⟨27, _⟩ => ⟨S1x2048, .f32⟩
  | .local _ .vmem, ⟨28, _⟩ => ⟨S1x2048, .f32⟩
  | .local _ .vmem, ⟨29, _⟩ => ⟨S1x2048, .f32⟩
  | .local _ .vmem, ⟨30, _⟩ => ⟨S1x2048, .f32⟩
  | .local _ .vmem, ⟨31, _⟩ => ⟨S1x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | .local _ .vmem, ⟨35, _⟩ => ⟨S256x2048, .f32⟩
  | .local _ .vmem, ⟨36, _⟩ => ⟨S1000x2048, .f32⟩
  | .local _ .vmem, ⟨37, _⟩ => ⟨S1000x2048, .f32⟩
  | .local _ .vmem, ⟨38, _⟩ => ⟨S1x1000, .f32⟩
  | .local _ .vmem, ⟨39, _⟩ => ⟨S1x1000, .f32⟩
  | .local _ .vmem, ⟨40, _⟩ => ⟨S1x1000, .f32⟩
  | .local _ .vmem, ⟨41, _⟩ => ⟨S1x1000, .f32⟩
  | .local _ .vmem, ⟨42, _⟩ => ⟨S1x1000, .f32⟩
  | .local _ .vmem, ⟨43, _⟩ => ⟨S256x1000, .f32⟩
  | .local _ .vmem, ⟨44, _⟩ => ⟨S256x1000, .f32⟩
  | .local _ .vmem, ⟨45, _⟩ => ⟨S256x1000, .f32⟩
  | .local _ .vmem, ⟨46, _⟩ => ⟨S256x1000, .f32⟩
  | .local _ .vmem, ⟨47, _⟩ => ⟨S200x1000, .f32⟩
  | .local _ .vmem, ⟨48, _⟩ => ⟨S200x1000, .f32⟩
  | .local _ .vmem, ⟨49, _⟩ => ⟨S1x200, .f32⟩
  | .local _ .vmem, ⟨50, _⟩ => ⟨S256x200, .f32⟩
  | .local _ .vmem, ⟨51, _⟩ => ⟨S256x200, .f32⟩
  | .local _ .vmem, ⟨52, _⟩ => ⟨S256x200, .f32⟩
  | .local _ .vmem, ⟨53, _⟩ => ⟨S256x200, .f32⟩
  | .local _ .vmem, ⟨54, _⟩ => ⟨S50x200, .f32⟩
  | .local _ .vmem, ⟨55, _⟩ => ⟨S1x50, .f32⟩
  | .local _ .vmem, ⟨56, _⟩ => ⟨S256x50, .f32⟩
  | .local _ .vmem, ⟨57, _⟩ => ⟨S256x50, .f32⟩
  | _, _ => ⟨S8192x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_call0_v0 : Ref sig .tc := ⟨.hbm, 28, rfl⟩
abbrev main_v0 : Ref sig .tc := ⟨.hbm, 29, rfl⟩
abbrev main_c_0 : Ref sig .tc := ⟨.hbm, 30, rfl⟩
abbrev main_call1_v0 : Ref sig .tc := ⟨.hbm, 31, rfl⟩
abbrev main_v1 : Ref sig .tc := ⟨.hbm, 32, rfl⟩
abbrev main_c_1 : Ref sig .tc := ⟨.hbm, 33, rfl⟩
abbrev main_call2_v0 : Ref sig .tc := ⟨.hbm, 34, rfl⟩
abbrev main_v2 : Ref sig .tc := ⟨.hbm, 35, rfl⟩
abbrev main_c_2 : Ref sig .tc := ⟨.hbm, 36, rfl⟩
abbrev main_call3_v0 : Ref sig .tc := ⟨.hbm, 37, rfl⟩
abbrev main_v3 : Ref sig .tc := ⟨.hbm, 38, rfl⟩
abbrev main_c_3 : Ref sig .tc := ⟨.hbm, 39, rfl⟩
abbrev main_call4_v0 : Ref sig .tc := ⟨.hbm, 40, rfl⟩
abbrev main_v4 : Ref sig .tc := ⟨.hbm, 41, rfl⟩
abbrev main_c_4 : Ref sig .tc := ⟨.hbm, 42, rfl⟩
abbrev main_call5_v0 : Ref sig .tc := ⟨.hbm, 43, rfl⟩
abbrev main_v5 : Ref sig .tc := ⟨.hbm, 44, rfl⟩
abbrev main_c_5 : Ref sig .tc := ⟨.hbm, 45, rfl⟩
abbrev main_call6_v0 : Ref sig .tc := ⟨.hbm, 46, rfl⟩
abbrev main_v6 : Ref sig .tc := ⟨.hbm, 47, rfl⟩
abbrev main_c_6 : Ref sig .tc := ⟨.hbm, 48, rfl⟩
abbrev main_call7_v0 : Ref sig .tc := ⟨.hbm, 49, rfl⟩
abbrev main_v7 : Ref sig .tc := ⟨.hbm, 50, rfl⟩
abbrev main_c_7 : Ref sig .tc := ⟨.hbm, 51, rfl⟩
abbrev main_call8_v0 : Ref sig .tc := ⟨.hbm, 52, rfl⟩
abbrev main_v8 : Ref sig .tc := ⟨.hbm, 53, rfl⟩
abbrev main_c_8 : Ref sig .tc := ⟨.hbm, 54, rfl⟩
abbrev main_call9_v0 : Ref sig .tc := ⟨.hbm, 55, rfl⟩
abbrev main_v9 : Ref sig .tc := ⟨.hbm, 56, rfl⟩
abbrev main_c_9 : Ref sig .tc := ⟨.hbm, 57, rfl⟩
abbrev main_call10_v0 : Ref sig .tc := ⟨.hbm, 58, rfl⟩
abbrev main_v10 : Ref sig .tc := ⟨.hbm, 59, rfl⟩
abbrev main_c_10 : Ref sig .tc := ⟨.hbm, 60, rfl⟩
abbrev main_call11_v0 : Ref sig .tc := ⟨.hbm, 61, rfl⟩
abbrev main_v11 : Ref sig .tc := ⟨.hbm, 62, rfl⟩
abbrev main_c_11 : Ref sig .tc := ⟨.hbm, 63, rfl⟩
abbrev main_call12_v0 : Ref sig .tc := ⟨.hbm, 64, rfl⟩
abbrev main_v12 : Ref sig .tc := ⟨.hbm, 65, rfl⟩
abbrev main_c_12 : Ref sig .tc := ⟨.hbm, 66, rfl⟩
abbrev main_call13_v0 : Ref sig .tc := ⟨.hbm, 67, rfl⟩
abbrev main_v13 : Ref sig .tc := ⟨.hbm, 68, rfl⟩
abbrev main_c_13 : Ref sig .tc := ⟨.hbm, 69, rfl⟩
abbrev main_call14_v0 : Ref sig .tc := ⟨.hbm, 70, rfl⟩
abbrev main_v14 : Ref sig .tc := ⟨.hbm, 71, rfl⟩
abbrev main_c_14 : Ref sig .tc := ⟨.hbm, 72, rfl⟩
abbrev main_call15_v0 : Ref sig .tc := ⟨.hbm, 73, rfl⟩
abbrev main_v15 : Ref sig .tc := ⟨.hbm, 74, rfl⟩
abbrev main_c_15 : Ref sig .tc := ⟨.hbm, 75, rfl⟩
abbrev main_call16_v0 : Ref sig .tc := ⟨.hbm, 76, rfl⟩
abbrev main_v16 : Ref sig .tc := ⟨.hbm, 77, rfl⟩
abbrev main_c_16 : Ref sig .tc := ⟨.hbm, 78, rfl⟩
abbrev main_call17_v0 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg7_0 : Ref sig .tc := ⟨.vmem, 42, rfl⟩
abbrev cc4_stg8_0 : Ref sig .tc := ⟨.vmem, 43, rfl⟩
abbrev cc4_stg8_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg3_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem7_0 : DmaSem sig := 42
abbrev cc4_sem8_0 : DmaSem sig := 43
abbrev cc4_sem8_1 : DmaSem sig := 44
abbrev cc5_sem0_0 : DmaSem sig := 45
abbrev cc5_sem0_1 : DmaSem sig := 46
abbrev cc5_sem1_0 : DmaSem sig := 47
abbrev cc5_sem2_0 : DmaSem sig := 48
abbrev cc5_sem3_0 : DmaSem sig := 49
abbrev cc5_sem4_0 : DmaSem sig := 50
abbrev cc5_sem4_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem3_1 : DmaSem sig := 57

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x5000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x5000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![16, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S128x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1000x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1000x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1000 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1000 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1000 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1000 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1000 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S256x1000 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x1000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S200x1000 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S200x1000 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x200 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S256x200 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x200 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S50x200 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x50 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S256x50 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  pads_S4000x5000_S4096x5000_0960_000 : S4000x5000.Pads (![0, 0] : Fin 2 → Nat) ![96, 0] ![0, 0] S4096x5000
  h_S_ : 0 < S_.numel
  pads_S4000_S4096_0960 : S4000.Pads (![0] : Fin 1 → Nat) ![96] ![0] S4096
  pads_S2000x4000_S2048x4000_0480_000 : S2000x4000.Pads (![0, 0] : Fin 2 → Nat) ![48, 0] ![0, 0] S2048x4000
  pads_S2048x4000_S2048x4096_000_0960 : S2048x4000.Pads (![0, 0] : Fin 2 → Nat) ![0, 96] ![0, 0] S2048x4096
  pads_S2000_S2048_0480 : S2000.Pads (![0] : Fin 1 → Nat) ![48] ![0] S2048
  pads_S1000x2000_S1000x2048_000_0480 : S1000x2000.Pads (![0, 0] : Fin 2 → Nat) ![0, 48] ![0, 0] S1000x2048
  inb_S512x5000_S512x5000_0_0 : ∀ a, (![0, 0] : Fin 2 → Nat) a + S512x5000.size a ≤ S512x5000.size a
  h_S512x5000 : 0 < S512x5000.numel
  bitsLt_bf16_f32 : FTy.bits .bf16 < FTy.bits .f32
  inb_S128x5000_S128x5000_0_0 : ∀ a, (![0, 0] : Fin 2 → Nat) a + S128x5000.size a ≤ S128x5000.size a
  h_S128x5000 : 0 < S128x5000.numel
  shapeCasts_S128x5000_S128x5000 : S128x5000.ShapeCasts S128x5000
  inb_S512x128_S512x128_0_0 : ∀ a, (![0, 0] : Fin 2 → Nat) a + S512x128.size a ≤ S512x128.size a
  h_S512x128 : 0 < S512x128.numel
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S1000_S1x1000 : S1000.ShapeCasts S1x1000
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S256x1000 : S1x1000.Broadcasts S256x1000
  inb_S256x1000_S256x1000_0_0 : ∀ a, (![0, 0] : Fin 2 → Nat) a + S256x1000.size a ≤ S256x1000.size a
  h_S256x1000 : 0 < S256x1000.numel
  shapeCasts_S200_S1x200 : S200.ShapeCasts S1x200
  shapeCasts_S256x1000_S256x1000 : S256x1000.ShapeCasts S256x1000
  inb_S200x1000_S200x1000_0_0 : ∀ a, (![0, 0] : Fin 2 → Nat) a + S200x1000.size a ≤ S200x1000.size a
  h_S200x1000 : 0 < S200x1000.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S256x200 : S1x200.Broadcasts S256x200
  inb_S256x200_S256x200_0_0 : ∀ a, (![0, 0] : Fin 2 → Nat) a + S256x200.size a ≤ S256x200.size a
  h_S256x200 : 0 < S256x200.numel
  shapeCasts_S50_S1x50 : S50.ShapeCasts S1x50
  shapeCasts_S256x200_S256x200 : S256x200.ShapeCasts S256x200
  inb_S50x200_S50x200_0_0 : ∀ a, (![0, 0] : Fin 2 → Nat) a + S50x200.size a ≤ S50x200.size a
  h_S50x200 : 0 < S50x200.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S256x50 : S1x50.Broadcasts S256x50
  inb_S256x50_S256x50_0_0 : ∀ a, (![0, 0] : Fin 2 → Nat) a + S256x50.size a ≤ S256x50.size a
  h_S256x50 : 0 < S256x50.numel
  dot_S512x5000_S128x5000_S512x128_1_1_0_0_n_n_wf : DotDims.WF S512x5000 S128x5000 S512x128 [1] [1] [0] [0] [] []
  dot_S512x4096_S128x4096_S512x128_1_1_0_0_n_n_wf : DotDims.WF S512x4096 S128x4096 S512x128 [1] [1] [0] [0] [] []
  dot_S256x2048_S1000x2048_S256x1000_1_1_0_0_n_n_wf : DotDims.WF S256x2048 S1000x2048 S256x1000 [1] [1] [0] [0] [] []
  dot_S256x1000_S200x1000_S256x200_1_1_0_0_n_n_wf : DotDims.WF S256x1000 S200x1000 S256x200 [1] [1] [0] [0] [] []
  dot_S256x200_S50x200_S256x50_1_1_0_0_n_n_wf : DotDims.WF S256x200 S50x200 S256x50 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x5000.size a ≤ S8192x5000.size a
  hwx0_0 : ∀ i : grid0.Coords, EltTy.bits .f32 = 32 ∨ (Rect.block (s := S8192x5000) S512x5000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x5000.size a ≤ S4096x5000.size a
  hwx0_1 : ∀ i : grid0.Coords, EltTy.bits .f32 = 32 ∨ (Rect.block (s := S4096x5000) S128x5000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x5000.size a ≤ S4096x5000.size a
  hwx0_2 : ∀ i : grid0.Coords, EltTy.bits .f32 = 32 ∨ (Rect.block (s := S4096x5000) S128x5000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S8192x4096.size a
  hwx0_3 : ∀ i : grid0.Coords, EltTy.bits .f32 = 32 ∨ (Rect.block (s := S8192x4096) S512x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x4096.size a ≤ S8192x4096.size a
  hwx1_6 : ∀ i : grid1.Coords, EltTy.bits .f32 = 32 ∨ (Rect.block (s := S8192x4096) S256x4096.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S8192x4096.size a
  hwx2_0 : ∀ i : grid2.Coords, EltTy.bits .f32 = 32 ∨ (Rect.block (s := S8192x4096) S512x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x4096.size a ≤ S2048x4096.size a
  hwx2_1 : ∀ i : grid2.Coords, EltTy.bits .f32 = 32 ∨ (Rect.block (s := S2048x4096) S128x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x4096.size a ≤ S2048x4096.size a
  hwx2_2 : ∀ i : grid2.Coords, EltTy.bits .f32 = 32 ∨ (Rect.block (s := S2048x4096) S128x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S8192x2048.size a
  hwx2_3 : ∀ i : grid2.Coords, EltTy.bits .f32 = 32 ∨ (Rect.block (s := S8192x2048) S512x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S8192x2048.size a
  hwx3_0 : ∀ i : grid3.Coords, EltTy.bits .f32 = 32 ∨ (Rect.block (s := S8192x2048) S256x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048.size a ≤ S1x2048.size a
  hwx3_1 : ∀ i : grid3.Coords, EltTy.bits .f32 = 32 ∨ (Rect.block (s := S1x2048) S1x2048.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x2048.size a
  hwx3_2 : ∀ i : grid3.Coords, EltTy.bits .f32 = 32 ∨ (Rect.block (s := S1x2048) S1x2048.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2048.size a ≤ S1x2048.size a
  hwx3_3 : ∀ i : grid3.Coords, EltTy.bits .f32 = 32 ∨ (Rect.block (s := S1x2048) S1x2048.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2048.size a ≤ S1x2048.size a
  hwx3_4 : ∀ i : grid3.Coords, EltTy.bits .f32 = 32 ∨ (Rect.block (s := S1x2048) S1x2048.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x2048.size a ≤ S1x2048.size a
  hwx3_5 : ∀ i : grid3.Coords, EltTy.bits .f32 = 32 ∨ (Rect.block (s := S1x2048) S1x2048.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S256x2048.size a ≤ S8192x2048.size a
  hwx3_6 : ∀ i : grid3.Coords, EltTy.bits .f32 = 32 ∨ (Rect.block (s := S8192x2048) S256x2048.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x2048.size a ≤ S8192x2048.size a
  hwx4_0 : ∀ i : grid4.Coords, EltTy.bits .f32 = 32 ∨ (Rect.block (s := S8192x2048) S256x2048.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1000x2048.size a ≤ S1000x2048.size a
  hwx4_1 : ∀ i : grid4.Coords, EltTy.bits .f32 = 32 ∨ (Rect.block (s := S1000x2048) S1000x2048.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1000x2048.size a ≤ S1000x2048.size a
  hwx4_2 : ∀ i : grid4.Coords, EltTy.bits .f32 = 32 ∨ (Rect.block (s := S1000x2048) S1000x2048.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1000.size a ≤ S1x1000.size a
  hwx4_3 : ∀ i : grid4.Coords, EltTy.bits .f32 = 32 ∨ (Rect.block (s := S1x1000) S1x1000.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1000.size a ≤ S1x1000.size a
  hwx4_4 : ∀ i : grid4.Coords, EltTy.bits .f32 = 32 ∨ (Rect.block (s := S1x1000) S1x1000.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1000.size a ≤ S1x1000.size a
  hwx4_5 : ∀ i : grid4.Coords, EltTy.bits .f32 = 32 ∨ (Rect.block (s := S1x1000) S1x1000.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1000.size a ≤ S1x1000.size a
  hwx4_6 : ∀ i : grid4.Coords, EltTy.bits .f32 = 32 ∨ (Rect.block (s := S1x1000) S1x1000.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1000.size a ≤ S1x1000.size a
  hwx4_7 : ∀ i : grid4.Coords, EltTy.bits .f32 = 32 ∨ (Rect.block (s := S1x1000) S1x1000.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S256x1000.size a ≤ S8192x1000.size a
  hwx4_8 : ∀ i : grid4.Coords, EltTy.bits .f32 = 32 ∨ (Rect.block (s := S8192x1000) S256x1000.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x1000.size a ≤ S8192x1000.size a
  hwx5_0 : ∀ i : grid5.Coords, EltTy.bits .f32 = 32 ∨ (Rect.block (s := S8192x1000) S256x1000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S200x1000.size a ≤ S200x1000.size a
  hwx5_1 : ∀ i : grid5.Coords, EltTy.bits .f32 = 32 ∨ (Rect.block (s := S200x1000) S200x1000.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S200x1000.size a ≤ S200x1000.size a
  hwx5_2 : ∀ i : grid5.Coords, EltTy.bits .f32 = 32 ∨ (Rect.block (s := S200x1000) S200x1000.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x200.size a ≤ S1x200.size a
  hwx5_3 : ∀ i : grid5.Coords, EltTy.bits .f32 = 32 ∨ (Rect.block (s := S1x200) S1x200.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S256x200.size a ≤ S8192x200.size a
  hwx5_4 : ∀ i : grid5.Coords, EltTy.bits .f32 = 32 ∨ (Rect.block (s := S8192x200) S256x200.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x200.size a ≤ S8192x200.size a
  hwx6_0 : ∀ i : grid6.Coords, EltTy.bits .f32 = 32 ∨ (Rect.block (s := S8192x200) S256x200.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S50x200.size a ≤ S50x200.size a
  hwx6_1 : ∀ i : grid6.Coords, EltTy.bits .f32 = 32 ∨ (Rect.block (s := S50x200) S50x200.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x50.size a ≤ S1x50.size a
  hwx6_2 : ∀ i : grid6.Coords, EltTy.bits .f32 = 32 ∨ (Rect.block (s := S1x50) S1x50.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S256x50.size a ≤ S8192x50.size a
  hwx6_3 : ∀ i : grid6.Coords, EltTy.bits .f32 = 32 ∨ (Rect.block (s := S8192x50) S256x50.size (cc6_transform_3 i) (hinb6_3 i)).WholeWords (EltTy.packing .f32)

variable [Facts₀]

def dot_S512x5000_S128x5000_S512x128_1_1_0_0_n_n : DotDims S512x5000 S128x5000 S512x128 where
  lhsContracting := [1]
  rhsContracting := [1]
  lhsNonContracting := [0]
  rhsNonContracting := [0]
  lhsBatch := []
  rhsBatch := []
  wf := dot_S512x5000_S128x5000_S512x128_1_1_0_0_n_n_wf
def dot_S512x4096_S128x4096_S512x128_1_1_0_0_n_n : DotDims S512x4096 S128x4096 S512x128 where
  lhsContracting := [1]
  rhsContracting := [1]
  lhsNonContracting := [0]
  rhsNonContracting := [0]
  lhsBatch := []
  rhsBatch := []
  wf := dot_S512x4096_S128x4096_S512x128_1_1_0_0_n_n_wf
def dot_S256x2048_S1000x2048_S256x1000_1_1_0_0_n_n : DotDims S256x2048 S1000x2048 S256x1000 where
  lhsContracting := [1]
  rhsContracting := [1]
  lhsNonContracting := [0]
  rhsNonContracting := [0]
  lhsBatch := []
  rhsBatch := []
  wf := dot_S256x2048_S1000x2048_S256x1000_1_1_0_0_n_n_wf
def dot_S256x1000_S200x1000_S256x200_1_1_0_0_n_n : DotDims S256x1000 S200x1000 S256x200 where
  lhsContracting := [1]
  rhsContracting := [1]
  lhsNonContracting := [0]
  rhsNonContracting := [0]
  lhsBatch := []
  rhsBatch := []
  wf := dot_S256x1000_S200x1000_S256x200_1_1_0_0_n_n_wf
def dot_S256x200_S50x200_S256x50_1_1_0_0_n_n : DotDims S256x200 S50x200 S256x50 where
  lhsContracting := [1]
  rhsContracting := [1]
  lhsNonContracting := [0]
  rhsNonContracting := [0]
  lhsBatch := []
  rhsBatch := []
  wf := dot_S256x200_S50x200_S256x50_1_1_0_0_n_n_wf

abbrev win0_0 : Pipeline.Window sig grid0 :=
  Pipeline.Window.ofSpec (Memref.whole main_arg0) S512x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x5000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x5000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S256x4096.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v24) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S128x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S128x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v25) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S1x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v27) S1x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v28) S1x2048.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S1x2048.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v30) S1x2048.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v31) S256x2048.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v31) S256x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S1000x2048.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v17) S1000x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v32) S1x1000.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v33) S1x1000.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v34) S1x1000.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v35) S1x1000.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v36) S1x1000.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v37) S256x1000.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v37) S256x1000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S200x1000.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S200x1000.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v38) S1x200.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v39) S256x200.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v39) S256x200.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg25) S50x200.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v40) S1x50.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v41) S256x50.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S8192x5000 : Shape := ⟨2, ![8192, 5000]⟩
abbrev S4000x5000 : Shape := ⟨2, ![4000, 5000]⟩
abbrev S4000 : Shape := ⟨1, ![4000]⟩
abbrev S2000x4000 : Shape := ⟨2, ![2000, 4000]⟩
abbrev S2000 : Shape := ⟨1, ![2000]⟩
abbrev S1000x2000 : Shape := ⟨2, ![1000, 2000]⟩
abbrev S1000 : Shape := ⟨1, ![1000]⟩
abbrev S200x1000 : Shape := ⟨2, ![200, 1000]⟩
abbrev S200 : Shape := ⟨1, ![200]⟩
abbrev S50x200 : Shape := ⟨2, ![50, 200]⟩
abbrev S50 : Shape := ⟨1, ![50]⟩
abbrev S5000x4000 : Shape := ⟨2, ![5000, 4000]⟩
abbrev S8192x4000 : Shape := ⟨2, ![8192, 4000]⟩
abbrev S1x4000 : Shape := ⟨2, ![1, 4000]⟩
abbrev S_ : Shape := ⟨0, ![]⟩
abbrev S4000x2000 : Shape := ⟨2, ![4000, 2000]⟩
abbrev S8192x2000 : Shape := ⟨2, ![8192, 2000]⟩
abbrev S1x2000 : Shape := ⟨2, ![1, 2000]⟩
abbrev S2000x1000 : Shape := ⟨2, ![2000, 1000]⟩
abbrev S8192x1000 : Shape := ⟨2, ![8192, 1000]⟩
abbrev S1x1000 : Shape := ⟨2, ![1, 1000]⟩
abbrev S1000x200 : Shape := ⟨2, ![1000, 200]⟩
abbrev S8192x200 : Shape := ⟨2, ![8192, 200]⟩
abbrev S1x200 : Shape := ⟨2, ![1, 200]⟩
abbrev S200x50 : Shape := ⟨2, ![200, 50]⟩
abbrev S8192x50 : Shape := ⟨2, ![8192, 50]⟩
abbrev S1x50 : Shape := ⟨2, ![1, 50]⟩

abbrev nBuf : Space → Nat
  | .hbm => 116
  | .vmem => 0
  | .smem => 0
  | _ => 0

abbrev bufTy : (tb : Table) → Fin (tcTables nBuf tb) → BufTy
  | .hbm, ⟨0, _⟩ => ⟨S8192x5000, .f32⟩
  | .hbm, ⟨1, _⟩ => ⟨S4000x5000, .f32⟩
  | .hbm, ⟨2, _⟩ => ⟨S4000, .f32⟩
  | .hbm, ⟨3, _⟩ => ⟨S4000x5000, .f32⟩
  | .hbm, ⟨4, _⟩ => ⟨S2000x4000, .f32⟩
  | .hbm, ⟨5, _⟩ => ⟨S2000, .f32⟩
  | .hbm, ⟨6, _⟩ => ⟨S2000x4000, .f32⟩
  | .hbm, ⟨7, _⟩ => ⟨S1000x2000, .f32⟩
  | .hbm, ⟨8, _⟩ => ⟨S1000, .f32⟩
  | .hbm, ⟨9, _⟩ => ⟨S1000x2000, .f32⟩
  | .hbm, ⟨10, _⟩ => ⟨S200x1000, .f32⟩
  | .hbm, ⟨11, _⟩ => ⟨S200, .f32⟩
  | .hbm, ⟨12, _⟩ => ⟨S200x1000, .f32⟩
  | .hbm, ⟨13, _⟩ => ⟨S4000, .f32⟩
  | .hbm, ⟨14, _⟩ => ⟨S4000, .f32⟩
  | .hbm, ⟨15, _⟩ => ⟨S4000, .f32⟩
  | .hbm, ⟨16, _⟩ => ⟨S4000, .f32⟩
  | .hbm, ⟨17, _⟩ => ⟨S2000, .f32⟩
  | .hbm, ⟨18, _⟩ => ⟨S2000, .f32⟩
  | .hbm, ⟨19, _⟩ => ⟨S2000, .f32⟩
  | .hbm, ⟨20, _⟩ => ⟨S2000, .f32⟩
  | .hbm, ⟨21, _⟩ => ⟨S1000, .f32⟩
  | .hbm, ⟨22, _⟩ => ⟨S1000, .f32⟩
  | .hbm, ⟨23, _⟩ => ⟨S1000, .f32⟩
  | .hbm, ⟨24, _⟩ => ⟨S1000, .f32⟩
  | .hbm, ⟨25, _⟩ => ⟨S50x200, .f32⟩
  | .hbm, ⟨26, _⟩ => ⟨S50, .f32⟩
  | .hbm, ⟨27, _⟩ => ⟨S4000x5000, .f32⟩
  | .hbm, ⟨28, _⟩ => ⟨S5000x4000, .f32⟩
  | .hbm, ⟨29, _⟩ => ⟨S8192x4000, .f32⟩
  | .hbm, ⟨30, _⟩ => ⟨S1x4000, .f32⟩
  | .hbm, ⟨31, _⟩ => ⟨S8192x4000, .f32⟩
  | .hbm, ⟨32, _⟩ => ⟨S8192x4000, .f32⟩
  | .hbm, ⟨33, _⟩ => ⟨S1x4000, .f32⟩
  | .hbm, ⟨34, _⟩ => ⟨S8192x4000, .f32⟩
  | .hbm, ⟨35, _⟩ => ⟨S8192x4000, .f32⟩
  | .hbm, ⟨36, _⟩ => ⟨S1x4000, .f32⟩
  | .hbm, ⟨37, _⟩ => ⟨S8192x4000, .f32⟩
  | .hbm, ⟨38, _⟩ => ⟨S8192x4000, .f32⟩
  | .hbm, ⟨39, _⟩ => ⟨S_, .f32⟩
  | .hbm, ⟨40, _⟩ => ⟨S4000, .f32⟩
  | .hbm, ⟨41, _⟩ => ⟨S4000, .f32⟩
  | .hbm, ⟨42, _⟩ => ⟨S4000, .f32⟩
  | .hbm, ⟨43, _⟩ => ⟨S1x4000, .f32⟩
  | .hbm, ⟨44, _⟩ => ⟨S8192x4000, .f32⟩
  | .hbm, ⟨45, _⟩ => ⟨S8192x4000, .f32⟩
  | .hbm, ⟨46, _⟩ => ⟨S1x4000, .f32⟩
  | .hbm, ⟨47, _⟩ => ⟨S8192x4000, .f32⟩
  | .hbm, ⟨48, _⟩ => ⟨S8192x4000, .f32⟩
  | .hbm, ⟨49, _⟩ => ⟨S_, .f32⟩
  | .hbm, ⟨50, _⟩ => ⟨S8192x4000, .f32⟩
  | .hbm, ⟨51, _⟩ => ⟨S8192x4000, .f32⟩
  | .hbm, ⟨52, _⟩ => ⟨S2000x4000, .f32⟩
  | .hbm, ⟨53, _⟩ => ⟨S4000x2000, .f32⟩
  | .hbm, ⟨54, _⟩ => ⟨S8192x2000, .f32⟩
  | .hbm, ⟨55, _⟩ => ⟨S1x2000, .f32⟩
  | .hbm, ⟨56, _⟩ => ⟨S8192x2000, .f32⟩
  | .hbm, ⟨57, _⟩ => ⟨S8192x2000, .f32⟩
  | .hbm, ⟨58, _⟩ => ⟨S1x2000, .f32⟩
  | .hbm, ⟨59, _⟩ => ⟨S8192x2000, .f32⟩
  | .hbm, ⟨60, _⟩ => ⟨S8192x2000, .f32⟩
  | .hbm, ⟨61, _⟩ => ⟨S1x2000, .f32⟩
  | .hbm, ⟨62, _⟩ => ⟨S8192x2000, .f32⟩
  | .hbm, ⟨63, _⟩ => ⟨S8192x2000, .f32⟩
  | .hbm, ⟨64, _⟩ => ⟨S_, .f32⟩
  | .hbm, ⟨65, _⟩ => ⟨S2000, .f32⟩
  | .hbm, ⟨66, _⟩ => ⟨S2000, .f32⟩
  | .hbm, ⟨67, _⟩ => ⟨S2000, .f32⟩
  | .hbm, ⟨68, _⟩ => ⟨S1x2000, .f32⟩
  | .hbm, ⟨69, _⟩ => ⟨S8192x2000, .f32⟩
  | .hbm, ⟨70, _⟩ => ⟨S8192x2000, .f32⟩
  | .hbm, ⟨71, _⟩ => ⟨S1x2000, .f32⟩
  | .hbm, ⟨72, _⟩ => ⟨S8192x2000, .f32⟩
  | .hbm, ⟨73, _⟩ => ⟨S8192x2000, .f32⟩
  | .hbm, ⟨74, _⟩ => ⟨S_, .f32⟩
  | .hbm, ⟨75, _⟩ => ⟨S8192x2000, .f32⟩
  | .hbm, ⟨76, _⟩ => ⟨S8192x2000, .f32⟩
  | .hbm, ⟨77, _⟩ => ⟨S1000x2000, .f32⟩
  | .hbm, ⟨78, _⟩ => ⟨S2000x1000, .f32⟩
  | .hbm, ⟨79, _⟩ => ⟨S8192x1000, .f32⟩
  | .hbm, ⟨80, _⟩ => ⟨S1x1000, .f32⟩
  | .hbm, ⟨81, _⟩ => ⟨S8192x1000, .f32⟩
  | .hbm, ⟨82, _⟩ => ⟨S8192x1000, .f32⟩
  | .hbm, ⟨83, _⟩ => ⟨S1x1000, .f32⟩
  | .hbm, ⟨84, _⟩ => ⟨S8192x1000, .f32⟩
  | .hbm, ⟨85, _⟩ => ⟨S8192x1000, .f32⟩
  | .hbm, ⟨86, _⟩ => ⟨S1x1000, .f32⟩
  | .hbm, ⟨87, _⟩ => ⟨S8192x1000, .f32⟩
  | .hbm, ⟨88, _⟩ => ⟨S8192x1000, .f32⟩
  | .hbm, ⟨89, _⟩ => ⟨S_, .f32⟩
  | .hbm, ⟨90, _⟩ => ⟨S1000, .f32⟩
  | .hbm, ⟨91, _⟩ => ⟨S1000, .f32⟩
  | .hbm, ⟨92, _⟩ => ⟨S1000, .f32⟩
  | .hbm, ⟨93, _⟩ => ⟨S1x1000, .f32⟩
  | .hbm, ⟨94, _⟩ => ⟨S8192x1000, .f32⟩
  | .hbm, ⟨95, _⟩ => ⟨S8192x1000, .f32⟩
  | .hbm, ⟨96, _⟩ => ⟨S1x1000, .f32⟩
  | .hbm, ⟨97, _⟩ => ⟨S8192x1000, .f32⟩
  | .hbm, ⟨98, _⟩ => ⟨S8192x1000, .f32⟩
  | .hbm, ⟨99, _⟩ => ⟨S_, .f32⟩
  | .hbm, ⟨100, _⟩ => ⟨S8192x1000, .f32⟩
  | .hbm, ⟨101, _⟩ => ⟨S8192x1000, .f32⟩
  | .hbm, ⟨102, _⟩ => ⟨S200x1000, .f32⟩
  | .hbm, ⟨103, _⟩ => ⟨S1000x200, .f32⟩
  | .hbm, ⟨104, _⟩ => ⟨S8192x200, .f32⟩
  | .hbm, ⟨105, _⟩ => ⟨S1x200, .f32⟩
  | .hbm, ⟨106, _⟩ => ⟨S8192x200, .f32⟩
  | .hbm, ⟨107, _⟩ => ⟨S8192x200, .f32⟩
  | .hbm, ⟨108, _⟩ => ⟨S_, .f32⟩
  | .hbm, ⟨109, _⟩ => ⟨S8192x200, .f32⟩
  | .hbm, ⟨110, _⟩ => ⟨S8192x200, .f32⟩
  | .hbm, ⟨111, _⟩ => ⟨S200x50, .f32⟩
  | .hbm, ⟨112, _⟩ => ⟨S8192x50, .f32⟩
  | .hbm, ⟨113, _⟩ => ⟨S1x50, .f32⟩
  | .hbm, ⟨114, _⟩ => ⟨S8192x50, .f32⟩
  | .hbm, ⟨115, _⟩ => ⟨S8192x50, .f32⟩
  | _, _ => ⟨S8192x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_call0_cst : Ref sig .tc := ⟨.hbm, 49, rfl⟩
abbrev main_call0_v0 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_0 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call1_cst : Ref sig .tc := ⟨.hbm, 74, rfl⟩
abbrev main_call1_v0 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_1 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_call2_cst : Ref sig .tc := ⟨.hbm, 99, rfl⟩
abbrev main_call2_v0 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_call3_cst : Ref sig .tc := ⟨.hbm, 108, rfl⟩
abbrev main_call3_v0 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩

abbrev nD : Nat := 1
abbrev τ : Topo := Topo.v7x

variable {F : FTy → Type} [FloatOps F]

class Facts₀ : Prop where
  transposes_S4000x5000_S5000x4000_1_0 : S4000x5000.Transposes [1, 0] S5000x4000
  bcast_S4000_S1x4000_1 : S4000.BroadcastsInDim S1x4000 (![1] : Fin 1 → Fin S1x4000.rank)
  bcast_S1x4000_S8192x4000_0_1 : S1x4000.BroadcastsInDim S8192x4000 (![0, 1] : Fin 2 → Fin S8192x4000.rank)
  bcast_S_S4000 : S_.BroadcastsInDim S4000 (![] : Fin 0 → Fin S4000.rank)
  bcast_S_S8192x4000 : S_.BroadcastsInDim S8192x4000 (![] : Fin 0 → Fin S8192x4000.rank)
  transposes_S2000x4000_S4000x2000_1_0 : S2000x4000.Transposes [1, 0] S4000x2000
  bcast_S2000_S1x2000_1 : S2000.BroadcastsInDim S1x2000 (![1] : Fin 1 → Fin S1x2000.rank)
  bcast_S1x2000_S8192x2000_0_1 : S1x2000.BroadcastsInDim S8192x2000 (![0, 1] : Fin 2 → Fin S8192x2000.rank)
  bcast_S_S2000 : S_.BroadcastsInDim S2000 (![] : Fin 0 → Fin S2000.rank)
  bcast_S_S8192x2000 : S_.BroadcastsInDim S8192x2000 (![] : Fin 0 → Fin S8192x2000.rank)
  transposes_S1000x2000_S2000x1000_1_0 : S1000x2000.Transposes [1, 0] S2000x1000
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  bcast_S_S1000 : S_.BroadcastsInDim S1000 (![] : Fin 0 → Fin S1000.rank)
  bcast_S_S8192x1000 : S_.BroadcastsInDim S8192x1000 (![] : Fin 0 → Fin S8192x1000.rank)
  transposes_S200x1000_S1000x200_1_0 : S200x1000.Transposes [1, 0] S1000x200
  bcast_S200_S1x200_1 : S200.BroadcastsInDim S1x200 (![1] : Fin 1 → Fin S1x200.rank)
  bcast_S1x200_S8192x200_0_1 : S1x200.BroadcastsInDim S8192x200 (![0, 1] : Fin 2 → Fin S8192x200.rank)
  bcast_S_S8192x200 : S_.BroadcastsInDim S8192x200 (![] : Fin 0 → Fin S8192x200.rank)
  transposes_S50x200_S200x50_1_0 : S50x200.Transposes [1, 0] S200x50
  bcast_S50_S1x50_1 : S50.BroadcastsInDim S1x50 (![1] : Fin 1 → Fin S1x50.rank)
  bcast_S1x50_S8192x50_0_1 : S1x50.BroadcastsInDim S8192x50 (![0, 1] : Fin 2 → Fin S8192x50.rank)
  dot_S8192x5000_S5000x4000_S8192x4000_1_0_0_1_n_n_wf : DotDims.WF S8192x5000 S5000x4000 S8192x4000 [1] [0] [0] [1] [] []
  dot_S8192x4000_S4000x2000_S8192x2000_1_0_0_1_n_n_wf : DotDims.WF S8192x4000 S4000x2000 S8192x2000 [1] [0] [0] [1] [] []
  dot_S8192x2000_S2000x1000_S8192x1000_1_0_0_1_n_n_wf : DotDims.WF S8192x2000 S2000x1000 S8192x1000 [1] [0] [0] [1] [] []
  dot_S8192x1000_S1000x200_S8192x200_1_0_0_1_n_n_wf : DotDims.WF S8192x1000 S1000x200 S8192x200 [1] [0] [0] [1] [] []
  dot_S8192x200_S200x50_S8192x50_1_0_0_1_n_n_wf : DotDims.WF S8192x200 S200x50 S8192x50 [1] [0] [0] [1] [] []

variable [Facts₀]

def dot_S8192x5000_S5000x4000_S8192x4000_1_0_0_1_n_n : DotDims S8192x5000 S5000x4000 S8192x4000 where
  lhsContracting := [1]
  rhsContracting := [0]
  lhsNonContracting := [0]
  rhsNonContracting := [1]
  lhsBatch := []
  rhsBatch := []
  wf := dot_S8192x5000_S5000x4000_S8192x4000_1_0_0_1_n_n_wf
def dot_S8192x4000_S4000x2000_S8192x2000_1_0_0_1_n_n : DotDims S8192x4000 S4000x2000 S8192x2000 where
  lhsContracting := [1]
  rhsContracting := [0]
  lhsNonContracting := [0]
  rhsNonContracting := [1]
  lhsBatch := []
  rhsBatch := []
  wf := dot_S8192x4000_S4000x2000_S8192x2000_1_0_0_1_n_n_wf
def dot_S8192x2000_S2000x1000_S8192x1000_1_0_0_1_n_n : DotDims S8192x2000 S2000x1000 S8192x1000 where
  lhsContracting := [1]
  rhsContracting := [0]
  lhsNonContracting := [0]
  rhsNonContracting := [1]
  lhsBatch := []
  rhsBatch := []
  wf := dot_S8192x2000_S2000x1000_S8192x1000_1_0_0_1_n_n_wf
def dot_S8192x1000_S1000x200_S8192x200_1_0_0_1_n_n : DotDims S8192x1000 S1000x200 S8192x200 where
  lhsContracting := [1]
  rhsContracting := [0]
  lhsNonContracting := [0]
  rhsNonContracting := [1]
  lhsBatch := []
  rhsBatch := []
  wf := dot_S8192x1000_S1000x200_S8192x200_1_0_0_1_n_n_wf
def dot_S8192x200_S200x50_S8192x50_1_0_0_1_n_n : DotDims S8192x200 S200x50 S8192x50 where
  lhsContracting := [1]
  rhsContracting := [0]
  lhsNonContracting := [0]
  rhsNonContracting := [1]
  lhsBatch := []
  rhsBatch := []
  wf := dot_S8192x200_S200x50_S8192x50_1_0_0_1_n_n_wf

class Facts : Prop extends Facts₀ where

variable [Facts]
-- ==== Proof.RunValue.lean ====
/-
  The run of the whole program with its result kept.

  Every weakly fair execution of the kernel program from a memory `m` terminates without a fault, with the
  argument arrays as launched and the result array holding what the last region's write-backs leave: the contents
  named `W48 m ρ c` at the result buffer, the last of the boundary contents folded through the host stretches and
  the seven regions.  The statement is the frame claim with one more conjunct, read off the same final thread state.
-/
import proofs.«120771_j77927886619274_1_alg».proof.Proof.Gen.KernelIdeal.Frame

set_option maxRecDepth 16384

noncomputable section

namespace Cert.KernelIdeal.Val

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame run with the result array's final contents kept in the post. -/
theorem run_value : θ_run defs (onTc (τ := τ) (main (F := F))) ⟨m, fun _ => 0, ρ⟩ (fun r => ∀ c : Dev nD,
      r.2.mem ((c.tc : Thread nD τ).loc main_v41) = W48 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W48 m ρ c b)
    (hfin := fun c s' => by
      iintro ⟨⟨Hh, -⟩, HSI⟩
      unfold StableHlo.held
      imodintro
      iapply (pointsTo_read_all (Pipeline.ucRefs τ sig) (fun b => (((c : Thread nD τ)).1, b)) (W48 m ρ c) s')
      isplitl [Hh] <;> iassumption)
    (hQ := fun s h c =>
      ⟨h c _ (mem_uc main_v41 (by decide)),
       (h c _ (mem_uc main_arg0 (by decide))).trans (W48_main_arg0 m ρ c),
       (h c _ (mem_uc main_arg1 (by decide))).trans (W48_main_arg1 m ρ c),
       (h c _ (mem_uc main_arg2 (by decide))).trans (W48_main_arg2 m ρ c),
       (h c _ (mem_uc main_arg3 (by decide))).trans (W48_main_arg3 m ρ c),
       (h c _ (mem_uc main_arg4 (by decide))).trans (W48_main_arg4 m ρ c),
       (h c _ (mem_uc main_arg5 (by decide))).trans (W48_main_arg5 m ρ c),
       (h c _ (mem_uc main_arg6 (by decide))).trans (W48_main_arg6 m ρ c),
       (h c _ (mem_uc main_arg7 (by decide))).trans (W48_main_arg7 m ρ c),
       (h c _ (mem_uc main_arg8 (by decide))).trans (W48_main_arg8 m ρ c),
       (h c _ (mem_uc main_arg9 (by decide))).trans (W48_main_arg9 m ρ c),
       (h c _ (mem_uc main_arg10 (by decide))).trans (W48_main_arg10 m ρ c),
       (h c _ (mem_uc main_arg11 (by decide))).trans (W48_main_arg11 m ρ c),
       (h c _ (mem_uc main_arg12 (by decide))).trans (W48_main_arg12 m ρ c),
       (h c _ (mem_uc main_arg13 (by decide))).trans (W48_main_arg13 m ρ c),
       (h c _ (mem_uc main_arg14 (by decide))).trans (W48_main_arg14 m ρ c),
       (h c _ (mem_uc main_arg15 (by decide))).trans (W48_main_arg15 m ρ c),
       (h c _ (mem_uc main_arg16 (by decide))).trans (W48_main_arg16 m ρ c),
       (h c _ (mem_uc main_arg17 (by decide))).trans (W48_main_arg17 m ρ c),
       (h c _ (mem_uc main_arg18 (by decide))).trans (W48_main_arg18 m ρ c),
       (h c _ (mem_uc main_arg19 (by decide))).trans (W48_main_arg19 m ρ c),
       (h c _ (mem_uc main_arg20 (by decide))).trans (W48_main_arg20 m ρ c),
       (h c _ (mem_uc main_arg21 (by decide))).trans (W48_main_arg21 m ρ c),
       (h c _ (mem_uc main_arg22 (by decide))).trans (W48_main_arg22 m ρ c),
       (h c _ (mem_uc main_arg23 (by decide))).trans (W48_main_arg23 m ρ c),
       (h c _ (mem_uc main_arg24 (by decide))).trans (W48_main_arg24 m ρ c),
       (h c _ (mem_uc main_arg25 (by decide))).trans (W48_main_arg25 m ρ c),
       (h c _ (mem_uc main_arg26 (by decide))).trans (W48_main_arg26 m ρ c)⟩)

end Cert.KernelIdeal.Val

end
-- ==== Proof.Spec.lean ====
/-
  A masked multi-layer perceptron on the extended reals, as whole-array functions.

  Every layer multiplies the rows of its input against the rows of a weight matrix masked entry by entry
  (`mdot`: entry `(p, q)` is the sum over `c` of `X (p, c) · (W (q, c) · M (q, c))`).  The first three layers then add
  a bias, normalise with stored statistics and rectify (`norm`: `max (γ · (h + b − μ) · rsqrt (σ² + ε) + β) 0`, the
  vectors indexed by the column); the fourth adds a bias and rectifies (`biasRelu`); the head is a plain affine map
  (`lin`).  `net` is their composition.

  `paddedNet` is the same composition carried out on arrays widened with zeros: the first two layers' weights, masks
  and per-column vectors get extra zero rows (`padRows`, `padVec`), so their outputs get extra columns, and the next
  layer's weights get matching extra zero columns (`padCols`).  That the two agree is proved in `SpecPad`.
-/
import Idealize.ShloMosaic.Lib.ValueIdx
import Idealize.ShloMosaic.PureOps.Ideal

noncomputable section

namespace Cert.MaskedMlp

open Idealize.ShloMosaic Idealize.ShloMosaic.ValueIdx

/-- A matrix and a vector of extended reals, indexed as arrays of literal rank-2 and rank-1 shapes are. -/
abbrev Mat (a b : ℕ) : Type := (⟨2, ![a, b]⟩ : Shape).Idx → EReal
abbrev Vct (a : ℕ) : Type := (⟨1, ![a]⟩ : Shape).Idx → EReal

variable {m k n : ℕ}

/-- The variance offset `ε`: the binary value both programs add before the reciprocal square root. -/
def eps : EReal := Ideal.ofBits .f32 0x3727C5AC#32

/-- Rows of `X` against rows of the masked weight `W ∘ M`. -/
def mdot (X : Mat m k) (W M : Mat n k) : Mat m n :=
  fun i => ∑ c : Fin k, X (ix2 (i 0) c) * (W (ix2 (i 1) c) * M (ix2 (i 1) c))

/-- Bias, normalisation by stored statistics, rectifier; every vector is indexed by the column. -/
def norm (H : Mat m n) (b g be mu var : Vct n) : Mat m n :=
  fun i => max (g (ix1 (i 1)) * (H i + b (ix1 (i 1)) - mu (ix1 (i 1))) * Ideal.rsqrt (var (ix1 (i 1)) + eps)
    + be (ix1 (i 1))) 0

/-- Bias and rectifier. -/
def biasRelu (H : Mat m n) (b : Vct n) : Mat m n := fun i => max (H i + b (ix1 (i 1))) 0

/-- The affine head: rows of `X` against rows of `W`, plus a bias. -/
def lin (X : Mat m k) (W : Mat n k) (b : Vct n) : Mat m n :=
  fun i => (∑ c : Fin k, X (ix2 (i 0) c) * W (ix2 (i 1) c)) + b (ix1 (i 1))

/-- Extra zero rows below a matrix, extra zero columns to its right, extra zero entries after a vector. -/
def padRows (n' : ℕ) (W : Mat n k) : Mat n' k :=
  fun i => if h : (i 0).val < n then W (ix2 ⟨(i 0).val, h⟩ (i 1)) else 0
def padCols (k' : ℕ) (W : Mat n k) : Mat n k' :=
  fun i => if h : (i 1).val < k then W (ix2 (i 0) ⟨(i 1).val, h⟩) else 0
def padVec (n' : ℕ) (v : Vct n) : Vct n' :=
  fun i => if h : (i 0).val < n then v (ix1 ⟨(i 0).val, h⟩) else 0

/-- A one-row matrix read as the vector of its entries. -/
def rowOf (y : Mat 1 n) : Vct n := fun i => y (ix2 (0 : Fin 1) (i 0))

variable {d0 d1 d2 d3 d4 d5 : ℕ}

/-- The network: three masked, normalised, rectified layers, a masked rectified layer, an affine head. -/
def net (x : Mat m d0)
    (w1 m1 : Mat d1 d0) (b1 g1 be1 mu1 var1 : Vct d1)
    (w2 m2 : Mat d2 d1) (b2 g2 be2 mu2 var2 : Vct d2)
    (w3 m3 : Mat d3 d2) (b3 g3 be3 mu3 var3 : Vct d3)
    (w4 m4 : Mat d4 d3) (b4 : Vct d4) (wc : Mat d5 d4) (bc : Vct d5) : Mat m d5 :=
  lin (biasRelu (mdot (norm (mdot (norm (mdot (norm (mdot x w1 m1) b1 g1 be1 mu1 var1) w2 m2) b2 g2 be2 mu2 var2)
    w3 m3) b3 g3 be3 mu3 var3) w4 m4) b4) wc bc

/-- The same network on arrays widened with zeros: layer 1 to `p1 ≥ d1` columns, layer 2 to `p2 ≥ d2`. -/
def paddedNet (p1 p2 : ℕ) (x : Mat m d0)
    (w1 m1 : Mat d1 d0) (b1 g1 be1 mu1 var1 : Vct d1)
    (w2 m2 : Mat d2 d1) (b2 g2 be2 mu2 var2 : Vct d2)
    (w3 m3 : Mat d3 d2) (b3 g3 be3 mu3 var3 : Vct d3)
    (w4 m4 : Mat d4 d3) (b4 : Vct d4) (wc : Mat d5 d4) (bc : Vct d5) : Mat m d5 :=
  lin (biasRelu (mdot (norm (mdot
    (norm (mdot
      (norm (mdot x (padRows p1 w1) (padRows p1 m1))
        (padVec p1 b1) (padVec p1 g1) (padVec p1 be1) (padVec p1 mu1) (padVec p1 var1))
      (padCols p1 (padRows p2 w2)) (padCols p1 (padRows p2 m2)))
      (padVec p2 b2) (padVec p2 g2) (padVec p2 be2) (padVec p2 mu2) (padVec p2 var2))
    (padCols p2 w3) (padCols p2 m3)) b3 g3 be3 mu3 var3) w4 m4) b4) wc bc

end Cert.MaskedMlp

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibRows.lean ====
/-
  A row vector laid along the rows of a matrix, in the two spellings a kernel and a host program give it.

  A vector `x` of `n` entries becomes the one-row matrix `y` with `y (0, j) = x j` either by a reshape or by a
  broadcast along axis 1: the two are one function (`shapeCast_row_eq_broadcastInDim`).  A one-row matrix `y` is laid
  down `m` rows, `(r, j) ↦ y (0, j)`, either by a broadcast of the vector (preceded by a cast of the one-row matrix to
  its own shape) or by a broadcast along both axes: again one function (`broadcastTo_oneRow_eq_broadcastInDim`).
-/
import Idealize.ShloMosaic.Lib.Pipeline.Value
import Idealize.ShloMosaic.Lib.ValueIdx
import Idealize.ShloMosaic.Lib.KernelVsHost

namespace Cert.LibRows

open Idealize.ShloMosaic Idealize.ShloMosaic.ValueIdx

variable {α : Type}

/-- A vector read as a one-row matrix: the reshape `[n] → [1, n]` and the broadcast along axis 1 both put entry `j`
    at `(0, j)`. -/
theorem shapeCast_row_eq_broadcastInDim {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val < 1 := (i 0).isLt
  have e2 := shapeCast_apply x h1 i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have e : (i 1).val < n := (i 1).isLt; omega
      · rfl)
  exact e2.trans e3.symm

/-- The kernel's broadcast of a one-row matrix (cast to its own shape first) down `m` rows, read at `(r, j)`: the
    row's entry `(0, j)`. -/
theorem broadcastTo_oneRow_apply {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ y hs) hb (ix2 p q) = y (ix2 (0 : Fin 1) q) := by
  rw [shapeCast_self]
  refine broadcastTo_apply y hb _ (ix2 (0 : Fin 1) q) ?_
  intro a
  match a with
  | ⟨0, _⟩ => rfl
  | ⟨1, _⟩ =>
    show q.val = if n = 1 then 0 else q.val
    split
    · have e : q.val < n := q.isLt; omega
    · rfl

/-- A one-row matrix laid down `m` rows: the kernel's broadcast of its same-shape cast is the host's broadcast along
    both axes; at `(r, j)` both read `y (0, j)`. -/
theorem broadcastTo_oneRow_eq_broadcastInDim {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ y hs) hb = broadcastInDim ⟨2, ![m, n]⟩ ![0, 1] hd y := by
  funext i
  obtain ⟨p, q, rfl⟩ : ∃ (p : Fin m) (q : Fin n), i = ix2 p q := ⟨i 0, i 1, eq_ix2 i⟩
  rw [broadcastInDim_oneRow_apply, broadcastTo_oneRow_apply]

end Cert.LibRows
-- ==== Proof.Payload.lean ====
/-
  What each kernel body computes from the blocks it loads, as the specification's functions of those blocks.

  A body multiplies the rows of its input block against the rows of its masked weight block into a zero accumulator
  (`mdot`), and/or adds a bias row, normalises and rectifies (`norm`, `biasRelu`, `lin`).  Every per-column vector
  arrives as a one-row matrix and is laid along the rows of the block: read at `(p, q)` it is the row's entry
  `(0, q)` (`rowOf`).  Changes of float format are the identity on the extended reals.
-/
import proofs.«120771_j77927886619274_1_alg».proof.Proof.Gen.KernelIdeal.Skeleton
import proofs.«120771_j77927886619274_1_alg».proof.Proof.Spec
import proofs.«120771_j77927886619274_1_alg».proof.Proof.LibDotIdx
import proofs.«120771_j77927886619274_1_alg».proof.Proof.LibRows
import Idealize.ShloMosaic.Lib.ValueIdx
import Idealize.ShloMosaic.Lib.Pipeline.Value
import Idealize.ShloMosaic.PureOps.Ideal.Laws

noncomputable section

namespace Cert.MaskedMlp

open Idealize.ShloMosaic Idealize.ShloMosaic.ValueIdx

/-- A one-row matrix laid down `m` rows, read at `(p, q)`: the row's entry `(0, q)`. -/
theorem bcastRow_apply {α : Type} {m n : ℕ} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ y hb (ix2 p q) = y (ix2 (0 : Fin 1) q) := by
  have h := Cert.LibRows.broadcastTo_oneRow_apply y hs hb p q
  rwa [shapeCast_self] at h

end Cert.MaskedMlp

namespace Cert.KernelIdeal.Pay

open Cert.KernelIdeal Cert.KernelIdeal.Gen Cert.MaskedMlp Idealize.ShloMosaic Idealize.ShloMosaic.ValueIdx

/-- Region 6's body: the affine head on its blocks. -/
theorem pay6 (x0 : Vec Ideal S256x200 .f32) (x1 : Vec Ideal S50x200 .f32) (x2 : Vec Ideal S1x50 .f32) :
    k6_pay1 (F := Ideal) x0 x1 x2 = lin x0 x1 (rowOf x2) := by
  funext j
  obtain ⟨p, q, rfl⟩ : ∃ (p : Fin 256) (q : Fin 50), j = ix2 p q := ⟨j 0, j 1, eq_ix2 j⟩
  unfold k6_pay1
  simp only [addf_apply, shapeCast_self, bcastRow_apply (hs := shapeCasts_S1x50_S1x50)]
  refine congrArg (· + x2 (ix2 (0 : Fin 1) q)) ?_
  exact DotIdx.matmul_rows_zero_apply dot_S256x200_S50x200_S256x50_1_1_0_0_n_n.wf none _ _ p q

/-- Regions 0 and 2: rows of the input block against rows of the masked weight block. -/
theorem pay0 (x0 : Vec Ideal S512x5000 .f32) (x1 x2 : Vec Ideal S128x5000 .f32) :
    k0_pay1 (F := Ideal) x0 x1 x2 = mdot x0 x1 x2 := by
  funext j
  obtain ⟨p, q, rfl⟩ : ∃ (p : Fin 512) (q : Fin 128), j = ix2 p q := ⟨j 0, j 1, eq_ix2 j⟩
  unfold k0_pay1
  simp only [shapeCast_self]
  exact DotIdx.matmul_rows_zero_apply dot_S512x5000_S128x5000_S512x128_1_1_0_0_n_n.wf none _ _ p q

theorem pay2 (x0 : Vec Ideal S512x4096 .f32) (x1 x2 : Vec Ideal S128x4096 .f32) :
    k2_pay1 (F := Ideal) x0 x1 x2 = mdot x0 x1 x2 := by
  funext j
  obtain ⟨p, q, rfl⟩ : ∃ (p : Fin 512) (q : Fin 128), j = ix2 p q := ⟨j 0, j 1, eq_ix2 j⟩
  unfold k2_pay1
  simp only [shapeCast_self]
  exact DotIdx.matmul_rows_zero_apply dot_S512x4096_S128x4096_S512x128_1_1_0_0_n_n.wf none _ _ p q

/-- Regions 1 and 3: bias, normalisation, rectifier on a block of rows; the five vectors arrive as one-row matrices. -/
theorem pay1 (x0 : Vec Ideal S256x4096 .f32) (b g mu var be : Vec Ideal S1x4096 .f32) :
    k1_pay1 (F := Ideal) x0 b g mu var be = norm x0 (rowOf b) (rowOf g) (rowOf be) (rowOf mu) (rowOf var) := by
  funext j
  obtain ⟨p, q, rfl⟩ : ∃ (p : Fin 256) (q : Fin 4096), j = ix2 p q := ⟨j 0, j 1, eq_ix2 j⟩
  unfold k1_pay1
  simp only [maximumf_apply, addf_apply, mulf_apply, subf_apply, shapeCast_self,
    bcastRow_apply (hs := shapeCasts_S1x4096_S1x4096), broadcast_apply]
  show max _ (Ideal.ofBits .f32 0x00000000#32) = max _ 0
  rw [Ideal.ofBits_zero_f32]
  rfl

theorem pay3 (x0 : Vec Ideal S256x2048 .f32) (b g mu var be : Vec Ideal S1x2048 .f32) :
    k3_pay1 (F := Ideal) x0 b g mu var be = norm x0 (rowOf b) (rowOf g) (rowOf be) (rowOf mu) (rowOf var) := by
  funext j
  obtain ⟨p, q, rfl⟩ : ∃ (p : Fin 256) (q : Fin 2048), j = ix2 p q := ⟨j 0, j 1, eq_ix2 j⟩
  unfold k3_pay1
  simp only [maximumf_apply, addf_apply, mulf_apply, subf_apply, shapeCast_self,
    bcastRow_apply (hs := shapeCasts_S1x2048_S1x2048), broadcast_apply]
  show max _ (Ideal.ofBits .f32 0x00000000#32) = max _ 0
  rw [Ideal.ofBits_zero_f32]
  rfl

/-- Region 4's product, as the body spells it. -/
theorem mm4 (x0 : Vec Ideal S256x2048 .f32) (x1 x2 : Vec Ideal S1000x2048 .f32) :
    matmul (F := Ideal) dot_S256x2048_S1000x2048_S256x1000_1_1_0_0_n_n none
        (truncf .bf16 (shapeCast S256x2048 x0 shapeCasts_S256x2048_S256x2048) bitsLt_bf16_f32)
        (truncf .bf16 (mulf (shapeCast S1000x2048 x1 shapeCasts_S1000x2048_S1000x2048)
          (shapeCast S1000x2048 x2 shapeCasts_S1000x2048_S1000x2048)) bitsLt_bf16_f32)
        (constant S256x1000 .f32 0x00000000#32)
      = mdot x0 x1 x2 := by
  funext j
  obtain ⟨p, q, rfl⟩ : ∃ (p : Fin 256) (q : Fin 1000), j = ix2 p q := ⟨j 0, j 1, eq_ix2 j⟩
  simp only [shapeCast_self]
  exact DotIdx.matmul_rows_zero_apply dot_S256x2048_S1000x2048_S256x1000_1_1_0_0_n_n.wf none _ _ p q

/-- Region 4: the masked product, then bias, normalisation, rectifier. -/
theorem pay4 (x0 : Vec Ideal S256x2048 .f32) (x1 x2 : Vec Ideal S1000x2048 .f32) (b g mu var be : Vec Ideal S1x1000 .f32) :
    k4_pay1 (F := Ideal) x0 x1 x2 b g mu var be
      = norm (mdot x0 x1 x2) (rowOf b) (rowOf g) (rowOf be) (rowOf mu) (rowOf var) := by
  funext j
  obtain ⟨p, q, rfl⟩ : ∃ (p : Fin 256) (q : Fin 1000), j = ix2 p q := ⟨j 0, j 1, eq_ix2 j⟩
  unfold k4_pay1
  rw [mm4 x0 x1 x2]
  simp only [maximumf_apply, addf_apply, mulf_apply, subf_apply, shapeCast_self,
    bcastRow_apply (hs := shapeCasts_S1x1000_S1x1000), broadcast_apply]
  show max _ (Ideal.ofBits .f32 0x00000000#32) = max _ 0
  rw [Ideal.ofBits_zero_f32]
  rfl

/-- Region 5's product, as the body spells it. -/
theorem mm5 (x0 : Vec Ideal S256x1000 .f32) (x1 x2 : Vec Ideal S200x1000 .f32) :
    matmul (F := Ideal) dot_S256x1000_S200x1000_S256x200_1_1_0_0_n_n none
        (truncf .bf16 (shapeCast S256x1000 x0 shapeCasts_S256x1000_S256x1000) bitsLt_bf16_f32)
        (truncf .bf16 (mulf x1 x2) bitsLt_bf16_f32)
        (constant S256x200 .f32 0x00000000#32)
      = mdot x0 x1 x2 := by
  funext j
  obtain ⟨p, q, rfl⟩ : ∃ (p : Fin 256) (q : Fin 200), j = ix2 p q := ⟨j 0, j 1, eq_ix2 j⟩
  simp only [shapeCast_self]
  exact DotIdx.matmul_rows_zero_apply dot_S256x1000_S200x1000_S256x200_1_1_0_0_n_n.wf none _ _ p q

/-- Region 5: the masked product, bias, rectifier. -/
theorem pay5 (x0 : Vec Ideal S256x1000 .f32) (x1 x2 : Vec Ideal S200x1000 .f32) (b : Vec Ideal S1x200 .f32) :
    k5_pay1 (F := Ideal) x0 x1 x2 b = biasRelu (mdot x0 x1 x2) (rowOf b) := by
  funext j
  obtain ⟨p, q, rfl⟩ : ∃ (p : Fin 256) (q : Fin 200), j = ix2 p q := ⟨j 0, j 1, eq_ix2 j⟩
  unfold k5_pay1
  rw [mm5 x0 x1 x2]
  simp only [maximumf_apply, addf_apply, shapeCast_self, bcastRow_apply (hs := shapeCasts_S1x200_S1x200), broadcast_apply]
  show max _ (Ideal.ofBits .f32 0x00000000#32) = max _ 0
  rw [Ideal.ofBits_zero_f32]
  rfl

end Cert.KernelIdeal.Pay

end
-- ==== Proof.SpecLocal.lean ====
/-
  The layers are local: an entry of a layer's result depends on one row of the input and one row (or one entry) of
  each parameter.  Stated as congruences: two applications of a layer agree at two indices as soon as the rows and
  entries those indices read agree.  This is what makes a block of rows of a layer's result the layer applied to the
  block of rows of its input.
-/
import proofs.«120771_j77927886619274_1_alg».proof.Proof.Spec

noncomputable section

namespace Cert.MaskedMlp

open Idealize.ShloMosaic Idealize.ShloMosaic.ValueIdx

variable {m m' k n n' : ℕ}

theorem rowOf_ix1 (y : Mat 1 n) (q : Fin n) : rowOf y (ix1 q) = y (ix2 (0 : Fin 1) q) := rfl

theorem mdot_at {X : Mat m k} {X' : Mat m' k} {W M : Mat n k} {W' M' : Mat n' k}
    (i : (⟨2, ![m, n]⟩ : Shape).Idx) (i' : (⟨2, ![m', n']⟩ : Shape).Idx)
    (hX : ∀ c, X (ix2 (i 0) c) = X' (ix2 (i' 0) c))
    (hW : ∀ c, W (ix2 (i 1) c) = W' (ix2 (i' 1) c))
    (hM : ∀ c, M (ix2 (i 1) c) = M' (ix2 (i' 1) c)) :
    mdot X W M i = mdot X' W' M' i' := by
  unfold mdot
  exact Finset.sum_congr rfl fun c _ => by rw [hX c, hW c, hM c]

theorem norm_at {H : Mat m n} {H' : Mat m' n'} {b g be mu var : Vct n} {b' g' be' mu' var' : Vct n'}
    (i : (⟨2, ![m, n]⟩ : Shape).Idx) (i' : (⟨2, ![m', n']⟩ : Shape).Idx)
    (hH : H i = H' i') (hb : b (ix1 (i 1)) = b' (ix1 (i' 1))) (hg : g (ix1 (i 1)) = g' (ix1 (i' 1)))
    (hbe : be (ix1 (i 1)) = be' (ix1 (i' 1))) (hmu : mu (ix1 (i 1)) = mu' (ix1 (i' 1)))
    (hvar : var (ix1 (i 1)) = var' (ix1 (i' 1))) :
    norm H b g be mu var i = norm H' b' g' be' mu' var' i' := by
  unfold norm
  rw [hH, hb, hg, hbe, hmu, hvar]

theorem biasRelu_at {H : Mat m n} {H' : Mat m' n'} {b : Vct n} {b' : Vct n'}
    (i : (⟨2, ![m, n]⟩ : Shape).Idx) (i' : (⟨2, ![m', n']⟩ : Shape).Idx)
    (hH : H i = H' i') (hb : b (ix1 (i 1)) = b' (ix1 (i' 1))) :
    biasRelu H b i = biasRelu H' b' i' := by
  unfold biasRelu
  rw [hH, hb]

theorem lin_at {X : Mat m k} {X' : Mat m' k} {W : Mat n k} {W' : Mat n' k} {b : Vct n} {b' : Vct n'}
    (i : (⟨2, ![m, n]⟩ : Shape).Idx) (i' : (⟨2, ![m', n']⟩ : Shape).Idx)
    (hX : ∀ c, X (ix2 (i 0) c) = X' (ix2 (i' 0) c))
    (hW : ∀ c, W (ix2 (i 1) c) = W' (ix2 (i' 1) c))
    (hb : b (ix1 (i 1)) = b' (ix1 (i' 1))) :
    lin X W b i = lin X' W' b' i' := by
  unfold lin
  rw [hb]
  exact congrArg (· + _) (Finset.sum_congr rfl fun c _ => by rw [hX c, hW c])

end Cert.MaskedMlp

end
-- ==== Proof.R0.lean ====
/-
  Region 0, a tiled masked product: after the region its output array holds `mdot` of the three arrays it was
  entered with.

  Point `t` of the 16 × 32 grid is the pair `(t / 32, t % 32)`: it loads a block of 512 rows of the input
  and a block of 128 rows of the weight and of the mask, all 5000 columns, and writes back the 512 × 128 block of the
  result at that pair.  Entry `(r, q)` of `mdot` depends only on row `r` of the input and row `q` of the weight and
  the mask, so what the point writes back is its block of the whole-array function; the blocks cover the array.
-/
import proofs.«120771_j77927886619274_1_alg».proof.Proof.Gen.KernelIdeal.Frame
import proofs.«120771_j77927886619274_1_alg».proof.Proof.Payload
import proofs.«120771_j77927886619274_1_alg».proof.Proof.SpecLocal

set_option maxRecDepth 16384

noncomputable section

namespace Cert.KernelIdeal.Val

open Cert.KernelIdeal Cert.KernelIdeal.Gen Cert.MaskedMlp
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the input's block of rows is the output's block row, the weight's and the
    mask's block of rows is the output's block column, and the output's block at point `t` is `(t / 32, t % 32)`. -/
theorem idx_facts0 : ∀ t : Fin cfg0.N, win0_0.index t (0 : Fin 2) = win0_3.index t (0 : Fin 2)
    ∧ win0_0.index t (1 : Fin 2) = 0
    ∧ win0_1.index t (0 : Fin 2) = win0_3.index t (1 : Fin 2) ∧ win0_1.index t (1 : Fin 2) = 0
    ∧ win0_2.index t (0 : Fin 2) = win0_3.index t (1 : Fin 2) ∧ win0_2.index t (1 : Fin 2) = 0
    ∧ win0_3.index t (0 : Fin 2) = t.val / 32 ∧ win0_3.index t (1 : Fin 2) = t.val % 32 :=
  (by decide +kernel : ∀ t : Fin grid0.N, _)

/-- What point `t` writes back is its block of `mdot` of the arrays as the region finds them. -/
theorem flushed0_eq (c : Dev nD) (t : Fin cfg0.N) :
    (dat0 V c).flushed 3 t = ((cfg0.win 3).blk t).view.read (Elt Ideal)
      (mdot (V c main_arg0) (V c main_v0) (V c main_v1)) := by
  show (cfg0.win 3).cut (grid0.coords t) ((dat0 V c).after 3 t) = _
  rw [after0_3]
  unfold out0_3
  rw [View.canon_unit_zero hz0]
  simp only [View.ld_unit_zero (S := S512x5000) hz0, View.ld_unit_zero (S := S128x5000) hz0]
  rw [Pay.pay0]
  obtain ⟨e0, e1, e2, e3, e4, e5, e6, e7⟩ := idx_facts0 t
  funext j
  show mdot (iblk0 V c 0 t) (iblk0 V c 1 t) (iblk0 V c 2 t) j
    = mdot (V c main_arg0) (V c main_v0) (V c main_v1) (((cfg0.win 3).blk t).view.emb j)
  have hj0 : (j 0).val < 512 := (j 0).isLt
  have hj1 : (j 1).val < 128 := (j 1).isLt
  have h0 : ∀ k : Fin 5000, ((cfg0.win 0).blk t).view.emb (ix2 (j 0) k) = ix2 ((((cfg0.win 3).blk t).view.emb j) 0) k := by
    intro k; funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 5000 + 1 * k.val = k.val; omega
  have h1 : ∀ k : Fin 5000, ((cfg0.win 1).blk t).view.emb (ix2 (j 1) k) = ix2 ((((cfg0.win 3).blk t).view.emb j) 1) k := by
    intro k; funext a; apply Fin.ext
    match a with
    | ⟨0, _⟩ => show win0_1.index t (0 : Fin 2) * 128 + 1 * (j 1).val = win0_3.index t (1 : Fin 2) * 128 + 1 * (j 1).val; omega
    | ⟨1, _⟩ => show win0_1.index t (1 : Fin 2) * 5000 + 1 * k.val = k.val; omega
  have h2 : ∀ k : Fin 5000, ((cfg0.win 2).blk t).view.emb (ix2 (j 1) k) = ix2 ((((cfg0.win 3).blk t).view.emb j) 1) k := by
    intro k; funext a; apply Fin.ext
    match a with
    | ⟨0, _⟩ => show win0_2.index t (0 : Fin 2) * 128 + 1 * (j 1).val = win0_3.index t (1 : Fin 2) * 128 + 1 * (j 1).val; omega
    | ⟨1, _⟩ => show win0_2.index t (1 : Fin 2) * 5000 + 1 * k.val = k.val; omega
  refine mdot_at j _ (fun k => ?_) (fun k => ?_) (fun k => ?_)
  · exact congrArg (V c main_arg0) (h0 k)
  · exact congrArg (V c main_v0) (h1 k)
  · exact congrArg (V c main_v1) (h2 k)

/-- An index of the array is in point `t`'s block iff each coordinate is in the block's range on its axis. -/
theorem mem_blk0 (t : Fin cfg0.N) (i : S8192x4096.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v18).slice (win0_3.rect t)).set ↔ _
  rw [View.set_slice_whole, Rect.mem_set_unit]
  exact Iff.rfl

/-- Every index of the output array is in the block of the point its row and column fall in. -/
theorem cover0 (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 512 := N_0
  let t : Fin cfg0.N := ⟨(i 0).val / 512 * 32 + (i 1).val / 128, by rw [hN]; omega⟩
  obtain ⟨e0, e1, e2, e3, e4, e5, e6, e7⟩ := idx_facts0 t
  have e6' : win0_3.index t (0 : Fin 2) = ((i 0).val / 512 * 32 + (i 1).val / 128) / 32 := e6
  have e7' : win0_3.index t (1 : Fin 2) = ((i 0).val / 512 * 32 + (i 1).val / 128) % 32 := e7
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 128 ≤ (i 1).val ∧ (i 1).val < win0_3.index t (1 : Fin 2) * 128 + 128; omega

/-- The output array after region 0. -/
theorem final0 (c : Dev nD) : (dat0 V c).arrAt 3 cfg0.N = mdot (V c main_arg0) (V c main_v0) (V c main_v1) :=
  (dat0 V c).arrAt_eq_of_cover 3 _ (fun t _ => flushed0_eq V c t) cover0

end Cert.KernelIdeal.Val

end
-- ==== Proof.R1.lean ====
/-
  Region 1, the first normalisation: after the region its output array holds `norm` of the six arrays it was
  entered with.

  Point `t` of the grid works on rows `256 t … 256 t + 255`: it loads that block of rows of the input and the five
  whole one-row arrays (bias, scale, shift, mean, variance), and writes back the same rows of the result.  Entry
  `(r, q)` of `norm` depends only on entry `(r, q)` of the input and entry `q` of each row, so what the point writes
  back is its block of the whole-array function; the 32 blocks cover the array.
-/
import proofs.«120771_j77927886619274_1_alg».proof.Proof.Gen.KernelIdeal.Frame
import proofs.«120771_j77927886619274_1_alg».proof.Proof.Payload
import proofs.«120771_j77927886619274_1_alg».proof.Proof.SpecLocal

set_option maxRecDepth 16384

noncomputable section

namespace Cert.KernelIdeal.Val

open Cert.KernelIdeal Cert.KernelIdeal.Gen Cert.MaskedMlp
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the input's block of rows is the output's, every other coordinate is 0,
    and the output's block of rows at point `t` is the `t`-th. -/
theorem idx_facts1 : ∀ t : Fin cfg1.N, win1_0.index t (0 : Fin 2) = win1_6.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- An index of the input's block at point `t` sits in the input array where the same index of the output's block
    sits in the output array. -/
theorem emb1_0 (t : Fin cfg1.N) (j : S256x4096.Idx) :
    ((cfg1.win 0).blk t).view.emb j = ((cfg1.win 6).blk t).view.emb j := by
  obtain ⟨e00, e01, e10, e11, e20, e21, e30, e31, e40, e41, e50, e51, eo0, eo1⟩ := idx_facts1 t
  have hj0 : (j 0).val < 256 := (j 0).isLt
  have hj1 : (j 1).val < 4096 := (j 1).isLt
  funext a; apply Fin.ext
  match a with
  | ⟨0, _⟩ => show win1_0.index t (0 : Fin 2) * 256 + 1 * (j 0).val = win1_6.index t (0 : Fin 2) * 256 + 1 * (j 0).val; omega
  | ⟨1, _⟩ => show win1_0.index t (1 : Fin 2) * 4096 + 1 * (j 1).val = win1_6.index t (1 : Fin 2) * 4096 + 1 * (j 1).val; omega

/-- Each one-row array's block at point `t` is the whole row: its entry `(0, q)` is the array's entry `(0, q)`, `q` the
    column of the output's block, which is the column in the output array. -/
theorem emb1_1 (t : Fin cfg1.N) (j : S256x4096.Idx) :
    ((cfg1.win 1).blk t).view.emb (ix2 (0 : Fin 1) (j 1)) = ix2 (0 : Fin 1) ((((cfg1.win 6).blk t).view.emb j) 1) := by
  obtain ⟨e00, e01, e10, e11, e20, e21, e30, e31, e40, e41, e50, e51, eo0, eo1⟩ := idx_facts1 t
  have hj1 : (j 1).val < 4096 := (j 1).isLt
  funext a; apply Fin.ext
  match a with
  | ⟨0, _⟩ => show win1_1.index t (0 : Fin 2) * 1 + 1 * 0 = 0; omega
  | ⟨1, _⟩ => show win1_1.index t (1 : Fin 2) * 4096 + 1 * (j 1).val = win1_6.index t (1 : Fin 2) * 4096 + 1 * (j 1).val; omega

theorem emb1_2 (t : Fin cfg1.N) (j : S256x4096.Idx) :
    ((cfg1.win 2).blk t).view.emb (ix2 (0 : Fin 1) (j 1)) = ix2 (0 : Fin 1) ((((cfg1.win 6).blk t).view.emb j) 1) := by
  obtain ⟨e00, e01, e10, e11, e20, e21, e30, e31, e40, e41, e50, e51, eo0, eo1⟩ := idx_facts1 t
  have hj1 : (j 1).val < 4096 := (j 1).isLt
  funext a; apply Fin.ext
  match a with
  | ⟨0, _⟩ => show win1_2.index t (0 : Fin 2) * 1 + 1 * 0 = 0; omega
  | ⟨1, _⟩ => show win1_2.index t (1 : Fin 2) * 4096 + 1 * (j 1).val = win1_6.index t (1 : Fin 2) * 4096 + 1 * (j 1).val; omega

theorem emb1_3 (t : Fin cfg1.N) (j : S256x4096.Idx) :
    ((cfg1.win 3).blk t).view.emb (ix2 (0 : Fin 1) (j 1)) = ix2 (0 : Fin 1) ((((cfg1.win 6).blk t).view.emb j) 1) := by
  obtain ⟨e00, e01, e10, e11, e20, e21, e30, e31, e40, e41, e50, e51, eo0, eo1⟩ := idx_facts1 t
  have hj1 : (j 1).val < 4096 := (j 1).isLt
  funext a; apply Fin.ext
  match a with
  | ⟨0, _⟩ => show win1_3.index t (0 : Fin 2) * 1 + 1 * 0 = 0; omega
  | ⟨1, _⟩ => show win1_3.index t (1 : Fin 2) * 4096 + 1 * (j 1).val = win1_6.index t (1 : Fin 2) * 4096 + 1 * (j 1).val; omega

theorem emb1_4 (t : Fin cfg1.N) (j : S256x4096.Idx) :
    ((cfg1.win 4).blk t).view.emb (ix2 (0 : Fin 1) (j 1)) = ix2 (0 : Fin 1) ((((cfg1.win 6).blk t).view.emb j) 1) := by
  obtain ⟨e00, e01, e10, e11, e20, e21, e30, e31, e40, e41, e50, e51, eo0, eo1⟩ := idx_facts1 t
  have hj1 : (j 1).val < 4096 := (j 1).isLt
  funext a; apply Fin.ext
  match a with
  | ⟨0, _⟩ => show win1_4.index t (0 : Fin 2) * 1 + 1 * 0 = 0; omega
  | ⟨1, _⟩ => show win1_4.index t (1 : Fin 2) * 4096 + 1 * (j 1).val = win1_6.index t (1 : Fin 2) * 4096 + 1 * (j 1).val; omega

theorem emb1_5 (t : Fin cfg1.N) (j : S256x4096.Idx) :
    ((cfg1.win 5).blk t).view.emb (ix2 (0 : Fin 1) (j 1)) = ix2 (0 : Fin 1) ((((cfg1.win 6).blk t).view.emb j) 1) := by
  obtain ⟨e00, e01, e10, e11, e20, e21, e30, e31, e40, e41, e50, e51, eo0, eo1⟩ := idx_facts1 t
  have hj1 : (j 1).val < 4096 := (j 1).isLt
  funext a; apply Fin.ext
  match a with
  | ⟨0, _⟩ => show win1_5.index t (0 : Fin 2) * 1 + 1 * 0 = 0; omega
  | ⟨1, _⟩ => show win1_5.index t (1 : Fin 2) * 4096 + 1 * (j 1).val = win1_6.index t (1 : Fin 2) * 4096 + 1 * (j 1).val; omega

/-- What point `t` writes back is its block of `norm` of the arrays as the region finds them. -/
theorem flushed1_eq (c : Dev nD) (t : Fin cfg1.N) :
    (dat1 V c).flushed 6 t = ((cfg1.win 6).blk t).view.read (Elt Ideal)
      (norm (V c main_v18) (rowOf (V c main_v19)) (rowOf (V c main_v20)) (rowOf (V c main_v21)) (rowOf (V c main_v22)) (rowOf (V c main_v23))) := by
  show (cfg1.win 6).cut (grid1.coords t) ((dat1 V c).after 6 t) = _
  rw [after1_6]
  unfold out1_6
  rw [View.canon_unit_zero hz1]
  simp only [View.ld_unit_zero (S := S256x4096) hz1, View.ld_unit_zero (S := S1x4096) hz1]
  rw [Pay.pay1]
  funext j
  show norm (iblk1 V c 0 t) (rowOf (iblk1 V c 1 t)) (rowOf (iblk1 V c 2 t)) (rowOf (iblk1 V c 3 t)) (rowOf (iblk1 V c 4 t)) (rowOf (iblk1 V c 5 t)) j
    = norm (V c main_v18) (rowOf (V c main_v19)) (rowOf (V c main_v20)) (rowOf (V c main_v21)) (rowOf (V c main_v22)) (rowOf (V c main_v23)) (((cfg1.win 6).blk t).view.emb j)
  refine norm_at j _ ?_ ?_ ?_ ?_ ?_ ?_
  · exact congrArg (V c main_v18) (emb1_0 t j)
  · exact congrArg (V c main_v19) (emb1_1 t j)
  · exact congrArg (V c main_v20) (emb1_2 t j)
  · exact congrArg (V c main_v21) (emb1_3 t j)
  · exact congrArg (V c main_v22) (emb1_4 t j)
  · exact congrArg (V c main_v23) (emb1_5 t j)

/-- An index of the array is in point `t`'s block iff each coordinate is in the block's range on its axis. -/
theorem mem_blk1 (t : Fin cfg1.N) (i : S8192x4096.Idx) :
    i ∈ ((cfg1.win 6).blk t).view.set ↔ ∀ a : Fin 2, win1_6.index t a * S256x4096.size a ≤ (i a).val ∧ (i a).val < win1_6.index t a * S256x4096.size a + S256x4096.size a := by
  show i ∈ ((View.whole main_v24).slice (win1_6.rect t)).set ↔ _
  rw [View.set_slice_whole, Rect.mem_set_unit]
  exact Iff.rfl

/-- Every index of the output array is in the block of the point its row falls in. -/
theorem cover1 (i : S8192x4096.Idx) : ∃ t : Fin cfg1.N, (cfg1.win 6).flush t = true ∧ i ∈ ((cfg1.win 6).blk t).view.set := by
  have hi0 : (i 0).val < 8192 := (i 0).isLt
  have hi1 : (i 1).val < 4096 := (i 1).isLt
  have hN : cfg1.N = 32 := N_1
  let t : Fin cfg1.N := ⟨(i 0).val / 256, by rw [hN]; omega⟩
  obtain ⟨e00, e01, e10, e11, e20, e21, e30, e31, e40, e41, e50, e51, eo0, eo1⟩ := idx_facts1 t
  have eo' : win1_6.index t (0 : Fin 2) = (i 0).val / 256 := eo0
  refine ⟨t, flush1_6 t, ?_⟩
  rw [mem_blk1]
  intro a
  match a with
  | ⟨0, _⟩ => show win1_6.index t (0 : Fin 2) * 256 ≤ (i 0).val ∧ (i 0).val < win1_6.index t (0 : Fin 2) * 256 + 256; omega
  | ⟨1, _⟩ => show win1_6.index t (1 : Fin 2) * 4096 ≤ (i 1).val ∧ (i 1).val < win1_6.index t (1 : Fin 2) * 4096 + 4096; omega

/-- The output array after region 1. -/
theorem final1 (c : Dev nD) : (dat1 V c).arrAt 6 cfg1.N = norm (V c main_v18) (rowOf (V c main_v19)) (rowOf (V c main_v20)) (rowOf (V c main_v21)) (rowOf (V c main_v22)) (rowOf (V c main_v23)) :=
  (dat1 V c).arrAt_eq_of_cover 6 _ (fun t _ => flushed1_eq V c t) cover1

end Cert.KernelIdeal.Val

end
-- ==== Proof.R2.lean ====
/-
  Region 2, a tiled masked product: after the region its output array holds `mdot` of the three arrays it was
  entered with.

  Point `t` of the 16 × 16 grid is the pair `(t / 16, t % 16)`: it loads a block of 512 rows of the input
  and a block of 128 rows of the weight and of the mask, all 4096 columns, and writes back the 512 × 128 block of the
  result at that pair.  Entry `(r, q)` of `mdot` depends only on row `r` of the input and row `q` of the weight and
  the mask, so what the point writes back is its block of the whole-array function; the blocks cover the array.
-/
import proofs.«120771_j77927886619274_1_alg».proof.Proof.Gen.KernelIdeal.Frame
import proofs.«120771_j77927886619274_1_alg».proof.Proof.Payload
import proofs.«120771_j77927886619274_1_alg».proof.Proof.SpecLocal

set_option maxRecDepth 16384

noncomputable section

namespace Cert.KernelIdeal.Val

open Cert.KernelIdeal Cert.KernelIdeal.Gen Cert.MaskedMlp
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the input's block of rows is the output's block row, the weight's and the
    mask's block of rows is the output's block column, and the output's block at point `t` is `(t / 16, t % 16)`. -/
theorem idx_facts2 : ∀ t : Fin cfg2.N, win2_0.index t (0 : Fin 2) = win2_3.index t (0 : Fin 2)
    ∧ win2_0.index t (1 : Fin 2) = 0
    ∧ win2_1.index t (0 : Fin 2) = win2_3.index t (1 : Fin 2) ∧ win2_1.index t (1 : Fin 2) = 0
    ∧ win2_2.index t (0 : Fin 2) = win2_3.index t (1 : Fin 2) ∧ win2_2.index t (1 : Fin 2) = 0
    ∧ win2_3.index t (0 : Fin 2) = t.val / 16 ∧ win2_3.index t (1 : Fin 2) = t.val % 16 :=
  (by decide +kernel : ∀ t : Fin grid2.N, _)

/-- What point `t` writes back is its block of `mdot` of the arrays as the region finds them. -/
theorem flushed2_eq (c : Dev nD) (t : Fin cfg2.N) :
    (dat2 V c).flushed 3 t = ((cfg2.win 3).blk t).view.read (Elt Ideal)
      (mdot (V c main_v24) (V c main_v8) (V c main_v10)) := by
  show (cfg2.win 3).cut (grid2.coords t) ((dat2 V c).after 3 t) = _
  rw [after2_3]
  unfold out2_3
  rw [View.canon_unit_zero hz2]
  simp only [View.ld_unit_zero (S := S512x4096) hz2, View.ld_unit_zero (S := S128x4096) hz2]
  rw [Pay.pay2]
  obtain ⟨e0, e1, e2, e3, e4, e5, e6, e7⟩ := idx_facts2 t
  funext j
  show mdot (iblk2 V c 0 t) (iblk2 V c 1 t) (iblk2 V c 2 t) j
    = mdot (V c main_v24) (V c main_v8) (V c main_v10) (((cfg2.win 3).blk t).view.emb j)
  have hj0 : (j 0).val < 512 := (j 0).isLt
  have hj1 : (j 1).val < 128 := (j 1).isLt
  have h0 : ∀ k : Fin 4096, ((cfg2.win 0).blk t).view.emb (ix2 (j 0) k) = ix2 ((((cfg2.win 3).blk t).view.emb j) 0) k := by
    intro k; funext a; apply Fin.ext
    match a with
    | ⟨0, _⟩ => show win2_0.index t (0 : Fin 2) * 512 + 1 * (j 0).val = win2_3.index t (0 : Fin 2) * 512 + 1 * (j 0).val; omega
    | ⟨1, _⟩ => show win2_0.index t (1 : Fin 2) * 4096 + 1 * k.val = k.val; omega
  have h1 : ∀ k : Fin 4096, ((cfg2.win 1).blk t).view.emb (ix2 (j 1) k) = ix2 ((((cfg2.win 3).blk t).view.emb j) 1) k := by
    intro k; funext a; apply Fin.ext
    match a with
    | ⟨0, _⟩ => show win2_1.index t (0 : Fin 2) * 128 + 1 * (j 1).val = win2_3.index t (1 : Fin 2) * 128 + 1 * (j 1).val; omega
    | ⟨1, _⟩ => show win2_1.index t (1 : Fin 2) * 4096 + 1 * k.val = k.val; omega
  have h2 : ∀ k : Fin 4096, ((cfg2.win 2).blk t).view.emb (ix2 (j 1) k) = ix2 ((((cfg2.win 3).blk t).view.emb j) 1) k := by
    intro k; funext a; apply Fin.ext
    match a with
    | ⟨0, _⟩ => show win2_2.index t (0 : Fin 2) * 128 + 1 * (j 1).val = win2_3.index t (1 : Fin 2) * 128 + 1 * (j 1).val; omega
    | ⟨1, _⟩ => show win2_2.index t (1 : Fin 2) * 4096 + 1 * k.val = k.val; omega
  refine mdot_at j _ (fun k => ?_) (fun k => ?_) (fun k => ?_)
  · exact congrArg (V c main_v24) (h0 k)
  · exact congrArg (V c main_v8) (h1 k)
  · exact congrArg (V c main_v10) (h2 k)

/-- An index of the array is in point `t`'s block iff each coordinate is in the block's range on its axis. -/
theorem mem_blk2 (t : Fin cfg2.N) (i : S8192x2048.Idx) :
    i ∈ ((cfg2.win 3).blk t).view.set ↔ ∀ a : Fin 2, win2_3.index t a * S512x128.size a ≤ (i a).val ∧ (i a).val < win2_3.index t a * S512x128.size a + S512x128.size a := by
  show i ∈ ((View.whole main_v25).slice (win2_3.rect t)).set ↔ _
  rw [View.set_slice_whole, Rect.mem_set_unit]
  exact Iff.rfl

/-- Every index of the output array is in the block of the point its row and column fall in. -/
theorem cover2 (i : S8192x2048.Idx) : ∃ t : Fin cfg2.N, (cfg2.win 3).flush t = true ∧ i ∈ ((cfg2.win 3).blk t).view.set := by
  have hi0 : (i 0).val < 8192 := (i 0).isLt
  have hi1 : (i 1).val < 2048 := (i 1).isLt
  have hN : cfg2.N = 256 := N_2
  let t : Fin cfg2.N := ⟨(i 0).val / 512 * 16 + (i 1).val / 128, by rw [hN]; omega⟩
  obtain ⟨e0, e1, e2, e3, e4, e5, e6, e7⟩ := idx_facts2 t
  have e6' : win2_3.index t (0 : Fin 2) = ((i 0).val / 512 * 16 + (i 1).val / 128) / 16 := e6
  have e7' : win2_3.index t (1 : Fin 2) = ((i 0).val / 512 * 16 + (i 1).val / 128) % 16 := e7
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 128 ≤ (i 1).val ∧ (i 1).val < win2_3.index t (1 : Fin 2) * 128 + 128; omega

/-- The output array after region 2. -/
theorem final2 (c : Dev nD) : (dat2 V c).arrAt 3 cfg2.N = mdot (V c main_v24) (V c main_v8) (V c main_v10) :=
  (dat2 V c).arrAt_eq_of_cover 3 _ (fun t _ => flushed2_eq V c t) cover2

end Cert.KernelIdeal.Val

end
-- ==== Proof.R3.lean ====
/-
  Region 3, the second normalisation: after the region its output array holds `norm` of the six arrays it was
  entered with.

  Point `t` of the grid works on rows `256 t … 256 t + 255`: it loads that block of rows of the input and the five
  whole one-row arrays (bias, scale, shift, mean, variance), and writes back the same rows of the result.  Entry
  `(r, q)` of `norm` depends only on entry `(r, q)` of the input and entry `q` of each row, so what the point writes
  back is its block of the whole-array function; the 32 blocks cover the array.
-/
import proofs.«120771_j77927886619274_1_alg».proof.Proof.Gen.KernelIdeal.Frame
import proofs.«120771_j77927886619274_1_alg».proof.Proof.Payload
import proofs.«120771_j77927886619274_1_alg».proof.Proof.SpecLocal

set_option maxRecDepth 16384

noncomputable section

namespace Cert.KernelIdeal.Val

open Cert.KernelIdeal Cert.KernelIdeal.Gen Cert.MaskedMlp
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the input's block of rows is the output's, every other coordinate is 0,
    and the output's block of rows at point `t` is the `t`-th. -/
theorem idx_facts3 : ∀ t : Fin cfg3.N, win3_0.index t (0 : Fin 2) = win3_6.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- An index of the input's block at point `t` sits in the input array where the same index of the output's block
    sits in the output array. -/
theorem emb3_0 (t : Fin cfg3.N) (j : S256x2048.Idx) :
    ((cfg3.win 0).blk t).view.emb j = ((cfg3.win 6).blk t).view.emb j := by
  obtain ⟨e00, e01, e10, e11, e20, e21, e30, e31, e40, e41, e50, e51, eo0, eo1⟩ := idx_facts3 t
  have hj0 : (j 0).val < 256 := (j 0).isLt
  have hj1 : (j 1).val < 2048 := (j 1).isLt
  funext a; apply Fin.ext
  match a with
  | ⟨0, _⟩ => show win3_0.index t (0 : Fin 2) * 256 + 1 * (j 0).val = win3_6.index t (0 : Fin 2) * 256 + 1 * (j 0).val; omega
  | ⟨1, _⟩ => show win3_0.index t (1 : Fin 2) * 2048 + 1 * (j 1).val = win3_6.index t (1 : Fin 2) * 2048 + 1 * (j 1).val; omega

/-- Each one-row array's block at point `t` is the whole row: its entry `(0, q)` is the array's entry `(0, q)`, `q` the
    column of the output's block, which is the column in the output array. -/
theorem emb3_1 (t : Fin cfg3.N) (j : S256x2048.Idx) :
    ((cfg3.win 1).blk t).view.emb (ix2 (0 : Fin 1) (j 1)) = ix2 (0 : Fin 1) ((((cfg3.win 6).blk t).view.emb j) 1) := by
  obtain ⟨e00, e01, e10, e11, e20, e21, e30, e31, e40, e41, e50, e51, eo0, eo1⟩ := idx_facts3 t
  have hj1 : (j 1).val < 2048 := (j 1).isLt
  funext a; apply Fin.ext
  match a with
  | ⟨0, _⟩ => show win3_1.index t (0 : Fin 2) * 1 + 1 * 0 = 0; omega
  | ⟨1, _⟩ => show win3_1.index t (1 : Fin 2) * 2048 + 1 * (j 1).val = win3_6.index t (1 : Fin 2) * 2048 + 1 * (j 1).val; omega

theorem emb3_2 (t : Fin cfg3.N) (j : S256x2048.Idx) :
    ((cfg3.win 2).blk t).view.emb (ix2 (0 : Fin 1) (j 1)) = ix2 (0 : Fin 1) ((((cfg3.win 6).blk t).view.emb j) 1) := by
  obtain ⟨e00, e01, e10, e11, e20, e21, e30, e31, e40, e41, e50, e51, eo0, eo1⟩ := idx_facts3 t
  have hj1 : (j 1).val < 2048 := (j 1).isLt
  funext a; apply Fin.ext
  match a with
  | ⟨0, _⟩ => show win3_2.index t (0 : Fin 2) * 1 + 1 * 0 = 0; omega
  | ⟨1, _⟩ => show win3_2.index t (1 : Fin 2) * 2048 + 1 * (j 1).val = win3_6.index t (1 : Fin 2) * 2048 + 1 * (j 1).val; omega

theorem emb3_3 (t : Fin cfg3.N) (j : S256x2048.Idx) :
    ((cfg3.win 3).blk t).view.emb (ix2 (0 : Fin 1) (j 1)) = ix2 (0 : Fin 1) ((((cfg3.win 6).blk t).view.emb j) 1) := by
  obtain ⟨e00, e01, e10, e11, e20, e21, e30, e31, e40, e41, e50, e51, eo0, eo1⟩ := idx_facts3 t
  have hj1 : (j 1).val < 2048 := (j 1).isLt
  funext a; apply Fin.ext
  match a with
  | ⟨0, _⟩ => show win3_3.index t (0 : Fin 2) * 1 + 1 * 0 = 0; omega
  | ⟨1, _⟩ => show win3_3.index t (1 : Fin 2) * 2048 + 1 * (j 1).val = win3_6.index t (1 : Fin 2) * 2048 + 1 * (j 1).val; omega

theorem emb3_4 (t : Fin cfg3.N) (j : S256x2048.Idx) :
    ((cfg3.win 4).blk t).view.emb (ix2 (0 : Fin 1) (j 1)) = ix2 (0 : Fin 1) ((((cfg3.win 6).blk t).view.emb j) 1) := by
  obtain ⟨e00, e01, e10, e11, e20, e21, e30, e31, e40, e41, e50, e51, eo0, eo1⟩ := idx_facts3 t
  have hj1 : (j 1).val < 2048 := (j 1).isLt
  funext a; apply Fin.ext
  match a with
  | ⟨0, _⟩ => show win3_4.index t (0 : Fin 2) * 1 + 1 * 0 = 0; omega
  | ⟨1, _⟩ => show win3_4.index t (1 : Fin 2) * 2048 + 1 * (j 1).val = win3_6.index t (1 : Fin 2) * 2048 + 1 * (j 1).val; omega

theorem emb3_5 (t : Fin cfg3.N) (j : S256x2048.Idx) :
    ((cfg3.win 5).blk t).view.emb (ix2 (0 : Fin 1) (j 1)) = ix2 (0 : Fin 1) ((((cfg3.win 6).blk t).view.emb j) 1) := by
  obtain ⟨e00, e01, e10, e11, e20, e21, e30, e31, e40, e41, e50, e51, eo0, eo1⟩ := idx_facts3 t
  have hj1 : (j 1).val < 2048 := (j 1).isLt
  funext a; apply Fin.ext
  match a with
  | ⟨0, _⟩ => show win3_5.index t (0 : Fin 2) * 1 + 1 * 0 = 0; omega
  | ⟨1, _⟩ => show win3_5.index t (1 : Fin 2) * 2048 + 1 * (j 1).val = win3_6.index t (1 : Fin 2) * 2048 + 1 * (j 1).val; omega

/-- What point `t` writes back is its block of `norm` of the arrays as the region finds them. -/
theorem flushed3_eq (c : Dev nD) (t : Fin cfg3.N) :
    (dat3 V c).flushed 6 t = ((cfg3.win 6).blk t).view.read (Elt Ideal)
      (norm (V c main_v25) (rowOf (V c main_v26)) (rowOf (V c main_v27)) (rowOf (V c main_v28)) (rowOf (V c main_v29)) (rowOf (V c main_v30))) := by
  show (cfg3.win 6).cut (grid3.coords t) ((dat3 V c).after 6 t) = _
  rw [after3_6]
  unfold out3_6
  rw [View.canon_unit_zero hz3]
  simp only [View.ld_unit_zero (S := S256x2048) hz3, View.ld_unit_zero (S := S1x2048) hz3]
  rw [Pay.pay3]
  funext j
  show norm (iblk3 V c 0 t) (rowOf (iblk3 V c 1 t)) (rowOf (iblk3 V c 2 t)) (rowOf (iblk3 V c 3 t)) (rowOf (iblk3 V c 4 t)) (rowOf (iblk3 V c 5 t)) j
    = norm (V c main_v25) (rowOf (V c main_v26)) (rowOf (V c main_v27)) (rowOf (V c main_v28)) (rowOf (V c main_v29)) (rowOf (V c main_v30)) (((cfg3.win 6).blk t).view.emb j)
  refine norm_at j _ ?_ ?_ ?_ ?_ ?_ ?_
  · exact congrArg (V c main_v25) (emb3_0 t j)
  · exact congrArg (V c main_v26) (emb3_1 t j)
  · exact congrArg (V c main_v27) (emb3_2 t j)
  · exact congrArg (V c main_v28) (emb3_3 t j)
  · exact congrArg (V c main_v29) (emb3_4 t j)
  · exact congrArg (V c main_v30) (emb3_5 t j)

/-- An index of the array is in point `t`'s block iff each coordinate is in the block's range on its axis. -/
theorem mem_blk3 (t : Fin cfg3.N) (i : S8192x2048.Idx) :
    i ∈ ((cfg3.win 6).blk t).view.set ↔ ∀ a : Fin 2, win3_6.index t a * S256x2048.size a ≤ (i a).val ∧ (i a).val < win3_6.index t a * S256x2048.size a + S256x2048.size a := by
  show i ∈ ((View.whole main_v31).slice (win3_6.rect t)).set ↔ _
  rw [View.set_slice_whole, Rect.mem_set_unit]
  exact Iff.rfl

/-- Every index of the output array is in the block of the point its row falls in. -/
theorem cover3 (i : S8192x2048.Idx) : ∃ t : Fin cfg3.N, (cfg3.win 6).flush t = true ∧ i ∈ ((cfg3.win 6).blk t).view.set := by
  have hi0 : (i 0).val < 8192 := (i 0).isLt
  have hi1 : (i 1).val < 2048 := (i 1).isLt
  have hN : cfg3.N = 32 := N_3
  let t : Fin cfg3.N := ⟨(i 0).val / 256, by rw [hN]; omega⟩
  obtain ⟨e00, e01, e10, e11, e20, e21, e30, e31, e40, e41, e50, e51, eo0, eo1⟩ := idx_facts3 t
  have eo' : win3_6.index t (0 : Fin 2) = (i 0).val / 256 := eo0
  refine ⟨t, flush3_6 t, ?_⟩
  rw [mem_blk3]
  intro a
  match a with
  | ⟨0, _⟩ => show win3_6.index t (0 : Fin 2) * 256 ≤ (i 0).val ∧ (i 0).val < win3_6.index t (0 : Fin 2) * 256 + 256; omega
  | ⟨1, _⟩ => show win3_6.index t (1 : Fin 2) * 2048 ≤ (i 1).val ∧ (i 1).val < win3_6.index t (1 : Fin 2) * 2048 + 2048; omega

/-- The output array after region 3. -/
theorem final3 (c : Dev nD) : (dat3 V c).arrAt 6 cfg3.N = norm (V c main_v25) (rowOf (V c main_v26)) (rowOf (V c main_v27)) (rowOf (V c main_v28)) (rowOf (V c main_v29)) (rowOf (V c main_v30)) :=
  (dat3 V c).arrAt_eq_of_cover 6 _ (fun t _ => flushed3_eq V c t) cover3

end Cert.KernelIdeal.Val

end
-- ==== Proof.R4.lean ====
/-
  Region 4, the third layer fused: after the region its output array holds the masked product of its input with the
  weight and the mask, with the bias added, normalised and rectified.

  Point `t` of the grid works on rows `256 t … 256 t + 255`: it loads that block of rows of the input, the whole
  weight and mask matrices and the five one-row parameter vectors, and writes back the same rows of the result.  An
  entry of the layer depends only on its own row of the input, so what the point writes back is its block of the
  whole-array function; the 32 blocks cover the array.
-/
import proofs.«120771_j77927886619274_1_alg».proof.Proof.Gen.KernelIdeal.Frame
import proofs.«120771_j77927886619274_1_alg».proof.Proof.Payload
import proofs.«120771_j77927886619274_1_alg».proof.Proof.SpecLocal

set_option maxRecDepth 16384

noncomputable section

namespace Cert.KernelIdeal.Val

open Cert.KernelIdeal Cert.KernelIdeal.Gen Cert.MaskedMlp
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: a block of rows of the input is the output's block of rows, every other
    block index is 0, and the output's block of rows at point `t` is the `t`-th. -/
theorem idx_facts4 : ∀ t : Fin cfg4.N, win4_0.index t (0 : Fin 2) = win4_8.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = t.val
    ∧ win4_8.index t (1 : Fin 2) = 0 :=
  (by decide +kernel : ∀ t : Fin grid4.N, _)

set_option maxHeartbeats 1600000 in
/-- What point `t` writes back is its block of the layer of the arrays as the region finds them. -/
theorem flushed4_eq (c : Dev nD) (t : Fin cfg4.N) :
    (dat4 V c).flushed 8 t = ((cfg4.win 8).blk t).view.read (Elt Ideal)
      (norm (mdot (V c main_v31) (V c main_v16) (V c main_v17)) (rowOf (V c main_v32)) (rowOf (V c main_v33))
        (rowOf (V c main_v34)) (rowOf (V c main_v35)) (rowOf (V c main_v36))) := by
  show (cfg4.win 8).cut (grid4.coords t) ((dat4 V c).after 8 t) = _
  rw [after4_8]
  unfold out4_8
  rw [View.canon_unit_zero hz4]
  simp only [View.ld_unit_zero (S := S256x2048) hz4, View.ld_unit_zero (S := S1000x2048) hz4, View.ld_unit_zero (S := S1x1000) hz4]
  rw [Pay.pay4]
  obtain ⟨e0, e1, e2, e3, e4, e5, e6, e7, e8, e9, e10, e11, e12, e13, e14, e15, e16, e17⟩ := idx_facts4 t
  funext j
  show norm (mdot (iblk4 V c 0 t) (iblk4 V c 1 t) (iblk4 V c 2 t)) (rowOf (iblk4 V c 3 t)) (rowOf (iblk4 V c 4 t))
      (rowOf (iblk4 V c 5 t)) (rowOf (iblk4 V c 6 t)) (rowOf (iblk4 V c 7 t)) j
    = (norm (mdot (V c main_v31) (V c main_v16) (V c main_v17)) (rowOf (V c main_v32)) (rowOf (V c main_v33))
        (rowOf (V c main_v34)) (rowOf (V c main_v35)) (rowOf (V c main_v36))) (((cfg4.win 8).blk t).view.emb j)
  have hj0 : (j 0).val < 256 := (j 0).isLt
  have hj1 : (j 1).val < 1000 := (j 1).isLt
  have h0 : ∀ k : Fin 2048, ((cfg4.win 0).blk t).view.emb (ix2 (j 0) k) = ix2 ((((cfg4.win 8).blk t).view.emb j) 0) k := by
    intro k; funext a; apply Fin.ext
    match a with
    | ⟨0, _⟩ => show win4_0.index t (0 : Fin 2) * 256 + 1 * (j 0).val = win4_8.index t (0 : Fin 2) * 256 + 1 * (j 0).val; omega
    | ⟨1, _⟩ => show win4_0.index t (1 : Fin 2) * 2048 + 1 * k.val = k.val; omega
  have h1 : ∀ k : Fin 2048, ((cfg4.win 1).blk t).view.emb (ix2 (j 1) k) = ix2 ((((cfg4.win 8).blk t).view.emb j) 1) k := by
    intro k; funext a; apply Fin.ext
    match a with
    | ⟨0, _⟩ => show win4_1.index t (0 : Fin 2) * 1000 + 1 * (j 1).val = win4_8.index t (1 : Fin 2) * 1000 + 1 * (j 1).val; omega
    | ⟨1, _⟩ => show win4_1.index t (1 : Fin 2) * 2048 + 1 * k.val = k.val; omega
  have h2 : ∀ k : Fin 2048, ((cfg4.win 2).blk t).view.emb (ix2 (j 1) k) = ix2 ((((cfg4.win 8).blk t).view.emb j) 1) k := by
    intro k; funext a; apply Fin.ext
    match a with
    | ⟨0, _⟩ => show win4_2.index t (0 : Fin 2) * 1000 + 1 * (j 1).val = win4_8.index t (1 : Fin 2) * 1000 + 1 * (j 1).val; omega
    | ⟨1, _⟩ => show win4_2.index t (1 : Fin 2) * 2048 + 1 * k.val = k.val; omega
  have h3 : ((cfg4.win 3).blk t).view.emb (ix2 (0 : Fin 1) (j 1)) = ix2 (0 : Fin 1) ((((cfg4.win 8).blk t).view.emb j) 1) := by
    funext a; apply Fin.ext
    match a with
    | ⟨0, _⟩ => show win4_3.index t (0 : Fin 2) * 1 + 1 * 0 = 0; omega
    | ⟨1, _⟩ => show win4_3.index t (1 : Fin 2) * 1000 + 1 * (j 1).val = win4_8.index t (1 : Fin 2) * 1000 + 1 * (j 1).val; omega
  have h4 : ((cfg4.win 4).blk t).view.emb (ix2 (0 : Fin 1) (j 1)) = ix2 (0 : Fin 1) ((((cfg4.win 8).blk t).view.emb j) 1) := by
    funext a; apply Fin.ext
    match a with
    | ⟨0, _⟩ => show win4_4.index t (0 : Fin 2) * 1 + 1 * 0 = 0; omega
    | ⟨1, _⟩ => show win4_4.index t (1 : Fin 2) * 1000 + 1 * (j 1).val = win4_8.index t (1 : Fin 2) * 1000 + 1 * (j 1).val; omega
  have h5 : ((cfg4.win 5).blk t).view.emb (ix2 (0 : Fin 1) (j 1)) = ix2 (0 : Fin 1) ((((cfg4.win 8).blk t).view.emb j) 1) := by
    funext a; apply Fin.ext
    match a with
    | ⟨0, _⟩ => show win4_5.index t (0 : Fin 2) * 1 + 1 * 0 = 0; omega
    | ⟨1, _⟩ => show win4_5.index t (1 : Fin 2) * 1000 + 1 * (j 1).val = win4_8.index t (1 : Fin 2) * 1000 + 1 * (j 1).val; omega
  have h6 : ((cfg4.win 6).blk t).view.emb (ix2 (0 : Fin 1) (j 1)) = ix2 (0 : Fin 1) ((((cfg4.win 8).blk t).view.emb j) 1) := by
    funext a; apply Fin.ext
    match a with
    | ⟨0, _⟩ => show win4_6.index t (0 : Fin 2) * 1 + 1 * 0 = 0; omega
    | ⟨1, _⟩ => show win4_6.index t (1 : Fin 2) * 1000 + 1 * (j 1).val = win4_8.index t (1 : Fin 2) * 1000 + 1 * (j 1).val; omega
  have h7 : ((cfg4.win 7).blk t).view.emb (ix2 (0 : Fin 1) (j 1)) = ix2 (0 : Fin 1) ((((cfg4.win 8).blk t).view.emb j) 1) := by
    funext a; apply Fin.ext
    match a with
    | ⟨0, _⟩ => show win4_7.index t (0 : Fin 2) * 1 + 1 * 0 = 0; omega
    | ⟨1, _⟩ => show win4_7.index t (1 : Fin 2) * 1000 + 1 * (j 1).val = win4_8.index t (1 : Fin 2) * 1000 + 1 * (j 1).val; omega
  refine norm_at j _ (mdot_at j _ (fun k => ?_) (fun k => ?_) (fun k => ?_)) ?_ ?_ ?_ ?_ ?_
  · exact congrArg (V c main_v31) (h0 k)
  · exact congrArg (V c main_v16) (h1 k)
  · exact congrArg (V c main_v17) (h2 k)
  · exact congrArg (V c main_v32) h3
  · exact congrArg (V c main_v33) h4
  · exact congrArg (V c main_v34) h5
  · exact congrArg (V c main_v35) h6
  · exact congrArg (V c main_v36) h7

/-- An index of the array is in point `t`'s block iff each coordinate is in the block's range on its axis. -/
theorem mem_blk4 (t : Fin cfg4.N) (i : S8192x1000.Idx) :
    i ∈ ((cfg4.win 8).blk t).view.set ↔ ∀ a : Fin 2, win4_8.index t a * S256x1000.size a ≤ (i a).val ∧ (i a).val < win4_8.index t a * S256x1000.size a + S256x1000.size a := by
  show i ∈ ((View.whole main_v37).slice (win4_8.rect t)).set ↔ _
  rw [View.set_slice_whole, Rect.mem_set_unit]
  exact Iff.rfl

/-- Every index of the output array is in the block of the point its row falls in. -/
theorem cover4 (i : S8192x1000.Idx) : ∃ t : Fin cfg4.N, (cfg4.win 8).flush t = true ∧ i ∈ ((cfg4.win 8).blk t).view.set := by
  have hi0 : (i 0).val < 8192 := (i 0).isLt
  have hi1 : (i 1).val < 1000 := (i 1).isLt
  have hN : cfg4.N = 32 := N_4
  let t : Fin cfg4.N := ⟨(i 0).val / 256, by rw [hN]; omega⟩
  obtain ⟨e0, e1, e2, e3, e4, e5, e6, e7, e8, e9, e10, e11, e12, e13, e14, e15, e16, e17⟩ := idx_facts4 t
  have eo : win4_8.index t (0 : Fin 2) = (i 0).val / 256 := e16
  refine ⟨t, flush4_8 t, ?_⟩
  rw [mem_blk4]
  intro a
  match a with
  | ⟨0, _⟩ => show win4_8.index t (0 : Fin 2) * 256 ≤ (i 0).val ∧ (i 0).val < win4_8.index t (0 : Fin 2) * 256 + 256; omega
  | ⟨1, _⟩ => show win4_8.index t (1 : Fin 2) * 1000 ≤ (i 1).val ∧ (i 1).val < win4_8.index t (1 : Fin 2) * 1000 + 1000; omega

/-- The output array after region 4. -/
theorem final4 (c : Dev nD) : (dat4 V c).arrAt 8 cfg4.N = norm (mdot (V c main_v31) (V c main_v16) (V c main_v17)) (rowOf (V c main_v32)) (rowOf (V c main_v33))
        (rowOf (V c main_v34)) (rowOf (V c main_v35)) (rowOf (V c main_v36)) :=
  (dat4 V c).arrAt_eq_of_cover 8 _ (fun t _ => flushed4_eq V c t) cover4

end Cert.KernelIdeal.Val

end
-- ==== Proof.R5.lean ====
/-
  Region 5, the fourth layer fused: after the region its output array holds the masked product of its input with
  the weight and the mask, with the bias added and rectified.

  Point `t` of the grid works on rows `256 t … 256 t + 255`: it loads that block of rows of the input, the whole
  weight and mask matrices and the one-row bias, and writes back the same rows of the result.  An entry of the layer
  depends only on its own row of the input, so what the point writes back is its block of the whole-array function;
  the 32 blocks cover the array.
-/
import proofs.«120771_j77927886619274_1_alg».proof.Proof.Gen.KernelIdeal.Frame
import proofs.«120771_j77927886619274_1_alg».proof.Proof.Payload
import proofs.«120771_j77927886619274_1_alg».proof.Proof.SpecLocal

set_option maxRecDepth 16384

noncomputable section

namespace Cert.KernelIdeal.Val

open Cert.KernelIdeal Cert.KernelIdeal.Gen Cert.MaskedMlp
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: a block of rows of the input is the output's block of rows, every other
    block index is 0, and the output's block of rows at point `t` is the `t`-th. -/
theorem idx_facts5 : ∀ t : Fin cfg5.N, win5_0.index t (0 : Fin 2) = win5_4.index t (0 : Fin 2)
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = t.val
    ∧ win5_4.index t (1 : Fin 2) = 0 :=
  (by decide +kernel : ∀ t : Fin grid5.N, _)

/-- What point `t` writes back is its block of the layer of the arrays as the region finds them. -/
theorem flushed5_eq (c : Dev nD) (t : Fin cfg5.N) :
    (dat5 V c).flushed 4 t = ((cfg5.win 4).blk t).view.read (Elt Ideal)
      (biasRelu (mdot (V c main_v37) (V c main_arg10) (V c main_arg12)) (rowOf (V c main_v38))) := by
  show (cfg5.win 4).cut (grid5.coords t) ((dat5 V c).after 4 t) = _
  rw [after5_4]
  unfold out5_4
  rw [View.canon_unit_zero hz5]
  simp only [View.ld_unit_zero (S := S256x1000) hz5, View.ld_unit_zero (S := S200x1000) hz5, View.ld_unit_zero (S := S1x200) hz5]
  rw [Pay.pay5]
  obtain ⟨e0, e1, e2, e3, e4, e5, e6, e7, e8, e9⟩ := idx_facts5 t
  funext j
  show biasRelu (mdot (iblk5 V c 0 t) (iblk5 V c 1 t) (iblk5 V c 2 t)) (rowOf (iblk5 V c 3 t)) j
    = (biasRelu (mdot (V c main_v37) (V c main_arg10) (V c main_arg12)) (rowOf (V c main_v38))) (((cfg5.win 4).blk t).view.emb j)
  have hj0 : (j 0).val < 256 := (j 0).isLt
  have hj1 : (j 1).val < 200 := (j 1).isLt
  have h0 : ∀ k : Fin 1000, ((cfg5.win 0).blk t).view.emb (ix2 (j 0) k) = ix2 ((((cfg5.win 4).blk t).view.emb j) 0) k := by
    intro k; funext a; apply Fin.ext
    match a with
    | ⟨0, _⟩ => show win5_0.index t (0 : Fin 2) * 256 + 1 * (j 0).val = win5_4.index t (0 : Fin 2) * 256 + 1 * (j 0).val; omega
    | ⟨1, _⟩ => show win5_0.index t (1 : Fin 2) * 1000 + 1 * k.val = k.val; omega
  have h1 : ∀ k : Fin 1000, ((cfg5.win 1).blk t).view.emb (ix2 (j 1) k) = ix2 ((((cfg5.win 4).blk t).view.emb j) 1) k := by
    intro k; funext a; apply Fin.ext
    match a with
    | ⟨0, _⟩ => show win5_1.index t (0 : Fin 2) * 200 + 1 * (j 1).val = win5_4.index t (1 : Fin 2) * 200 + 1 * (j 1).val; omega
    | ⟨1, _⟩ => show win5_1.index t (1 : Fin 2) * 1000 + 1 * k.val = k.val; omega
  have h2 : ∀ k : Fin 1000, ((cfg5.win 2).blk t).view.emb (ix2 (j 1) k) = ix2 ((((cfg5.win 4).blk t).view.emb j) 1) k := by
    intro k; funext a; apply Fin.ext
    match a with
    | ⟨0, _⟩ => show win5_2.index t (0 : Fin 2) * 200 + 1 * (j 1).val = win5_4.index t (1 : Fin 2) * 200 + 1 * (j 1).val; omega
    | ⟨1, _⟩ => show win5_2.index t (1 : Fin 2) * 1000 + 1 * k.val = k.val; omega
  have h3 : ((cfg5.win 3).blk t).view.emb (ix2 (0 : Fin 1) (j 1)) = ix2 (0 : Fin 1) ((((cfg5.win 4).blk t).view.emb j) 1) := by
    funext a; apply Fin.ext
    match a with
    | ⟨0, _⟩ => show win5_3.index t (0 : Fin 2) * 1 + 1 * 0 = 0; omega
    | ⟨1, _⟩ => show win5_3.index t (1 : Fin 2) * 200 + 1 * (j 1).val = win5_4.index t (1 : Fin 2) * 200 + 1 * (j 1).val; omega
  refine biasRelu_at j _ (mdot_at j _ (fun k => ?_) (fun k => ?_) (fun k => ?_)) ?_
  · exact congrArg (V c main_v37) (h0 k)
  · exact congrArg (V c main_arg10) (h1 k)
  · exact congrArg (V c main_arg12) (h2 k)
  · exact congrArg (V c main_v38) h3

/-- An index of the array is in point `t`'s block iff each coordinate is in the block's range on its axis. -/
theorem mem_blk5 (t : Fin cfg5.N) (i : S8192x200.Idx) :
    i ∈ ((cfg5.win 4).blk t).view.set ↔ ∀ a : Fin 2, win5_4.index t a * S256x200.size a ≤ (i a).val ∧ (i a).val < win5_4.index t a * S256x200.size a + S256x200.size a := by
  show i ∈ ((View.whole main_v39).slice (win5_4.rect t)).set ↔ _
  rw [View.set_slice_whole, Rect.mem_set_unit]
  exact Iff.rfl

/-- Every index of the output array is in the block of the point its row falls in. -/
theorem cover5 (i : S8192x200.Idx) : ∃ t : Fin cfg5.N, (cfg5.win 4).flush t = true ∧ i ∈ ((cfg5.win 4).blk t).view.set := by
  have hi0 : (i 0).val < 8192 := (i 0).isLt
  have hi1 : (i 1).val < 200 := (i 1).isLt
  have hN : cfg5.N = 32 := N_5
  let t : Fin cfg5.N := ⟨(i 0).val / 256, by rw [hN]; omega⟩
  obtain ⟨e0, e1, e2, e3, e4, e5, e6, e7, e8, e9⟩ := idx_facts5 t
  have eo : win5_4.index t (0 : Fin 2) = (i 0).val / 256 := e8
  refine ⟨t, flush5_4 t, ?_⟩
  rw [mem_blk5]
  intro a
  match a with
  | ⟨0, _⟩ => show win5_4.index t (0 : Fin 2) * 256 ≤ (i 0).val ∧ (i 0).val < win5_4.index t (0 : Fin 2) * 256 + 256; omega
  | ⟨1, _⟩ => show win5_4.index t (1 : Fin 2) * 200 ≤ (i 1).val ∧ (i 1).val < win5_4.index t (1 : Fin 2) * 200 + 200; omega

/-- The output array after region 5. -/
theorem final5 (c : Dev nD) : (dat5 V c).arrAt 4 cfg5.N = biasRelu (mdot (V c main_v37) (V c main_arg10) (V c main_arg12)) (rowOf (V c main_v38)) :=
  (dat5 V c).arrAt_eq_of_cover 4 _ (fun t _ => flushed5_eq V c t) cover5

end Cert.KernelIdeal.Val

end
-- ==== Proof.R6.lean ====
/-
  Region 6, the affine head: after the region its output array holds `lin` of the three arrays it was entered with.

  Point `t` of the grid works on rows `256 t … 256 t + 255`: it loads that block of rows of the input, the whole
  weight matrix and the whole bias row, and writes back the same rows of the result.  Entry `(r, q)` of `lin` depends
  only on row `r` of the input, so what the point writes back is its block of the whole-array function; the 32 blocks
  cover the array.
-/
import proofs.«120771_j77927886619274_1_alg».proof.Proof.Gen.KernelIdeal.Frame
import proofs.«120771_j77927886619274_1_alg».proof.Proof.Payload
import proofs.«120771_j77927886619274_1_alg».proof.Proof.SpecLocal

set_option maxRecDepth 16384

noncomputable section

namespace Cert.KernelIdeal.Val

open Cert.KernelIdeal Cert.KernelIdeal.Gen Cert.MaskedMlp
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the grid: the input's block of rows is the output's, every other coordinate is 0,
    and the output's block of rows at point `t` is the `t`-th. -/
theorem idx_facts6 : ∀ t : Fin cfg6.N, win6_0.index t (0 : Fin 2) = win6_3.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is its block of `lin` of the arrays as the region finds them. -/
theorem flushed6_eq (c : Dev nD) (t : Fin cfg6.N) :
    (dat6 V c).flushed 3 t = ((cfg6.win 3).blk t).view.read (Elt Ideal)
      (lin (V c main_v39) (V c main_arg25) (rowOf (V c main_v40))) := by
  show (cfg6.win 3).cut (grid6.coords t) ((dat6 V c).after 3 t) = _
  rw [after6_3]
  unfold out6_3
  rw [View.canon_unit_zero hz6]
  simp only [View.ld_unit_zero (S := S256x200) hz6, View.ld_unit_zero (S := S50x200) hz6, View.ld_unit_zero (S := S1x50) hz6]
  rw [Pay.pay6]
  obtain ⟨e0, e1, e2, e3, e4, e5, e6, e7⟩ := idx_facts6 t
  funext j
  show lin (iblk6 V c 0 t) (iblk6 V c 1 t) (rowOf (iblk6 V c 2 t)) j
    = lin (V c main_v39) (V c main_arg25) (rowOf (V c main_v40)) (((cfg6.win 3).blk t).view.emb j)
  have hj0 : (j 0).val < 256 := (j 0).isLt
  have hj1 : (j 1).val < 50 := (j 1).isLt
  have h0 : ∀ k : Fin 200, ((cfg6.win 0).blk t).view.emb (ix2 (j 0) k) = ix2 ((((cfg6.win 3).blk t).view.emb j) 0) k := by
    intro k; funext a; apply Fin.ext
    match a with
    | ⟨0, _⟩ => show win6_0.index t (0 : Fin 2) * 256 + 1 * (j 0).val = win6_3.index t (0 : Fin 2) * 256 + 1 * (j 0).val; omega
    | ⟨1, _⟩ => show win6_0.index t (1 : Fin 2) * 200 + 1 * k.val = k.val; omega
  have h1 : ∀ k : Fin 200, ((cfg6.win 1).blk t).view.emb (ix2 (j 1) k) = ix2 ((((cfg6.win 3).blk t).view.emb j) 1) k := by
    intro k; funext a; apply Fin.ext
    match a with
    | ⟨0, _⟩ => show win6_1.index t (0 : Fin 2) * 50 + 1 * (j 1).val = win6_3.index t (1 : Fin 2) * 50 + 1 * (j 1).val; omega
    | ⟨1, _⟩ => show win6_1.index t (1 : Fin 2) * 200 + 1 * k.val = k.val; omega
  have h2 : ((cfg6.win 2).blk t).view.emb (ix2 (0 : Fin 1) (j 1)) = ix2 (0 : Fin 1) ((((cfg6.win 3).blk t).view.emb j) 1) := by
    funext a; apply Fin.ext
    match a with
    | ⟨0, _⟩ => show win6_2.index t (0 : Fin 2) * 1 + 1 * 0 = 0; omega
    | ⟨1, _⟩ => show win6_2.index t (1 : Fin 2) * 50 + 1 * (j 1).val = win6_3.index t (1 : Fin 2) * 50 + 1 * (j 1).val; omega
  refine lin_at j _ (fun k => ?_) (fun k => ?_) ?_
  · exact congrArg (V c main_v39) (h0 k)
  · exact congrArg (V c main_arg25) (h1 k)
  · exact congrArg (V c main_v40) h2

/-- An index of the array is in point `t`'s block iff each coordinate is in the block's range on its axis. -/
theorem mem_blk6 (t : Fin cfg6.N) (i : S8192x50.Idx) :
    i ∈ ((cfg6.win 3).blk t).view.set ↔ ∀ a : Fin 2, win6_3.index t a * S256x50.size a ≤ (i a).val ∧ (i a).val < win6_3.index t a * S256x50.size a + S256x50.size a := by
  show i ∈ ((View.whole main_v41).slice (win6_3.rect t)).set ↔ _
  rw [View.set_slice_whole, Rect.mem_set_unit]
  exact Iff.rfl

/-- Every index of the output array is in the block of the point its row falls in. -/
theorem cover6 (i : S8192x50.Idx) : ∃ t : Fin cfg6.N, (cfg6.win 3).flush t = true ∧ i ∈ ((cfg6.win 3).blk t).view.set := by
  have hi0 : (i 0).val < 8192 := (i 0).isLt
  have hi1 : (i 1).val < 50 := (i 1).isLt
  have hN : cfg6.N = 32 := N_6
  let t : Fin cfg6.N := ⟨(i 0).val / 256, by rw [hN]; omega⟩
  obtain ⟨e0, e1, e2, e3, e4, e5, e6, e7⟩ := idx_facts6 t
  have e6' : win6_3.index t (0 : Fin 2) = (i 0).val / 256 := e6
  refine ⟨t, flush6_3 t, ?_⟩
  rw [mem_blk6]
  intro a
  match a with
  | ⟨0, _⟩ => show win6_3.index t (0 : Fin 2) * 256 ≤ (i 0).val ∧ (i 0).val < win6_3.index t (0 : Fin 2) * 256 + 256; omega
  | ⟨1, _⟩ => show win6_3.index t (1 : Fin 2) * 50 ≤ (i 1).val ∧ (i 1).val < win6_3.index t (1 : Fin 2) * 50 + 50; omega

/-- The output array after region 6. -/
theorem final6 (c : Dev nD) : (dat6 V c).arrAt 3 cfg6.N = lin (V c main_v39) (V c main_arg25) (rowOf (V c main_v40)) :=
  (dat6 V c).arrAt_eq_of_cover 3 _ (fun t _ => flushed6_eq V c t) cover6

end Cert.KernelIdeal.Val

end
-- ==== Proof.Reads.lean ====
/-
  Which segments of the program leave a buffer alone.

  The program is a line of segments: stretches of host operations and the seven regions.  A region changes only its
  output array (its input arrays end as entered, every other buffer is untouched); a stretch of host operations
  changes only the buffers its operations write.  So a buffer that is neither a region's output nor written by a
  host operation after the first region's entry holds, at every later boundary, what it held at that entry.
-/
import proofs.«120771_j77927886619274_1_alg».proof.Proof.Gen.KernelIdeal.Frame
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- Region 0 changes only its output array. -/
theorem keep0 (c : Dev nD) (b : Ref sig .tc) (hb : b ≠ main_v18) :
    W37 m ρ c (Proc.devRef .tc b) = W36 m ρ c (Proc.devRef .tc b) := by
  by_cases h : ∃ w, Pipeline.arrRef spec0 w = b
  · obtain ⟨w, rfl⟩ := h
    have hin : (cfg0.win w).isOut = false :=
      (by decide : ∀ w : Fin 4, Pipeline.arrRef spec0 w ≠ main_v18 → (cfg0.win w).isOut = false) w hb
    exact (W37_arr m ρ c w).trans (((dat0 (V36 m ρ) c).arrAt_in w hin _).trans (A_eq0 (V36 m ρ) c w))
  · exact W37_of_ne m ρ c b (fun w e => h ⟨w, e⟩)

/-- Region 1 changes only its output array. -/
theorem keep1 (c : Dev nD) (b : Ref sig .tc) (hb : b ≠ main_v24) :
    W39 m ρ c (Proc.devRef .tc b) = W38 m ρ c (Proc.devRef .tc b) := by
  by_cases h : ∃ w, Pipeline.arrRef spec1 w = b
  · obtain ⟨w, rfl⟩ := h
    have hin : (cfg1.win w).isOut = false :=
      (by decide : ∀ w : Fin 7, Pipeline.arrRef spec1 w ≠ main_v24 → (cfg1.win w).isOut = false) w hb
    exact (W39_arr m ρ c w).trans (((dat1 (V38 m ρ) c).arrAt_in w hin _).trans (A_eq1 (V38 m ρ) c w))
  · exact W39_of_ne m ρ c b (fun w e => h ⟨w, e⟩)

/-- Region 2 changes only its output array. -/
theorem keep2 (c : Dev nD) (b : Ref sig .tc) (hb : b ≠ main_v25) :
    W40 m ρ c (Proc.devRef .tc b) = W39 m ρ c (Proc.devRef .tc b) := by
  by_cases h : ∃ w, Pipeline.arrRef spec2 w = b
  · obtain ⟨w, rfl⟩ := h
    have hin : (cfg2.win w).isOut = false :=
      (by decide : ∀ w : Fin 4, Pipeline.arrRef spec2 w ≠ main_v25 → (cfg2.win w).isOut = false) w hb
    exact (W40_arr m ρ c w).trans (((dat2 (V39 m ρ) c).arrAt_in w hin _).trans (A_eq2 (V39 m ρ) c w))
  · exact W40_of_ne m ρ c b (fun w e => h ⟨w, e⟩)

/-- Region 3 changes only its output array. -/
theorem keep3 (c : Dev nD) (b : Ref sig .tc) (hb : b ≠ main_v31) :
    W42 m ρ c (Proc.devRef .tc b) = W41 m ρ c (Proc.devRef .tc b) := by
  by_cases h : ∃ w, Pipeline.arrRef spec3 w = b
  · obtain ⟨w, rfl⟩ := h
    have hin : (cfg3.win w).isOut = false :=
      (by decide : ∀ w : Fin 7, Pipeline.arrRef spec3 w ≠ main_v31 → (cfg3.win w).isOut = false) w hb
    exact (W42_arr m ρ c w).trans (((dat3 (V41 m ρ) c).arrAt_in w hin _).trans (A_eq3 (V41 m ρ) c w))
  · exact W42_of_ne m ρ c b (fun w e => h ⟨w, e⟩)

/-- Region 4 changes only its output array. -/
theorem keep4 (c : Dev nD) (b : Ref sig .tc) (hb : b ≠ main_v37) :
    W44 m ρ c (Proc.devRef .tc b) = W43 m ρ c (Proc.devRef .tc b) := by
  by_cases h : ∃ w, Pipeline.arrRef spec4 w = b
  · obtain ⟨w, rfl⟩ := h
    have hin : (cfg4.win w).isOut = false :=
      (by decide : ∀ w : Fin 9, Pipeline.arrRef spec4 w ≠ main_v37 → (cfg4.win w).isOut = false) w hb
    exact (W44_arr m ρ c w).trans (((dat4 (V43 m ρ) c).arrAt_in w hin _).trans (A_eq4 (V43 m ρ) c w))
  · exact W44_of_ne m ρ c b (fun w e => h ⟨w, e⟩)

/-- Region 5 changes only its output array. -/
theorem keep5 (c : Dev nD) (b : Ref sig .tc) (hb : b ≠ main_v39) :
    W46 m ρ c (Proc.devRef .tc b) = W45 m ρ c (Proc.devRef .tc b) := by
  by_cases h : ∃ w, Pipeline.arrRef spec5 w = b
  · obtain ⟨w, rfl⟩ := h
    have hin : (cfg5.win w).isOut = false :=
      (by decide : ∀ w : Fin 5, Pipeline.arrRef spec5 w ≠ main_v39 → (cfg5.win w).isOut = false) w hb
    exact (W46_arr m ρ c w).trans (((dat5 (V45 m ρ) c).arrAt_in w hin _).trans (A_eq5 (V45 m ρ) c w))
  · exact W46_of_ne m ρ c b (fun w e => h ⟨w, e⟩)

/-- Region 6 changes only its output array. -/
theorem keep6 (c : Dev nD) (b : Ref sig .tc) (hb : b ≠ main_v41) :
    W48 m ρ c (Proc.devRef .tc b) = W47 m ρ c (Proc.devRef .tc b) := by
  by_cases h : ∃ w, Pipeline.arrRef spec6 w = b
  · obtain ⟨w, rfl⟩ := h
    have hin : (cfg6.win w).isOut = false :=
      (by decide : ∀ w : Fin 4, Pipeline.arrRef spec6 w ≠ main_v41 → (cfg6.win w).isOut = false) w hb
    exact (W48_arr m ρ c w).trans (((dat6 (V47 m ρ) c).arrAt_in w hin _).trans (A_eq6 (V47 m ρ) c w))
  · exact W48_of_ne m ρ c b (fun w e => h ⟨w, e⟩)

/-- The stretch `hostOps1` changes only the buffers it writes. -/
theorem skip_hostOps1 (c : Dev nD) (b : Ref sig .tc) (hb : b ∉ [main_v19, main_v20, main_v21, main_v22, main_v23]) :
    W38 m ρ c (Proc.devRef .tc b) = W37 m ρ c (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- The stretch `hostOps3` changes only the buffers it writes. -/
theorem skip_hostOps3 (c : Dev nD) (b : Ref sig .tc) (hb : b ∉ [main_v26, main_v27, main_v28, main_v29, main_v30]) :
    W41 m ρ c (Proc.devRef .tc b) = W40 m ρ c (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- The stretch `hostOps4` changes only the buffers it writes. -/
theorem skip_hostOps4 (c : Dev nD) (b : Ref sig .tc) (hb : b ∉ [main_v32, main_v33, main_v34, main_v35, main_v36]) :
    W43 m ρ c (Proc.devRef .tc b) = W42 m ρ c (Proc.devRef .tc b) :=
  StableHlo.after_of_forall_not_mem (b := Proc.devRef .tc b) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- The stretch `hostOps5` changes only the buffers it writes. -/
theorem skip_hostOps5 (c : Dev nD) (b : Ref sig .tc) (hb : b ∉ [main_v38]) :
    W45 m ρ c (Proc.devRef .tc b) = W44 m ρ c (Proc.devRef .tc b) :=
  StableHlo.after_of_forall_not_mem (b := Proc.devRef .tc b) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- The stretch `hostOps6` changes only the buffers it writes. -/
theorem skip_hostOps6 (c : Dev nD) (b : Ref sig .tc) (hb : b ∉ [main_v40]) :
    W47 m ρ c (Proc.devRef .tc b) = W46 m ρ c (Proc.devRef .tc b) :=
  StableHlo.after_of_forall_not_mem (b := Proc.devRef .tc b) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- The buffers written from the first region's entry on: the regions' outputs and the reshaped vectors. -/
def lateRefs : List (Ref sig .tc) :=
  [main_v18, main_v19, main_v20, main_v21, main_v22, main_v23, main_v24, main_v25, main_v26, main_v27, main_v28,
   main_v29, main_v30, main_v31, main_v32, main_v33, main_v34, main_v35, main_v36, main_v37, main_v38, main_v39,
   main_v40, main_v41]

variable (c : Dev nD) (b : Ref sig .tc) (hb : b ∉ lateRefs)
include hb

theorem ne_late (y : Ref sig .tc) (hy : y ∈ lateRefs) : b ≠ y := fun e => hb (e ▸ hy)

theorem nmem_late (l : List (Ref sig .tc)) (hl : ∀ y ∈ l, y ∈ lateRefs) : b ∉ l := fun h => hb (hl b h)

/-- A buffer not written from the first region's entry on holds at boundary 37 what it held at that entry. -/
theorem early37 : W37 m ρ c (Proc.devRef .tc b) = W36 m ρ c (Proc.devRef .tc b) :=
  keep0 m ρ c b (ne_late b hb main_v18 (by decide))

/-- A buffer not written from the first region's entry on holds at boundary 38 what it held at that entry. -/
theorem early38 : W38 m ρ c (Proc.devRef .tc b) = W36 m ρ c (Proc.devRef .tc b) :=
  (skip_hostOps1 m ρ c b (nmem_late b hb _ (by decide))).trans (early37 m ρ c b hb)

/-- A buffer not written from the first region's entry on holds at boundary 39 what it held at that entry. -/
theorem early39 : W39 m ρ c (Proc.devRef .tc b) = W36 m ρ c (Proc.devRef .tc b) :=
  (keep1 m ρ c b (ne_late b hb main_v24 (by decide))).trans (early38 m ρ c b hb)

/-- A buffer not written from the first region's entry on holds at boundary 40 what it held at that entry. -/
theorem early40 : W40 m ρ c (Proc.devRef .tc b) = W36 m ρ c (Proc.devRef .tc b) :=
  (keep2 m ρ c b (ne_late b hb main_v25 (by decide))).trans (early39 m ρ c b hb)

/-- A buffer not written from the first region's entry on holds at boundary 41 what it held at that entry. -/
theorem early41 : W41 m ρ c (Proc.devRef .tc b) = W36 m ρ c (Proc.devRef .tc b) :=
  (skip_hostOps3 m ρ c b (nmem_late b hb _ (by decide))).trans (early40 m ρ c b hb)

/-- A buffer not written from the first region's entry on holds at boundary 42 what it held at that entry. -/
theorem early42 : W42 m ρ c (Proc.devRef .tc b) = W36 m ρ c (Proc.devRef .tc b) :=
  (keep3 m ρ c b (ne_late b hb main_v31 (by decide))).trans (early41 m ρ c b hb)

/-- A buffer not written from the first region's entry on holds at boundary 43 what it held at that entry. -/
theorem early43 : W43 m ρ c (Proc.devRef .tc b) = W36 m ρ c (Proc.devRef .tc b) :=
  (skip_hostOps4 m ρ c b (nmem_late b hb _ (by decide))).trans (early42 m ρ c b hb)

/-- A buffer not written from the first region's entry on holds at boundary 44 what it held at that entry. -/
theorem early44 : W44 m ρ c (Proc.devRef .tc b) = W36 m ρ c (Proc.devRef .tc b) :=
  (keep4 m ρ c b (ne_late b hb main_v37 (by decide))).trans (early43 m ρ c b hb)

/-- A buffer not written from the first region's entry on holds at boundary 45 what it held at that entry. -/
theorem early45 : W45 m ρ c (Proc.devRef .tc b) = W36 m ρ c (Proc.devRef .tc b) :=
  (skip_hostOps5 m ρ c b (nmem_late b hb _ (by decide))).trans (early44 m ρ c b hb)

/-- A buffer not written from the first region's entry on holds at boundary 46 what it held at that entry. -/
theorem early46 : W46 m ρ c (Proc.devRef .tc b) = W36 m ρ c (Proc.devRef .tc b) :=
  (keep5 m ρ c b (ne_late b hb main_v39 (by decide))).trans (early45 m ρ c b hb)

/-- A buffer not written from the first region's entry on holds at boundary 47 what it held at that entry. -/
theorem early47 : W47 m ρ c (Proc.devRef .tc b) = W36 m ρ c (Proc.devRef .tc b) :=
  (skip_hostOps6 m ρ c b (nmem_late b hb _ (by decide))).trans (early46 m ρ c b hb)

/-- A buffer not written from the first region's entry on holds at boundary 48 what it held at that entry. -/
theorem early48 : W48 m ρ c (Proc.devRef .tc b) = W36 m ρ c (Proc.devRef .tc b) :=
  (keep6 m ρ c b (ne_late b hb main_v41 (by decide))).trans (early47 m ρ c b hb)

end Cert.KernelIdeal.Val

end
-- ==== Proof.HostShapes.lean ====
/-
  The host program's zero padding and vector reshape, read as the specification's array operations.

  A pad that only appends entries after the last one of a single axis keeps every original entry in place and fills the
  new positions with the padding value; when that value is zero this is `padRows`, `padCols` or `padVec`.  A vector
  reshaped to a one-row matrix has the same entries in the same order, so reading the row back gives the vector.  The
  padding value the programs use is the integer zero converted to a real number, which is zero.
-/
import proofs.«120771_j77927886619274_1_alg».proof.Proof.Spec
import Idealize.ShloMosaic.Lib.KernelVsHost
import Idealize.ShloMosaic.Lib.Pipeline.Value

noncomputable section

namespace Cert.MaskedMlp

open Idealize.ShloMosaic Idealize.ShloMosaic.ValueIdx

/-- Appending `e` rows of a zero padding value below a matrix is `padRows`. -/
theorem pad_rows_eq {n k e n' : ℕ} (x : Mat n k) {u : Shape} (v : u.Idx → EReal)
    (h : (⟨2, ![n, k]⟩ : Shape).Pads ![0, 0] ![e, 0] ![0, 0] ⟨2, ![n', k]⟩) (hu : 0 < u.numel)
    (hv : v (Shape.Idx.first hu) = 0) :
    pad ⟨2, ![n', k]⟩ ![0, 0] ![e, 0] ![0, 0] x v h hu = padRows n' x := by
  funext j
  show _ = if hj : (j 0).val < n then x (ix2 ⟨(j 0).val, hj⟩ (j 1)) else 0
  by_cases hj : (j 0).val < n
  · rw [dif_pos hj]
    apply pad_apply_of_inside
    intro a
    match a with
    | ⟨0, _⟩ => show (j 0).val = 0 + (j 0).val * (0 + 1); omega
    | ⟨1, _⟩ => show (j 1).val = 0 + (j 1).val * (0 + 1); omega
  · rw [dif_neg hj, pad_apply_of_not_inside _ _ _ x v h hu j 0, hv]
    intro hin
    have h3 : ((j 0).val - 0) / (0 + 1) < n := hin.2.2
    simp only [Nat.sub_zero, Nat.zero_add, Nat.div_one] at h3
    exact hj h3

/-- Appending `e` columns of a zero padding value to the right of a matrix is `padCols`. -/
theorem pad_cols_eq {n k e k' : ℕ} (x : Mat n k) {u : Shape} (v : u.Idx → EReal)
    (h : (⟨2, ![n, k]⟩ : Shape).Pads ![0, 0] ![0, e] ![0, 0] ⟨2, ![n, k']⟩) (hu : 0 < u.numel)
    (hv : v (Shape.Idx.first hu) = 0) :
    pad ⟨2, ![n, k']⟩ ![0, 0] ![0, e] ![0, 0] x v h hu = padCols k' x := by
  funext j
  show _ = if hj : (j 1).val < k then x (ix2 (j 0) ⟨(j 1).val, hj⟩) else 0
  by_cases hj : (j 1).val < k
  · rw [dif_pos hj]
    apply pad_apply_of_inside
    intro a
    match a with
    | ⟨0, _⟩ => show (j 0).val = 0 + (j 0).val * (0 + 1); omega
    | ⟨1, _⟩ => show (j 1).val = 0 + (j 1).val * (0 + 1); omega
  · rw [dif_neg hj, pad_apply_of_not_inside _ _ _ x v h hu j 1, hv]
    intro hin
    have h3 : ((j 1).val - 0) / (0 + 1) < k := hin.2.2
    simp only [Nat.sub_zero, Nat.zero_add, Nat.div_one] at h3
    exact hj h3

/-- Appending `e` entries of a zero padding value after a vector is `padVec`. -/
theorem pad_vec_eq {n e n' : ℕ} (x : Vct n) {u : Shape} (v : u.Idx → EReal)
    (h : (⟨1, ![n]⟩ : Shape).Pads ![0] ![e] ![0] ⟨1, ![n']⟩) (hu : 0 < u.numel)
    (hv : v (Shape.Idx.first hu) = 0) :
    pad ⟨1, ![n']⟩ ![0] ![e] ![0] x v h hu = padVec n' x := by
  funext j
  show _ = if hj : (j 0).val < n then x (ix1 ⟨(j 0).val, hj⟩) else 0
  by_cases hj : (j 0).val < n
  · rw [dif_pos hj]
    apply pad_apply_of_inside
    intro a
    match a with
    | ⟨0, _⟩ => show (j 0).val = 0 + (j 0).val * (0 + 1); omega
  · rw [dif_neg hj, pad_apply_of_not_inside _ _ _ x v h hu j 0, hv]
    intro hin
    have h3 : ((j 0).val - 0) / (0 + 1) < n := hin.2.2
    simp only [Nat.sub_zero, Nat.zero_add, Nat.div_one] at h3
    exact hj h3

/-- A vector reshaped to a one-row matrix and read back as a vector is the vector. -/
theorem rowOf_shapeCast {n : ℕ} (x : Vct n) (h : (⟨1, ![n]⟩ : Shape).ShapeCasts ⟨2, ![1, n]⟩) :
    rowOf (shapeCast ⟨2, ![1, n]⟩ x h) = x := by
  funext i
  show shapeCast ⟨2, ![1, n]⟩ x h (ix2 (0 : Fin 1) (i 0)) = x i
  apply shapeCast_apply
  rw [Shape.rowMajor_val_one, Shape.rowMajor_val_two]
  show (i 0).val = 0 * n + (i 0).val
  omega

/-- The integer zero converted to a real number is zero, at the one index of a scalar array. -/
theorem sitofp_constantI_zero (i : (⟨0, ![]⟩ : Shape).Idx) :
    (sitofp .f32 (constantI (⟨0, ![]⟩ : Shape) 32 0#32) : FVec Ideal ⟨0, ![]⟩ .f32) i = 0 := by
  show ((((0#32 : BitVec 32).toInt : ℤ) : ℝ) : EReal) = 0
  simp

end Cert.MaskedMlp

end
-- ==== Proof.Chain1.lean ====
/-
  What the buffers the regions read hold when each region is entered.

  An argument array is never written, so at every boundary it holds its launch contents.  A reshaped vector — a
  per-column vector given as a one-row matrix just before the region that uses it — read back as a vector is the
  vector it was made from.
-/
import proofs.«120771_j77927886619274_1_alg».proof.Proof.Gen.KernelIdeal.Frame
import proofs.«120771_j77927886619274_1_alg».proof.Proof.Reads
import proofs.«120771_j77927886619274_1_alg».proof.Proof.HostShapes
import Idealize.ShloMosaic.Lib.StableHlo.Run

set_option maxRecDepth 16384

noncomputable section

namespace Cert.KernelIdeal.Val

open Cert.KernelIdeal Cert.KernelIdeal.Gen Cert.MaskedMlp Idealize.ShloMosaic.StableHlo
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-- The launch contents of the argument arrays, as arrays of extended reals. -/
abbrev ar0 : S8192x5000.Idx → EReal := m ((c : Thread nD τ).loc main_arg0)
abbrev ar1 : S4000x5000.Idx → EReal := m ((c : Thread nD τ).loc main_arg1)
abbrev ar2 : S4000.Idx → EReal := m ((c : Thread nD τ).loc main_arg2)
abbrev ar3 : S4000x5000.Idx → EReal := m ((c : Thread nD τ).loc main_arg3)
abbrev ar4 : S2000x4000.Idx → EReal := m ((c : Thread nD τ).loc main_arg4)
abbrev ar5 : S2000.Idx → EReal := m ((c : Thread nD τ).loc main_arg5)
abbrev ar6 : S2000x4000.Idx → EReal := m ((c : Thread nD τ).loc main_arg6)
abbrev ar7 : S1000x2000.Idx → EReal := m ((c : Thread nD τ).loc main_arg7)
abbrev ar8 : S1000.Idx → EReal := m ((c : Thread nD τ).loc main_arg8)
abbrev ar9 : S1000x2000.Idx → EReal := m ((c : Thread nD τ).loc main_arg9)
abbrev ar10 : S200x1000.Idx → EReal := m ((c : Thread nD τ).loc main_arg10)
abbrev ar11 : S200.Idx → EReal := m ((c : Thread nD τ).loc main_arg11)
abbrev ar12 : S200x1000.Idx → EReal := m ((c : Thread nD τ).loc main_arg12)
abbrev ar13 : S4000.Idx → EReal := m ((c : Thread nD τ).loc main_arg13)
abbrev ar14 : S4000.Idx → EReal := m ((c : Thread nD τ).loc main_arg14)
abbrev ar15 : S4000.Idx → EReal := m ((c : Thread nD τ).loc main_arg15)
abbrev ar16 : S4000.Idx → EReal := m ((c : Thread nD τ).loc main_arg16)
abbrev ar17 : S2000.Idx → EReal := m ((c : Thread nD τ).loc main_arg17)
abbrev ar18 : S2000.Idx → EReal := m ((c : Thread nD τ).loc main_arg18)
abbrev ar19 : S2000.Idx → EReal := m ((c : Thread nD τ).loc main_arg19)
abbrev ar20 : S2000.Idx → EReal := m ((c : Thread nD τ).loc main_arg20)
abbrev ar21 : S1000.Idx → EReal := m ((c : Thread nD τ).loc main_arg21)
abbrev ar22 : S1000.Idx → EReal := m ((c : Thread nD τ).loc main_arg22)
abbrev ar23 : S1000.Idx → EReal := m ((c : Thread nD τ).loc main_arg23)
abbrev ar24 : S1000.Idx → EReal := m ((c : Thread nD τ).loc main_arg24)
abbrev ar25 : S50x200.Idx → EReal := m ((c : Thread nD τ).loc main_arg25)
abbrev ar26 : S50.Idx → EReal := m ((c : Thread nD τ).loc main_arg26)

/-- An argument array at the first region's entry holds its launch contents. -/
theorem at36_arg0 : W36 m ρ c (Proc.devRef .tc main_arg0) = ar0 m c :=
  (early48 m ρ c main_arg0 (by decide)).symm.trans (W48_main_arg0 m ρ c)
theorem at36_arg1 : W36 m ρ c (Proc.devRef .tc main_arg1) = ar1 m c :=
  (early48 m ρ c main_arg1 (by decide)).symm.trans (W48_main_arg1 m ρ c)
theorem at36_arg2 : W36 m ρ c (Proc.devRef .tc main_arg2) = ar2 m c :=
  (early48 m ρ c main_arg2 (by decide)).symm.trans (W48_main_arg2 m ρ c)
theorem at36_arg3 : W36 m ρ c (Proc.devRef .tc main_arg3) = ar3 m c :=
  (early48 m ρ c main_arg3 (by decide)).symm.trans (W48_main_arg3 m ρ c)
theorem at36_arg4 : W36 m ρ c (Proc.devRef .tc main_arg4) = ar4 m c :=
  (early48 m ρ c main_arg4 (by decide)).symm.trans (W48_main_arg4 m ρ c)
theorem at36_arg5 : W36 m ρ c (Proc.devRef .tc main_arg5) = ar5 m c :=
  (early48 m ρ c main_arg5 (by decide)).symm.trans (W48_main_arg5 m ρ c)
theorem at36_arg6 : W36 m ρ c (Proc.devRef .tc main_arg6) = ar6 m c :=
  (early48 m ρ c main_arg6 (by decide)).symm.trans (W48_main_arg6 m ρ c)
theorem at36_arg7 : W36 m ρ c (Proc.devRef .tc main_arg7) = ar7 m c :=
  (early48 m ρ c main_arg7 (by decide)).symm.trans (W48_main_arg7 m ρ c)
theorem at36_arg8 : W36 m ρ c (Proc.devRef .tc main_arg8) = ar8 m c :=
  (early48 m ρ c main_arg8 (by decide)).symm.trans (W48_main_arg8 m ρ c)
theorem at36_arg9 : W36 m ρ c (Proc.devRef .tc main_arg9) = ar9 m c :=
  (early48 m ρ c main_arg9 (by decide)).symm.trans (W48_main_arg9 m ρ c)
theorem at36_arg10 : W36 m ρ c (Proc.devRef .tc main_arg10) = ar10 m c :=
  (early48 m ρ c main_arg10 (by decide)).symm.trans (W48_main_arg10 m ρ c)
theorem at36_arg11 : W36 m ρ c (Proc.devRef .tc main_arg11) = ar11 m c :=
  (early48 m ρ c main_arg11 (by decide)).symm.trans (W48_main_arg11 m ρ c)
theorem at36_arg12 : W36 m ρ c (Proc.devRef .tc main_arg12) = ar12 m c :=
  (early48 m ρ c main_arg12 (by decide)).symm.trans (W48_main_arg12 m ρ c)
theorem at36_arg13 : W36 m ρ c (Proc.devRef .tc main_arg13) = ar13 m c :=
  (early48 m ρ c main_arg13 (by decide)).symm.trans (W48_main_arg13 m ρ c)
theorem at36_arg14 : W36 m ρ c (Proc.devRef .tc main_arg14) = ar14 m c :=
  (early48 m ρ c main_arg14 (by decide)).symm.trans (W48_main_arg14 m ρ c)
theorem at36_arg15 : W36 m ρ c (Proc.devRef .tc main_arg15) = ar15 m c :=
  (early48 m ρ c main_arg15 (by decide)).symm.trans (W48_main_arg15 m ρ c)
theorem at36_arg16 : W36 m ρ c (Proc.devRef .tc main_arg16) = ar16 m c :=
  (early48 m ρ c main_arg16 (by decide)).symm.trans (W48_main_arg16 m ρ c)
theorem at36_arg17 : W36 m ρ c (Proc.devRef .tc main_arg17) = ar17 m c :=
  (early48 m ρ c main_arg17 (by decide)).symm.trans (W48_main_arg17 m ρ c)
theorem at36_arg18 : W36 m ρ c (Proc.devRef .tc main_arg18) = ar18 m c :=
  (early48 m ρ c main_arg18 (by decide)).symm.trans (W48_main_arg18 m ρ c)
theorem at36_arg19 : W36 m ρ c (Proc.devRef .tc main_arg19) = ar19 m c :=
  (early48 m ρ c main_arg19 (by decide)).symm.trans (W48_main_arg19 m ρ c)
theorem at36_arg20 : W36 m ρ c (Proc.devRef .tc main_arg20) = ar20 m c :=
  (early48 m ρ c main_arg20 (by decide)).symm.trans (W48_main_arg20 m ρ c)
theorem at36_arg21 : W36 m ρ c (Proc.devRef .tc main_arg21) = ar21 m c :=
  (early48 m ρ c main_arg21 (by decide)).symm.trans (W48_main_arg21 m ρ c)
theorem at36_arg22 : W36 m ρ c (Proc.devRef .tc main_arg22) = ar22 m c :=
  (early48 m ρ c main_arg22 (by decide)).symm.trans (W48_main_arg22 m ρ c)
theorem at36_arg23 : W36 m ρ c (Proc.devRef .tc main_arg23) = ar23 m c :=
  (early48 m ρ c main_arg23 (by decide)).symm.trans (W48_main_arg23 m ρ c)
theorem at36_arg24 : W36 m ρ c (Proc.devRef .tc main_arg24) = ar24 m c :=
  (early48 m ρ c main_arg24 (by decide)).symm.trans (W48_main_arg24 m ρ c)
theorem at36_arg25 : W36 m ρ c (Proc.devRef .tc main_arg25) = ar25 m c :=
  (early48 m ρ c main_arg25 (by decide)).symm.trans (W48_main_arg25 m ρ c)
theorem at36_arg26 : W36 m ρ c (Proc.devRef .tc main_arg26) = ar26 m c :=
  (early48 m ρ c main_arg26 (by decide)).symm.trans (W48_main_arg26 m ρ c)

/-- A reshaped vector read back as a vector is the vector it was made from (as that buffer held it just before). -/
theorem row_main_v19 : rowOf (W38 m ρ c (Proc.devRef .tc main_v19) : S1x4096.Idx → EReal) = (W37 m ρ c (Proc.devRef .tc main_v2) : S4096.Idx → EReal) := by
  have e : (W38 m ρ c (Proc.devRef .tc main_v19) : S1x4096.Idx → EReal)
      = shapeCast S1x4096 (W37 m ρ c (Proc.devRef .tc main_v2) : S4096.Idx → EReal) shapeCasts_S4096_S1x4096 := by
    simp only [W38, hostOps1]
    after_results_simp
    rfl
  rw [e]
  exact rowOf_shapeCast _ _
theorem row_main_v20 : rowOf (W38 m ρ c (Proc.devRef .tc main_v20) : S1x4096.Idx → EReal) = (W37 m ρ c (Proc.devRef .tc main_v3) : S4096.Idx → EReal) := by
  have e : (W38 m ρ c (Proc.devRef .tc main_v20) : S1x4096.Idx → EReal)
      = shapeCast S1x4096 (W37 m ρ c (Proc.devRef .tc main_v3) : S4096.Idx → EReal) shapeCasts_S4096_S1x4096 := by
    simp only [W38, hostOps1]
    after_results_simp
    rfl
  rw [e]
  exact rowOf_shapeCast _ _
theorem row_main_v21 : rowOf (W38 m ρ c (Proc.devRef .tc main_v21) : S1x4096.Idx → EReal) = (W37 m ρ c (Proc.devRef .tc main_v4) : S4096.Idx → EReal) := by
  have e : (W38 m ρ c (Proc.devRef .tc main_v21) : S1x4096.Idx → EReal)
      = shapeCast S1x4096 (W37 m ρ c (Proc.devRef .tc main_v4) : S4096.Idx → EReal) shapeCasts_S4096_S1x4096 := by
    simp only [W38, hostOps1]
    after_results_simp
    rfl
  rw [e]
  exact rowOf_shapeCast _ _
theorem row_main_v22 : rowOf (W38 m ρ c (Proc.devRef .tc main_v22) : S1x4096.Idx → EReal) = (W37 m ρ c (Proc.devRef .tc main_v5) : S4096.Idx → EReal) := by
  have e : (W38 m ρ c (Proc.devRef .tc main_v22) : S1x4096.Idx → EReal)
      = shapeCast S1x4096 (W37 m ρ c (Proc.devRef .tc main_v5) : S4096.Idx → EReal) shapeCasts_S4096_S1x4096 := by
    simp only [W38, hostOps1]
    after_results_simp
    rfl
  rw [e]
  exact rowOf_shapeCast _ _
theorem row_main_v23 : rowOf (W38 m ρ c (Proc.devRef .tc main_v23) : S1x4096.Idx → EReal) = (W37 m ρ c (Proc.devRef .tc main_v6) : S4096.Idx → EReal) := by
  have e : (W38 m ρ c (Proc.devRef .tc main_v23) : S1x4096.Idx → EReal)
      = shapeCast S1x4096 (W37 m ρ c (Proc.devRef .tc main_v6) : S4096.Idx → EReal) shapeCasts_S4096_S1x4096 := by
    simp only [W38, hostOps1]
    after_results_simp
    rfl
  rw [e]
  exact rowOf_shapeCast _ _
theorem row_main_v26 : rowOf (W41 m ρ c (Proc.devRef .tc main_v26) : S1x2048.Idx → EReal) = (W40 m ρ c (Proc.devRef .tc main_v11) : S2048.Idx → EReal) := by
  have e : (W41 m ρ c (Proc.devRef .tc main_v26) : S1x2048.Idx → EReal)
      = shapeCast S1x2048 (W40 m ρ c (Proc.devRef .tc main_v11) : S2048.Idx → EReal) shapeCasts_S2048_S1x2048 := by
    simp only [W41, hostOps3]
    after_results_simp
    rfl
  rw [e]
  exact rowOf_shapeCast _ _
theorem row_main_v27 : rowOf (W41 m ρ c (Proc.devRef .tc main_v27) : S1x2048.Idx → EReal) = (W40 m ρ c (Proc.devRef .tc main_v12) : S2048.Idx → EReal) := by
  have e : (W41 m ρ c (Proc.devRef .tc main_v27) : S1x2048.Idx → EReal)
      = shapeCast S1x2048 (W40 m ρ c (Proc.devRef .tc main_v12) : S2048.Idx → EReal) shapeCasts_S2048_S1x2048 := by
    simp only [W41, hostOps3]
    after_results_simp
    rfl
  rw [e]
  exact rowOf_shapeCast _ _
theorem row_main_v28 : rowOf (W41 m ρ c (Proc.devRef .tc main_v28) : S1x2048.Idx → EReal) = (W40 m ρ c (Proc.devRef .tc main_v13) : S2048.Idx → EReal) := by
  have e : (W41 m ρ c (Proc.devRef .tc main_v28) : S1x2048.Idx → EReal)
      = shapeCast S1x2048 (W40 m ρ c (Proc.devRef .tc main_v13) : S2048.Idx → EReal) shapeCasts_S2048_S1x2048 := by
    simp only [W41, hostOps3]
    after_results_simp
    rfl
  rw [e]
  exact rowOf_shapeCast _ _
theorem row_main_v29 : rowOf (W41 m ρ c (Proc.devRef .tc main_v29) : S1x2048.Idx → EReal) = (W40 m ρ c (Proc.devRef .tc main_v14) : S2048.Idx → EReal) := by
  have e : (W41 m ρ c (Proc.devRef .tc main_v29) : S1x2048.Idx → EReal)
      = shapeCast S1x2048 (W40 m ρ c (Proc.devRef .tc main_v14) : S2048.Idx → EReal) shapeCasts_S2048_S1x2048 := by
    simp only [W41, hostOps3]
    after_results_simp
    rfl
  rw [e]
  exact rowOf_shapeCast _ _
theorem row_main_v30 : rowOf (W41 m ρ c (Proc.devRef .tc main_v30) : S1x2048.Idx → EReal) = (W40 m ρ c (Proc.devRef .tc main_v15) : S2048.Idx → EReal) := by
  have e : (W41 m ρ c (Proc.devRef .tc main_v30) : S1x2048.Idx → EReal)
      = shapeCast S1x2048 (W40 m ρ c (Proc.devRef .tc main_v15) : S2048.Idx → EReal) shapeCasts_S2048_S1x2048 := by
    simp only [W41, hostOps3]
    after_results_simp
    rfl
  rw [e]
  exact rowOf_shapeCast _ _
theorem row_main_v32 : rowOf (W43 m ρ c (Proc.devRef .tc main_v32) : S1x1000.Idx → EReal) = (W42 m ρ c (Proc.devRef .tc main_arg8) : S1000.Idx → EReal) := by
  have e : (W43 m ρ c (Proc.devRef .tc main_v32) : S1x1000.Idx → EReal)
      = shapeCast S1x1000 (W42 m ρ c (Proc.devRef .tc main_arg8) : S1000.Idx → EReal) shapeCasts_S1000_S1x1000 := by
    simp only [W43, hostOps4]
    after_results_simp
    rfl
  rw [e]
  exact rowOf_shapeCast _ _
theorem row_main_v33 : rowOf (W43 m ρ c (Proc.devRef .tc main_v33) : S1x1000.Idx → EReal) = (W42 m ρ c (Proc.devRef .tc main_arg21) : S1000.Idx → EReal) := by
  have e : (W43 m ρ c (Proc.devRef .tc main_v33) : S1x1000.Idx → EReal)
      = shapeCast S1x1000 (W42 m ρ c (Proc.devRef .tc main_arg21) : S1000.Idx → EReal) shapeCasts_S1000_S1x1000 := by
    simp only [W43, hostOps4]
    after_results_simp
    rfl
  rw [e]
  exact rowOf_shapeCast _ _
theorem row_main_v34 : rowOf (W43 m ρ c (Proc.devRef .tc main_v34) : S1x1000.Idx → EReal) = (W42 m ρ c (Proc.devRef .tc main_arg22) : S1000.Idx → EReal) := by
  have e : (W43 m ρ c (Proc.devRef .tc main_v34) : S1x1000.Idx → EReal)
      = shapeCast S1x1000 (W42 m ρ c (Proc.devRef .tc main_arg22) : S1000.Idx → EReal) shapeCasts_S1000_S1x1000 := by
    simp only [W43, hostOps4]
    after_results_simp
    rfl
  rw [e]
  exact rowOf_shapeCast _ _
theorem row_main_v35 : rowOf (W43 m ρ c (Proc.devRef .tc main_v35) : S1x1000.Idx → EReal) = (W42 m ρ c (Proc.devRef .tc main_arg23) : S1000.Idx → EReal) := by
  have e : (W43 m ρ c (Proc.devRef .tc main_v35) : S1x1000.Idx → EReal)
      = shapeCast S1x1000 (W42 m ρ c (Proc.devRef .tc main_arg23) : S1000.Idx → EReal) shapeCasts_S1000_S1x1000 := by
    simp only [W43, hostOps4]
    after_results_simp
    rfl
  rw [e]
  exact rowOf_shapeCast _ _
theorem row_main_v36 : rowOf (W43 m ρ c (Proc.devRef .tc main_v36) : S1x1000.Idx → EReal) = (W42 m ρ c (Proc.devRef .tc main_arg24) : S1000.Idx → EReal) := by
  have e : (W43 m ρ c (Proc.devRef .tc main_v36) : S1x1000.Idx → EReal)
      = shapeCast S1x1000 (W42 m ρ c (Proc.devRef .tc main_arg24) : S1000.Idx → EReal) shapeCasts_S1000_S1x1000 := by
    simp only [W43, hostOps4]
    after_results_simp
    rfl
  rw [e]
  exact rowOf_shapeCast _ _
theorem row_main_v38 : rowOf (W45 m ρ c (Proc.devRef .tc main_v38) : S1x200.Idx → EReal) = (W44 m ρ c (Proc.devRef .tc main_arg11) : S200.Idx → EReal) := by
  have e : (W45 m ρ c (Proc.devRef .tc main_v38) : S1x200.Idx → EReal)
      = shapeCast S1x200 (W44 m ρ c (Proc.devRef .tc main_arg11) : S200.Idx → EReal) shapeCasts_S200_S1x200 := by
    simp only [W45, hostOps5]
    after_results_simp
    rfl
  rw [e]
  exact rowOf_shapeCast _ _
theorem row_main_v40 : rowOf (W47 m ρ c (Proc.devRef .tc main_v40) : S1x50.Idx → EReal) = (W46 m ρ c (Proc.devRef .tc main_arg26) : S50.Idx → EReal) := by
  have e : (W47 m ρ c (Proc.devRef .tc main_v40) : S1x50.Idx → EReal)
      = shapeCast S1x50 (W46 m ρ c (Proc.devRef .tc main_arg26) : S50.Idx → EReal) shapeCasts_S50_S1x50 := by
    simp only [W47, hostOps6]
    after_results_simp
    rfl
  rw [e]
  exact rowOf_shapeCast _ _

end Cert.KernelIdeal.Val

end
-- ==== Proof.Prefix.lean ====
/-
  What the zero-padded copies of the first layer's arrays hold when the first region is entered.

  Before the first region the host pads each array with zeros up to a multiple of the block size.  Read through the
  stretches of host operations that precede the region, each padded buffer is the host's pad of one launch argument,
  and that pad is the specification's `padRows` / `padVec`: the first layer's weight and mask get zero rows up to
  4096, its five per-column vectors zero entries up to 4096.
-/
import proofs.«120771_j77927886619274_1_alg».proof.Proof.Gen.KernelIdeal.Frame
import proofs.«120771_j77927886619274_1_alg».proof.Proof.Spec
import proofs.«120771_j77927886619274_1_alg».proof.Proof.HostShapes
import Idealize.ShloMosaic.Lib.ValueIdx
import Idealize.ShloMosaic.Lib.StableHlo.Run

set_option maxRecDepth 16384

noncomputable section

namespace Cert.KernelIdeal.Val

open Cert.KernelIdeal Cert.KernelIdeal.Gen Idealize.ShloMosaic.StableHlo
open Idealize.ShloMosaic Idealize.ShloMosaic.TcCoe Idealize.ShloMosaic.ValueIdx Idealize.SL.Sem
open Idealize.ShloMosaic.Pipeline (Dat Cfg Window)
open Cert.MaskedMlp (padRows padCols padVec pad_rows_eq pad_cols_eq pad_vec_eq sitofp_constantI_zero)

variable (m : (ℓ : Loc nD τ sig) → Buf (Elt Ideal) ℓ) (ρ : Dev nD → PrngReg)

/-- The padding value every host pad uses: the integer zero converted to a real number. -/
local notation "zf" => (sitofp (F := Ideal) FTy.f32 (constantI S_ 32 0#32) : FVec Ideal S_ FTy.f32)

/-- Reads one buffer through the 36 stretches of host operations that run before the first region: a stretch that does
    not write the buffer leaves it as it was, the one that writes it gives its operation's value of the launch
    memory. -/
local macro "read_at36" : tactic => `(tactic| (
  simp only [W36, W35, W34, W33, W32, W31, W30, W29, W28, W27, W26, W25, W24, W23, W22, W21, W20, W19, W18, W17, W16, W15, W14, W13, W12, W11, W10, W9, W8, W7, W6, W5, W4, W3, W2, W1]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35]
  after_results_simp
  rfl))

/-- `main_v0` at the first region's entry: `%arg1` with zero rows appended up to 4096. -/
theorem at36_v0 (c : Dev nD) : W36 m ρ c (Proc.devRef .tc main_v0)
    = padRows 4096 (m ((c : Thread nD τ).loc main_arg1) : S4000x5000.Idx → EReal) := by
  refine Eq.trans ?_ (pad_rows_eq _ zf pads_S4000x5000_S4096x5000_0960_000 h_S_ (sitofp_constantI_zero _))
  read_at36

/-- `main_v1` at the first region's entry: `%arg3` with zero rows appended up to 4096. -/
theorem at36_v1 (c : Dev nD) : W36 m ρ c (Proc.devRef .tc main_v1)
    = padRows 4096 (m ((c : Thread nD τ).loc main_arg3) : S4000x5000.Idx → EReal) := by
  refine Eq.trans ?_ (pad_rows_eq _ zf pads_S4000x5000_S4096x5000_0960_000 h_S_ (sitofp_constantI_zero _))
  read_at36

/-- `main_v2` at the first region's entry: `%arg2` with zero entries appended up to 4096. -/
theorem at36_v2 (c : Dev nD) : W36 m ρ c (Proc.devRef .tc main_v2)
    = padVec 4096 (m ((c : Thread nD τ).loc main_arg2) : S4000.Idx → EReal) := by
  refine Eq.trans ?_ (pad_vec_eq _ zf pads_S4000_S4096_0960 h_S_ (sitofp_constantI_zero _))
  read_at36

/-- `main_v3` at the first region's entry: `%arg13` with zero entries appended up to 4096. -/
theorem at36_v3 (c : Dev nD) : W36 m ρ c (Proc.devRef .tc main_v3)
    = padVec 4096 (m ((c : Thread nD τ).loc main_arg13) : S4000.Idx → EReal) := by
  refine Eq.trans ?_ (pad_vec_eq _ zf pads_S4000_S4096_0960 h_S_ (sitofp_constantI_zero _))
  read_at36

/-- `main_v4` at the first region's entry: `%arg14` with zero entries appended up to 4096. -/
theorem at36_v4 (c : Dev nD) : W36 m ρ c (Proc.devRef .tc main_v4)
    = padVec 4096 (m ((c : Thread nD τ).loc main_arg14) : S4000.Idx → EReal) := by
  refine Eq.trans ?_ (pad_vec_eq _ zf pads_S4000_S4096_0960 h_S_ (sitofp_constantI_zero _))
  read_at36

/-- `main_v5` at the first region's entry: `%arg15` with zero entries appended up to 4096. -/
theorem at36_v5 (c : Dev nD) : W36 m ρ c (Proc.devRef .tc main_v5)
    = padVec 4096 (m ((c : Thread nD τ).loc main_arg15) : S4000.Idx → EReal) := by
  refine Eq.trans ?_ (pad_vec_eq _ zf pads_S4000_S4096_0960 h_S_ (sitofp_constantI_zero _))
  read_at36

/-- `main_v6` at the first region's entry: `%arg16` with zero entries appended up to 4096. -/
theorem at36_v6 (c : Dev nD) : W36 m ρ c (Proc.devRef .tc main_v6)
    = padVec 4096 (m ((c : Thread nD τ).loc main_arg16) : S4000.Idx → EReal) := by
  refine Eq.trans ?_ (pad_vec_eq _ zf pads_S4000_S4096_0960 h_S_ (sitofp_constantI_zero _))
  read_at36

end Cert.KernelIdeal.Val

end
-- ==== Proof.Prefix2.lean ====
/-
  What the zero-padded copies of the second and third layers' arrays hold when the first region is entered.

  The second layer's weight and mask get zero rows up to 2048 and then zero columns up to 4096 (two host pads, one after
  the other), its five per-column vectors zero entries up to 2048, and the third layer's weight and mask zero columns
  up to 2048.  Each padded buffer, read through the stretches of host operations that precede the first region, is the
  host's pad of a launch argument, and that pad is the specification's `padRows` / `padCols` / `padVec`.
-/
import proofs.«120771_j77927886619274_1_alg».proof.Proof.Gen.KernelIdeal.Frame
import proofs.«120771_j77927886619274_1_alg».proof.Proof.Spec
import proofs.«120771_j77927886619274_1_alg».proof.Proof.HostShapes
import Idealize.ShloMosaic.Lib.ValueIdx
import Idealize.ShloMosaic.Lib.StableHlo.Run

set_option maxRecDepth 16384

noncomputable section

namespace Cert.KernelIdeal.Val

open Cert.KernelIdeal Cert.KernelIdeal.Gen Idealize.ShloMosaic.StableHlo
open Idealize.ShloMosaic Idealize.ShloMosaic.TcCoe Idealize.ShloMosaic.ValueIdx Idealize.SL.Sem
open Idealize.ShloMosaic.Pipeline (Dat Cfg Window)
open Cert.MaskedMlp (padRows padCols padVec pad_rows_eq pad_cols_eq pad_vec_eq sitofp_constantI_zero)

variable (m : (ℓ : Loc nD τ sig) → Buf (Elt Ideal) ℓ) (ρ : Dev nD → PrngReg)

/-- The padding value every host pad uses: the integer zero converted to a real number. -/
local notation "zf" => (sitofp (F := Ideal) FTy.f32 (constantI S_ 32 0#32) : FVec Ideal S_ FTy.f32)

/-- Reads one buffer through the 36 stretches of host operations that run before the first region: a stretch that does
    not write the buffer leaves it as it was, the one that writes it gives its operation's value of the launch
    memory. -/
local macro "read_at36" : tactic => `(tactic| (
  simp only [W36, W35, W34, W33, W32, W31, W30, W29, W28, W27, W26, W25, W24, W23, W22, W21, W20, W19, W18, W17, W16, W15, W14, W13, W12, W11, W10, W9, W8, W7, W6, W5, W4, W3, W2, W1]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35]
  after_results_simp
  rfl))

/-- `main_v8` at the first region's entry: `%arg4` with zero rows appended up to 2048, then zero columns up to 4096. -/
theorem at36_v8 (c : Dev nD) : W36 m ρ c (Proc.devRef .tc main_v8)
    = padCols 4096 (padRows 2048 (m ((c : Thread nD τ).loc main_arg4) : S2000x4000.Idx → EReal)) := by
  refine Eq.trans ?_ ((pad_cols_eq _ zf pads_S2048x4000_S2048x4096_000_0960 h_S_ (sitofp_constantI_zero _)).trans
    (congrArg (padCols 4096) (pad_rows_eq _ zf pads_S2000x4000_S2048x4000_0480_000 h_S_ (sitofp_constantI_zero _))))
  read_at36

/-- `main_v10` at the first region's entry: `%arg6` with zero rows appended up to 2048, then zero columns up to 4096. -/
theorem at36_v10 (c : Dev nD) : W36 m ρ c (Proc.devRef .tc main_v10)
    = padCols 4096 (padRows 2048 (m ((c : Thread nD τ).loc main_arg6) : S2000x4000.Idx → EReal)) := by
  refine Eq.trans ?_ ((pad_cols_eq _ zf pads_S2048x4000_S2048x4096_000_0960 h_S_ (sitofp_constantI_zero _)).trans
    (congrArg (padCols 4096) (pad_rows_eq _ zf pads_S2000x4000_S2048x4000_0480_000 h_S_ (sitofp_constantI_zero _))))
  read_at36

/-- `main_v11` at the first region's entry: `%arg5` with zero entries appended up to 2048. -/
theorem at36_v11 (c : Dev nD) : W36 m ρ c (Proc.devRef .tc main_v11)
    = padVec 2048 (m ((c : Thread nD τ).loc main_arg5) : S2000.Idx → EReal) := by
  refine Eq.trans ?_ (pad_vec_eq _ zf pads_S2000_S2048_0480 h_S_ (sitofp_constantI_zero _))
  read_at36

/-- `main_v12` at the first region's entry: `%arg17` with zero entries appended up to 2048. -/
theorem at36_v12 (c : Dev nD) : W36 m ρ c (Proc.devRef .tc main_v12)
    = padVec 2048 (m ((c : Thread nD τ).loc main_arg17) : S2000.Idx → EReal) := by
  refine Eq.trans ?_ (pad_vec_eq _ zf pads_S2000_S2048_0480 h_S_ (sitofp_constantI_zero _))
  read_at36

/-- `main_v13` at the first region's entry: `%arg18` with zero entries appended up to 2048. -/
theorem at36_v13 (c : Dev nD) : W36 m ρ c (Proc.devRef .tc main_v13)
    = padVec 2048 (m ((c : Thread nD τ).loc main_arg18) : S2000.Idx → EReal) := by
  refine Eq.trans ?_ (pad_vec_eq _ zf pads_S2000_S2048_0480 h_S_ (sitofp_constantI_zero _))
  read_at36

/-- `main_v14` at the first region's entry: `%arg19` with zero entries appended up to 2048. -/
theorem at36_v14 (c : Dev nD) : W36 m ρ c (Proc.devRef .tc main_v14)
    = padVec 2048 (m ((c : Thread nD τ).loc main_arg19) : S2000.Idx → EReal) := by
  refine Eq.trans ?_ (pad_vec_eq _ zf pads_S2000_S2048_0480 h_S_ (sitofp_constantI_zero _))
  read_at36

/-- `main_v15` at the first region's entry: `%arg20` with zero entries appended up to 2048. -/
theorem at36_v15 (c : Dev nD) : W36 m ρ c (Proc.devRef .tc main_v15)
    = padVec 2048 (m ((c : Thread nD τ).loc main_arg20) : S2000.Idx → EReal) := by
  refine Eq.trans ?_ (pad_vec_eq _ zf pads_S2000_S2048_0480 h_S_ (sitofp_constantI_zero _))
  read_at36

/-- `main_v16` at the first region's entry: `%arg7` with zero columns appended up to 2048. -/
theorem at36_v16 (c : Dev nD) : W36 m ρ c (Proc.devRef .tc main_v16)
    = padCols 2048 (m ((c : Thread nD τ).loc main_arg7) : S1000x2000.Idx → EReal) := by
  refine Eq.trans ?_ (pad_cols_eq _ zf pads_S1000x2000_S1000x2048_000_0480 h_S_ (sitofp_constantI_zero _))
  read_at36

/-- `main_v17` at the first region's entry: `%arg9` with zero columns appended up to 2048. -/
theorem at36_v17 (c : Dev nD) : W36 m ρ c (Proc.devRef .tc main_v17)
    = padCols 2048 (m ((c : Thread nD τ).loc main_arg9) : S1000x2000.Idx → EReal) := by
  refine Eq.trans ?_ (pad_cols_eq _ zf pads_S1000x2000_S1000x2048_000_0480 h_S_ (sitofp_constantI_zero _))
  read_at36

end Cert.KernelIdeal.Val

end
-- ==== Proof.Chain2.lean ====
/-
  The regions' outputs in terms of the launch memory, one layer after another.

  Each region's output array is the specification's layer of the arrays the region was entered with (the region
  modules); those are the previous region's output, untouched in between, and parameters that hold either their
  launch contents or their zero-padded launch contents (the reads at the first region's entry).  Composing the
  seven regions gives the padded network of the launch memory at the result buffer.
-/
import proofs.«120771_j77927886619274_1_alg».proof.Proof.R0
import proofs.«120771_j77927886619274_1_alg».proof.Proof.R1
import proofs.«120771_j77927886619274_1_alg».proof.Proof.R2
import proofs.«120771_j77927886619274_1_alg».proof.Proof.R3
import proofs.«120771_j77927886619274_1_alg».proof.Proof.R4
import proofs.«120771_j77927886619274_1_alg».proof.Proof.R5
import proofs.«120771_j77927886619274_1_alg».proof.Proof.R6
import proofs.«120771_j77927886619274_1_alg».proof.Proof.Chain1
import proofs.«120771_j77927886619274_1_alg».proof.Proof.Prefix
import proofs.«120771_j77927886619274_1_alg».proof.Proof.Prefix2

set_option maxRecDepth 16384

noncomputable section

namespace Cert.KernelIdeal.Val

open Cert.KernelIdeal Cert.KernelIdeal.Gen Cert.MaskedMlp
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-- After region 0: the first layer's products, on 4096 columns. -/
theorem out0 : (W37 m ρ c (Proc.devRef .tc main_v18) : S8192x4096.Idx → EReal) = mdot (ar0 m c) (padRows 4096 (ar1 m c)) (padRows 4096 (ar3 m c)) := by
  refine (W37_arr m ρ c 3).trans ((final0 (V36 m ρ) c).trans ?_)
  show mdot (W36 m ρ c (Proc.devRef .tc main_arg0) : S8192x5000.Idx → EReal) (W36 m ρ c (Proc.devRef .tc main_v0) : S4096x5000.Idx → EReal) (W36 m ρ c (Proc.devRef .tc main_v1) : S4096x5000.Idx → EReal) = _
  rw [at36_arg0 m ρ c, at36_v0 m ρ c, at36_v1 m ρ c]

/-- After region 1: the first layer, on 4096 columns. -/
theorem out1 : (W39 m ρ c (Proc.devRef .tc main_v24) : S8192x4096.Idx → EReal) = norm (mdot (ar0 m c) (padRows 4096 (ar1 m c)) (padRows 4096 (ar3 m c)))
      (padVec 4096 (ar2 m c)) (padVec 4096 (ar13 m c)) (padVec 4096 (ar14 m c)) (padVec 4096 (ar15 m c)) (padVec 4096 (ar16 m c)) := by
  refine (W39_arr m ρ c 6).trans ((final1 (V38 m ρ) c).trans ?_)
  show norm (W38 m ρ c (Proc.devRef .tc main_v18) : S8192x4096.Idx → EReal) (rowOf (W38 m ρ c (Proc.devRef .tc main_v19) : S1x4096.Idx → EReal)) (rowOf (W38 m ρ c (Proc.devRef .tc main_v20) : S1x4096.Idx → EReal))
    (rowOf (W38 m ρ c (Proc.devRef .tc main_v21) : S1x4096.Idx → EReal)) (rowOf (W38 m ρ c (Proc.devRef .tc main_v22) : S1x4096.Idx → EReal)) (rowOf (W38 m ρ c (Proc.devRef .tc main_v23) : S1x4096.Idx → EReal)) = _
  rw [row_main_v19 m ρ c, row_main_v20 m ρ c, row_main_v21 m ρ c, row_main_v22 m ρ c, row_main_v23 m ρ c,
    skip_hostOps1 m ρ c main_v18 (by decide), out0 m ρ c,
    early37 m ρ c main_v2 (by decide), early37 m ρ c main_v3 (by decide), early37 m ρ c main_v4 (by decide),
    early37 m ρ c main_v5 (by decide), early37 m ρ c main_v6 (by decide),
    at36_v2 m ρ c, at36_v3 m ρ c, at36_v4 m ρ c, at36_v5 m ρ c, at36_v6 m ρ c]

/-- After region 2: the second layer's products, on 2048 columns. -/
theorem out2 : (W40 m ρ c (Proc.devRef .tc main_v25) : S8192x2048.Idx → EReal) = mdot (norm (mdot (ar0 m c) (padRows 4096 (ar1 m c)) (padRows 4096 (ar3 m c)))
      (padVec 4096 (ar2 m c)) (padVec 4096 (ar13 m c)) (padVec 4096 (ar14 m c)) (padVec 4096 (ar15 m c)) (padVec 4096 (ar16 m c)))
      (padCols 4096 (padRows 2048 (ar4 m c))) (padCols 4096 (padRows 2048 (ar6 m c))) := by
  refine (W40_arr m ρ c 3).trans ((final2 (V39 m ρ) c).trans ?_)
  show mdot (W39 m ρ c (Proc.devRef .tc main_v24) : S8192x4096.Idx → EReal) (W39 m ρ c (Proc.devRef .tc main_v8) : S2048x4096.Idx → EReal) (W39 m ρ c (Proc.devRef .tc main_v10) : S2048x4096.Idx → EReal) = _
  rw [out1 m ρ c, early39 m ρ c main_v8 (by decide), early39 m ρ c main_v10 (by decide), at36_v8 m ρ c, at36_v10 m ρ c]

/-- After region 3: the second layer, on 2048 columns. -/
theorem out3 : (W42 m ρ c (Proc.devRef .tc main_v31) : S8192x2048.Idx → EReal) = norm (mdot (norm (mdot (ar0 m c) (padRows 4096 (ar1 m c)) (padRows 4096 (ar3 m c)))
      (padVec 4096 (ar2 m c)) (padVec 4096 (ar13 m c)) (padVec 4096 (ar14 m c)) (padVec 4096 (ar15 m c)) (padVec 4096 (ar16 m c)))
      (padCols 4096 (padRows 2048 (ar4 m c))) (padCols 4096 (padRows 2048 (ar6 m c))))
      (padVec 2048 (ar5 m c)) (padVec 2048 (ar17 m c)) (padVec 2048 (ar18 m c)) (padVec 2048 (ar19 m c)) (padVec 2048 (ar20 m c)) := by
  refine (W42_arr m ρ c 6).trans ((final3 (V41 m ρ) c).trans ?_)
  show norm (W41 m ρ c (Proc.devRef .tc main_v25) : S8192x2048.Idx → EReal) (rowOf (W41 m ρ c (Proc.devRef .tc main_v26) : S1x2048.Idx → EReal)) (rowOf (W41 m ρ c (Proc.devRef .tc main_v27) : S1x2048.Idx → EReal))
    (rowOf (W41 m ρ c (Proc.devRef .tc main_v28) : S1x2048.Idx → EReal)) (rowOf (W41 m ρ c (Proc.devRef .tc main_v29) : S1x2048.Idx → EReal)) (rowOf (W41 m ρ c (Proc.devRef .tc main_v30) : S1x2048.Idx → EReal)) = _
  rw [row_main_v26 m ρ c, row_main_v27 m ρ c, row_main_v28 m ρ c, row_main_v29 m ρ c, row_main_v30 m ρ c,
    skip_hostOps3 m ρ c main_v25 (by decide), out2 m ρ c,
    early40 m ρ c main_v11 (by decide), early40 m ρ c main_v12 (by decide), early40 m ρ c main_v13 (by decide),
    early40 m ρ c main_v14 (by decide), early40 m ρ c main_v15 (by decide),
    at36_v11 m ρ c, at36_v12 m ρ c, at36_v13 m ρ c, at36_v14 m ρ c, at36_v15 m ρ c]

/-- After region 4: the third layer. -/
theorem out4 : (W44 m ρ c (Proc.devRef .tc main_v37) : S8192x1000.Idx → EReal) = norm (mdot (norm (mdot (norm (mdot (ar0 m c) (padRows 4096 (ar1 m c)) (padRows 4096 (ar3 m c)))
      (padVec 4096 (ar2 m c)) (padVec 4096 (ar13 m c)) (padVec 4096 (ar14 m c)) (padVec 4096 (ar15 m c)) (padVec 4096 (ar16 m c)))
      (padCols 4096 (padRows 2048 (ar4 m c))) (padCols 4096 (padRows 2048 (ar6 m c))))
      (padVec 2048 (ar5 m c)) (padVec 2048 (ar17 m c)) (padVec 2048 (ar18 m c)) (padVec 2048 (ar19 m c)) (padVec 2048 (ar20 m c)))
      (padCols 2048 (ar7 m c)) (padCols 2048 (ar9 m c))) (ar8 m c) (ar21 m c) (ar22 m c) (ar23 m c) (ar24 m c) := by
  refine (W44_arr m ρ c 8).trans ((final4 (V43 m ρ) c).trans ?_)
  show norm (mdot (W43 m ρ c (Proc.devRef .tc main_v31) : S8192x2048.Idx → EReal) (W43 m ρ c (Proc.devRef .tc main_v16) : S1000x2048.Idx → EReal) (W43 m ρ c (Proc.devRef .tc main_v17) : S1000x2048.Idx → EReal))
    (rowOf (W43 m ρ c (Proc.devRef .tc main_v32) : S1x1000.Idx → EReal)) (rowOf (W43 m ρ c (Proc.devRef .tc main_v33) : S1x1000.Idx → EReal)) (rowOf (W43 m ρ c (Proc.devRef .tc main_v34) : S1x1000.Idx → EReal))
    (rowOf (W43 m ρ c (Proc.devRef .tc main_v35) : S1x1000.Idx → EReal)) (rowOf (W43 m ρ c (Proc.devRef .tc main_v36) : S1x1000.Idx → EReal)) = _
  rw [row_main_v32 m ρ c, row_main_v33 m ρ c, row_main_v34 m ρ c, row_main_v35 m ρ c, row_main_v36 m ρ c,
    skip_hostOps4 m ρ c main_v31 (by decide), out3 m ρ c,
    early43 m ρ c main_v16 (by decide), early43 m ρ c main_v17 (by decide), at36_v16 m ρ c, at36_v17 m ρ c,
    early42 m ρ c main_arg8 (by decide), early42 m ρ c main_arg21 (by decide), early42 m ρ c main_arg22 (by decide),
    early42 m ρ c main_arg23 (by decide), early42 m ρ c main_arg24 (by decide),
    at36_arg8 m ρ c, at36_arg21 m ρ c, at36_arg22 m ρ c, at36_arg23 m ρ c, at36_arg24 m ρ c]

/-- After region 5: the fourth layer. -/
theorem out5 : (W46 m ρ c (Proc.devRef .tc main_v39) : S8192x200.Idx → EReal) = biasRelu (mdot (norm (mdot (norm (mdot (norm (mdot (ar0 m c) (padRows 4096 (ar1 m c)) (padRows 4096 (ar3 m c)))
      (padVec 4096 (ar2 m c)) (padVec 4096 (ar13 m c)) (padVec 4096 (ar14 m c)) (padVec 4096 (ar15 m c)) (padVec 4096 (ar16 m c)))
      (padCols 4096 (padRows 2048 (ar4 m c))) (padCols 4096 (padRows 2048 (ar6 m c))))
      (padVec 2048 (ar5 m c)) (padVec 2048 (ar17 m c)) (padVec 2048 (ar18 m c)) (padVec 2048 (ar19 m c)) (padVec 2048 (ar20 m c)))
      (padCols 2048 (ar7 m c)) (padCols 2048 (ar9 m c))) (ar8 m c) (ar21 m c) (ar22 m c) (ar23 m c) (ar24 m c))
      (ar10 m c) (ar12 m c)) (ar11 m c) := by
  refine (W46_arr m ρ c 4).trans ((final5 (V45 m ρ) c).trans ?_)
  show biasRelu (mdot (W45 m ρ c (Proc.devRef .tc main_v37) : S8192x1000.Idx → EReal) (W45 m ρ c (Proc.devRef .tc main_arg10) : S200x1000.Idx → EReal) (W45 m ρ c (Proc.devRef .tc main_arg12) : S200x1000.Idx → EReal))
    (rowOf (W45 m ρ c (Proc.devRef .tc main_v38) : S1x200.Idx → EReal)) = _
  rw [row_main_v38 m ρ c, skip_hostOps5 m ρ c main_v37 (by decide), out4 m ρ c,
    early45 m ρ c main_arg10 (by decide), early45 m ρ c main_arg12 (by decide), early44 m ρ c main_arg11 (by decide),
    at36_arg10 m ρ c, at36_arg12 m ρ c, at36_arg11 m ρ c]

/-- After region 6: the result buffer holds the padded network of the launch memory. -/
theorem out6 : (W48 m ρ c (Proc.devRef .tc main_v41) : S8192x50.Idx → EReal) = lin (biasRelu (mdot (norm (mdot (norm (mdot (norm (mdot (ar0 m c) (padRows 4096 (ar1 m c)) (padRows 4096 (ar3 m c)))
      (padVec 4096 (ar2 m c)) (padVec 4096 (ar13 m c)) (padVec 4096 (ar14 m c)) (padVec 4096 (ar15 m c)) (padVec 4096 (ar16 m c)))
      (padCols 4096 (padRows 2048 (ar4 m c))) (padCols 4096 (padRows 2048 (ar6 m c))))
      (padVec 2048 (ar5 m c)) (padVec 2048 (ar17 m c)) (padVec 2048 (ar18 m c)) (padVec 2048 (ar19 m c)) (padVec 2048 (ar20 m c)))
      (padCols 2048 (ar7 m c)) (padCols 2048 (ar9 m c))) (ar8 m c) (ar21 m c) (ar22 m c) (ar23 m c) (ar24 m c))
      (ar10 m c) (ar12 m c)) (ar11 m c))
      (ar25 m c) (ar26 m c) := by
  refine (W48_arr m ρ c 3).trans ((final6 (V47 m ρ) c).trans ?_)
  show lin (W47 m ρ c (Proc.devRef .tc main_v39) : S8192x200.Idx → EReal) (W47 m ρ c (Proc.devRef .tc main_arg25) : S50x200.Idx → EReal) (rowOf (W47 m ρ c (Proc.devRef .tc main_v40) : S1x50.Idx → EReal)) = _
  rw [row_main_v40 m ρ c, skip_hostOps6 m ρ c main_v39 (by decide), out5 m ρ c,
    early47 m ρ c main_arg25 (by decide), early46 m ρ c main_arg26 (by decide), at36_arg25 m ρ c, at36_arg26 m ρ c]

end Cert.KernelIdeal.Val

end
-- ==== Proof.SpecPad.lean ====
/-
  The network on arrays widened with zeros computes the same values as the network itself.

  Three facts about one layer carry the whole argument.  Extra zero rows in a masked weight give extra zero columns in
  the product (every term of such a column's sum is `x · (0 · 0)`).  A zero column with zero bias, scale, shift, mean and
  variance stays zero through the normalisation and the rectifier (`0 · y = 0` for every extended real `y`, the infinite
  ones included, so no finiteness is needed).  And a contraction over a widened axis whose extra terms are
  `0 · (0 · 0)` is the contraction over the original axis.
-/
import proofs.«120771_j77927886619274_1_alg».proof.Proof.Spec

noncomputable section

namespace Cert.MaskedMlp

open Idealize.ShloMosaic Idealize.ShloMosaic.ValueIdx

variable {m k n : ℕ}

/-- A sum over `Fin k'` whose terms vanish from `k` on is the sum of its first `k` terms. -/
theorem sum_fin_castLE {k k' : ℕ} (h : k ≤ k') (f : Fin k' → EReal)
    (hf : ∀ c : Fin k', k ≤ c.val → f c = 0) :
    ∑ c : Fin k', f c = ∑ c : Fin k, f (Fin.castLE h c) := by
  have hmap : ∑ c : Fin k, f (Fin.castLE h c) = ∑ c ∈ Finset.univ.map (Fin.castLEEmb h), f c := by
    rw [Finset.sum_map]; rfl
  rw [hmap]
  symm
  apply Finset.sum_subset (Finset.subset_univ _)
  intro c _ hc
  apply hf
  by_contra hlt
  apply hc
  rw [Finset.mem_map]
  exact ⟨⟨c.val, by omega⟩, Finset.mem_univ _, Fin.ext rfl⟩

/-- Extra zero rows in the masked weight: the product gets extra zero columns. -/
theorem mdot_padRows (n' : ℕ) (X : Mat m k) (W M : Mat n k) :
    mdot X (padRows n' W) (padRows n' M) = padCols n' (mdot X W M) := by
  funext i
  by_cases h : (i 1).val < n
  · show (∑ c : Fin k, X (ix2 (i 0) c) * ((if h : (i 1).val < n then W (ix2 ⟨(i 1).val, h⟩ c) else 0)
        * (if h : (i 1).val < n then M (ix2 ⟨(i 1).val, h⟩ c) else 0)))
      = if h : (i 1).val < n then mdot X W M (ix2 (i 0) ⟨(i 1).val, h⟩) else 0
    simp only [dif_pos h]
    rfl
  · show (∑ c : Fin k, X (ix2 (i 0) c) * ((if h : (i 1).val < n then W (ix2 ⟨(i 1).val, h⟩ c) else 0)
        * (if h : (i 1).val < n then M (ix2 ⟨(i 1).val, h⟩ c) else 0)))
      = if h : (i 1).val < n then mdot X W M (ix2 (i 0) ⟨(i 1).val, h⟩) else 0
    simp only [dif_neg h, mul_zero, Finset.sum_const_zero]

/-- A zero column with zero bias, scale, shift, mean and variance stays zero through normalisation and rectifier. -/
theorem norm_padCols (n' : ℕ) (H : Mat m n) (b g be mu var : Vct n) :
    norm (padCols n' H) (padVec n' b) (padVec n' g) (padVec n' be) (padVec n' mu) (padVec n' var)
      = padCols n' (norm H b g be mu var) := by
  funext i
  by_cases h : (i 1).val < n
  · show max ((if h : (i 1).val < n then g (ix1 ⟨(i 1).val, h⟩) else 0)
        * ((if h : (i 1).val < n then H (ix2 (i 0) ⟨(i 1).val, h⟩) else 0)
          + (if h : (i 1).val < n then b (ix1 ⟨(i 1).val, h⟩) else 0)
          - (if h : (i 1).val < n then mu (ix1 ⟨(i 1).val, h⟩) else 0))
        * Ideal.rsqrt ((if h : (i 1).val < n then var (ix1 ⟨(i 1).val, h⟩) else 0) + eps)
        + (if h : (i 1).val < n then be (ix1 ⟨(i 1).val, h⟩) else 0)) 0
      = if h : (i 1).val < n then norm H b g be mu var (ix2 (i 0) ⟨(i 1).val, h⟩) else 0
    simp only [dif_pos h]
    rfl
  · show max ((if h : (i 1).val < n then g (ix1 ⟨(i 1).val, h⟩) else 0)
        * ((if h : (i 1).val < n then H (ix2 (i 0) ⟨(i 1).val, h⟩) else 0)
          + (if h : (i 1).val < n then b (ix1 ⟨(i 1).val, h⟩) else 0)
          - (if h : (i 1).val < n then mu (ix1 ⟨(i 1).val, h⟩) else 0))
        * Ideal.rsqrt ((if h : (i 1).val < n then var (ix1 ⟨(i 1).val, h⟩) else 0) + eps)
        + (if h : (i 1).val < n then be (ix1 ⟨(i 1).val, h⟩) else 0)) 0
      = if h : (i 1).val < n then norm H b g be mu var (ix2 (i 0) ⟨(i 1).val, h⟩) else 0
    simp only [dif_neg h, zero_mul, zero_add, max_self]

/-- Extra zero columns on both sides of a contraction contribute `0 · (0 · 0)` each: the sum is unchanged. -/
theorem mdot_padCols {k' : ℕ} (h : k ≤ k') (X : Mat m k) (W M : Mat n k) :
    mdot (padCols k' X) (padCols k' W) (padCols k' M) = mdot X W M := by
  funext i
  show (∑ c : Fin k', (if h : c.val < k then X (ix2 (i 0) ⟨c.val, h⟩) else 0)
        * ((if h : c.val < k then W (ix2 (i 1) ⟨c.val, h⟩) else 0)
          * (if h : c.val < k then M (ix2 (i 1) ⟨c.val, h⟩) else 0)))
      = ∑ c : Fin k, X (ix2 (i 0) c) * (W (ix2 (i 1) c) * M (ix2 (i 1) c))
  rw [sum_fin_castLE h]
  · apply Finset.sum_congr rfl
    intro c _
    have hc : (Fin.castLE h c).val < k := c.isLt
    simp only [dif_pos hc]
    rfl
  · intro c hc
    have hc' : ¬ c.val < k := by omega
    simp only [dif_neg hc', mul_zero]

variable {d0 d1 d2 d3 d4 d5 : ℕ}

/-- The widened network is the network. -/
theorem paddedNet_eq_net {p1 p2 : ℕ} (h1 : d1 ≤ p1) (h2 : d2 ≤ p2) (x : Mat m d0)
    (w1 m1 : Mat d1 d0) (b1 g1 be1 mu1 var1 : Vct d1)
    (w2 m2 : Mat d2 d1) (b2 g2 be2 mu2 var2 : Vct d2)
    (w3 m3 : Mat d3 d2) (b3 g3 be3 mu3 var3 : Vct d3)
    (w4 m4 : Mat d4 d3) (b4 : Vct d4) (wc : Mat d5 d4) (bc : Vct d5) :
    paddedNet p1 p2 x w1 m1 b1 g1 be1 mu1 var1 w2 m2 b2 g2 be2 mu2 var2 w3 m3 b3 g3 be3 mu3 var3 w4 m4 b4 wc bc
      = net x w1 m1 b1 g1 be1 mu1 var1 w2 m2 b2 g2 be2 mu2 var2 w3 m3 b3 g3 be3 mu3 var3 w4 m4 b4 wc bc := by
  unfold paddedNet net
  rw [mdot_padRows p1, norm_padCols p1, mdot_padCols h1, mdot_padRows p2, norm_padCols p2, mdot_padCols h2]

end Cert.MaskedMlp

end
-- ==== Proof.RefValue.lean ====
/-
  The reference program computes the masked multi-layer perceptron of the specification.

  The generated module `Read` names the value every operation of the reference writes (`val_main_vN`) and reads it
  at an index from the operands (`val_main_vN_apply`).  Here those readings are composed, one layer at a time.
  Each layer multiplies a weight by its mask entry by entry, transposes the product and contracts the layer's input
  against it, so entry `(p, q)` of the contraction is the sum over `k` of `X (p, k) · (W (q, k) · M (q, k))`: that is
  `mdot`.  A per-column vector is broadcast first to one row and then to all rows, so at `(p, q)` it is read at `q`.
  The first three layers then compute `max (γ · (h + b − μ) · rsqrt (σ² + ε) + β) 0` (`norm`; the rectifier's zero is
  the binary word zero, the offset `ε` is the same word in the program and in the specification and is never
  evaluated); the fourth adds a bias and rectifies (`biasRelu`); the head contracts against the transposed head
  weight and adds a bias (`lin`).  The composition of the five is `net`.
-/
import proofs.«120771_j77927886619274_1_alg».proof.Proof.Gen.ReferenceIdeal.Read
import proofs.«120771_j77927886619274_1_alg».proof.Proof.Spec

namespace Cert.ReferenceIdeal.RefValue

open Cert.ReferenceIdeal Cert.ReferenceIdeal.Read Idealize.ShloMosaic Idealize.ShloMosaic.ValueIdx

variable (x0 : (⟨S8192x5000, .f32⟩ : BufTy).Contents (Elt Ideal))
  (x1 : (⟨S4000x5000, .f32⟩ : BufTy).Contents (Elt Ideal)) (x2 : (⟨S4000, .f32⟩ : BufTy).Contents (Elt Ideal)) (x3 : (⟨S4000x5000, .f32⟩ : BufTy).Contents (Elt Ideal))
  (x4 : (⟨S2000x4000, .f32⟩ : BufTy).Contents (Elt Ideal)) (x5 : (⟨S2000, .f32⟩ : BufTy).Contents (Elt Ideal)) (x6 : (⟨S2000x4000, .f32⟩ : BufTy).Contents (Elt Ideal))
  (x7 : (⟨S1000x2000, .f32⟩ : BufTy).Contents (Elt Ideal)) (x8 : (⟨S1000, .f32⟩ : BufTy).Contents (Elt Ideal)) (x9 : (⟨S1000x2000, .f32⟩ : BufTy).Contents (Elt Ideal))
  (x10 : (⟨S200x1000, .f32⟩ : BufTy).Contents (Elt Ideal)) (x11 : (⟨S200, .f32⟩ : BufTy).Contents (Elt Ideal)) (x12 : (⟨S200x1000, .f32⟩ : BufTy).Contents (Elt Ideal))
  (x13 x14 x15 x16 : (⟨S4000, .f32⟩ : BufTy).Contents (Elt Ideal)) (x17 x18 x19 x20 : (⟨S2000, .f32⟩ : BufTy).Contents (Elt Ideal)) (x21 x22 x23 x24 : (⟨S1000, .f32⟩ : BufTy).Contents (Elt Ideal))
  (x25 : (⟨S50x200, .f32⟩ : BufTy).Contents (Elt Ideal)) (x26 : (⟨S50, .f32⟩ : BufTy).Contents (Elt Ideal))

/-- The first layer: the rectified, normalised, masked product of the input with the first weight. -/
theorem layer1 :
    val_main_v21 (F := Ideal) x0 x1 x2 x3 x13 x14 x15 x16 = Cert.MaskedMlp.norm (Cert.MaskedMlp.mdot x0 x1 x3) x2 x13 x14 x15 x16 := by
  funext i
  obtain ⟨p, q, rfl⟩ : ∃ (p : Fin 8192) (q : Fin 4000), i = ix2 p q := ⟨i 0, i 1, eq_ix2 i⟩
  have ebias : idx_main_v3 (idx_main_v4 (ix2 p q)) = ix1 q := funext fun a => Fin.ext (by match a with | ⟨0, _⟩ => rfl)
  have emu : idx_main_v6 (idx_main_v7 (ix2 p q)) = ix1 q := funext fun a => Fin.ext (by match a with | ⟨0, _⟩ => rfl)
  have eg : idx_main_v9 (idx_main_v10 (ix2 p q)) = ix1 q := funext fun a => Fin.ext (by match a with | ⟨0, _⟩ => rfl)
  have evar : idx_main_v15 (idx_main_v16 (ix2 p q)) = ix1 q := funext fun a => Fin.ext (by match a with | ⟨0, _⟩ => rfl)
  have ebe : idx_main_v18 (idx_main_v19 (ix2 p q)) = ix1 q := funext fun a => Fin.ext (by match a with | ⟨0, _⟩ => rfl)
  have el : ∀ k : Fin 5000, lidx_main_v2 (ix2 p q) k = ix2 p k := fun k => funext fun a => Fin.ext (by match a with | ⟨0, _⟩ => rfl | ⟨1, _⟩ => rfl)
  have er : ∀ k : Fin 5000, idx_main_v1 (ridx_main_v2 (ix2 p q) k) = ix2 q k := fun k => funext fun a => Fin.ext (by match a with | ⟨0, _⟩ => rfl | ⟨1, _⟩ => rfl)
  simp only [val_main_v21_apply, val_main_v20_apply, val_main_call0_v0_apply, val_main_call0_cst_apply, val_main_v19_apply, val_main_v18_apply, val_main_v17_apply, val_main_v16_apply, val_main_v15_apply, val_main_v14_apply, val_main_v13_apply, val_main_v12_apply, val_main_cst_apply, val_main_v11_apply, val_main_v10_apply, val_main_v9_apply, val_main_v8_apply, val_main_v7_apply, val_main_v6_apply, val_main_v5_apply, val_main_v4_apply, val_main_v3_apply, val_main_v2_apply, val_main_v1_apply, val_main_v0_apply,
    ebias, emu, eg, evar, ebe, el, er, Ideal.mulf_def, Ideal.addf_def, Ideal.subf_def, Ideal.maximumf_def, Ideal.hostUnary_rsqrt_def, Ideal.ofBits_def, Ideal.ofBits_zero_f32]
  rfl

/-- The second layer, on the first layer's result. -/
theorem layer2 :
    val_main_v43 (F := Ideal) x0 x1 x2 x3 x4 x5 x6 x13 x14 x15 x16 x17 x18 x19 x20 = Cert.MaskedMlp.norm (Cert.MaskedMlp.mdot (val_main_v21 (F := Ideal) x0 x1 x2 x3 x13 x14 x15 x16) x4 x6) x5 x17 x18 x19 x20 := by
  funext i
  obtain ⟨p, q, rfl⟩ : ∃ (p : Fin 8192) (q : Fin 2000), i = ix2 p q := ⟨i 0, i 1, eq_ix2 i⟩
  have ebias : idx_main_v25 (idx_main_v26 (ix2 p q)) = ix1 q := funext fun a => Fin.ext (by match a with | ⟨0, _⟩ => rfl)
  have emu : idx_main_v28 (idx_main_v29 (ix2 p q)) = ix1 q := funext fun a => Fin.ext (by match a with | ⟨0, _⟩ => rfl)
  have eg : idx_main_v31 (idx_main_v32 (ix2 p q)) = ix1 q := funext fun a => Fin.ext (by match a with | ⟨0, _⟩ => rfl)
  have evar : idx_main_v37 (idx_main_v38 (ix2 p q)) = ix1 q := funext fun a => Fin.ext (by match a with | ⟨0, _⟩ => rfl)
  have ebe : idx_main_v40 (idx_main_v41 (ix2 p q)) = ix1 q := funext fun a => Fin.ext (by match a with | ⟨0, _⟩ => rfl)
  have el : ∀ k : Fin 4000, lidx_main_v24 (ix2 p q) k = ix2 p k := fun k => funext fun a => Fin.ext (by match a with | ⟨0, _⟩ => rfl | ⟨1, _⟩ => rfl)
  have er : ∀ k : Fin 4000, idx_main_v23 (ridx_main_v24 (ix2 p q) k) = ix2 q k := fun k => funext fun a => Fin.ext (by match a with | ⟨0, _⟩ => rfl | ⟨1, _⟩ => rfl)
  simp only [val_main_v43_apply, val_main_v42_apply, val_main_call1_v0_apply, val_main_call1_cst_apply, val_main_v41_apply, val_main_v40_apply, val_main_v39_apply, val_main_v38_apply, val_main_v37_apply, val_main_v36_apply, val_main_v35_apply, val_main_v34_apply, val_main_cst_0_apply, val_main_v33_apply, val_main_v32_apply, val_main_v31_apply, val_main_v30_apply, val_main_v29_apply, val_main_v28_apply, val_main_v27_apply, val_main_v26_apply, val_main_v25_apply, val_main_v24_apply, val_main_v23_apply, val_main_v22_apply,
    ebias, emu, eg, evar, ebe, el, er, Ideal.mulf_def, Ideal.addf_def, Ideal.subf_def, Ideal.maximumf_def, Ideal.hostUnary_rsqrt_def, Ideal.ofBits_def, Ideal.ofBits_zero_f32]
  rfl

/-- The third layer, on the second layer's result. -/
theorem layer3 :
    val_main_v65 (F := Ideal) x0 x1 x2 x3 x4 x5 x6 x7 x8 x9 x13 x14 x15 x16 x17 x18 x19 x20 x21 x22 x23 x24 = Cert.MaskedMlp.norm (Cert.MaskedMlp.mdot (val_main_v43 (F := Ideal) x0 x1 x2 x3 x4 x5 x6 x13 x14 x15 x16 x17 x18 x19 x20) x7 x9) x8 x21 x22 x23 x24 := by
  funext i
  obtain ⟨p, q, rfl⟩ : ∃ (p : Fin 8192) (q : Fin 1000), i = ix2 p q := ⟨i 0, i 1, eq_ix2 i⟩
  have ebias : idx_main_v47 (idx_main_v48 (ix2 p q)) = ix1 q := funext fun a => Fin.ext (by match a with | ⟨0, _⟩ => rfl)
  have emu : idx_main_v50 (idx_main_v51 (ix2 p q)) = ix1 q := funext fun a => Fin.ext (by match a with | ⟨0, _⟩ => rfl)
  have eg : idx_main_v53 (idx_main_v54 (ix2 p q)) = ix1 q := funext fun a => Fin.ext (by match a with | ⟨0, _⟩ => rfl)
  have evar : idx_main_v59 (idx_main_v60 (ix2 p q)) = ix1 q := funext fun a => Fin.ext (by match a with | ⟨0, _⟩ => rfl)
  have ebe : idx_main_v62 (idx_main_v63 (ix2 p q)) = ix1 q := funext fun a => Fin.ext (by match a with | ⟨0, _⟩ => rfl)
  have el : ∀ k : Fin 2000, lidx_main_v46 (ix2 p q) k = ix2 p k := fun k => funext fun a => Fin.ext (by match a with | ⟨0, _⟩ => rfl | ⟨1, _⟩ => rfl)
  have er : ∀ k : Fin 2000, idx_main_v45 (ridx_main_v46 (ix2 p q) k) = ix2 q k := fun k => funext fun a => Fin.ext (by match a with | ⟨0, _⟩ => rfl | ⟨1, _⟩ => rfl)
  simp only [val_main_v65_apply, val_main_v64_apply, val_main_call2_v0_apply, val_main_call2_cst_apply, val_main_v63_apply, val_main_v62_apply, val_main_v61_apply, val_main_v60_apply, val_main_v59_apply, val_main_v58_apply, val_main_v57_apply, val_main_v56_apply, val_main_cst_1_apply, val_main_v55_apply, val_main_v54_apply, val_main_v53_apply, val_main_v52_apply, val_main_v51_apply, val_main_v50_apply, val_main_v49_apply, val_main_v48_apply, val_main_v47_apply, val_main_v46_apply, val_main_v45_apply, val_main_v44_apply,
    ebias, emu, eg, evar, ebe, el, er, Ideal.mulf_def, Ideal.addf_def, Ideal.subf_def, Ideal.maximumf_def, Ideal.hostUnary_rsqrt_def, Ideal.ofBits_def, Ideal.ofBits_zero_f32]
  rfl

/-- The fourth layer, on the third layer's result: masked product, bias, rectifier. -/
theorem layer4 :
    val_main_v72 (F := Ideal) x0 x1 x2 x3 x4 x5 x6 x7 x8 x9 x10 x11 x12 x13 x14 x15 x16 x17 x18 x19 x20 x21 x22 x23 x24 = Cert.MaskedMlp.biasRelu (Cert.MaskedMlp.mdot (val_main_v65 (F := Ideal) x0 x1 x2 x3 x4 x5 x6 x7 x8 x9 x13 x14 x15 x16 x17 x18 x19 x20 x21 x22 x23 x24) x10 x12) x11 := by
  funext i
  obtain ⟨p, q, rfl⟩ : ∃ (p : Fin 8192) (q : Fin 200), i = ix2 p q := ⟨i 0, i 1, eq_ix2 i⟩
  have ebias : idx_main_v69 (idx_main_v70 (ix2 p q)) = ix1 q := funext fun a => Fin.ext (by match a with | ⟨0, _⟩ => rfl)
  have el : ∀ k : Fin 1000, lidx_main_v68 (ix2 p q) k = ix2 p k := fun k => funext fun a => Fin.ext (by match a with | ⟨0, _⟩ => rfl | ⟨1, _⟩ => rfl)
  have er : ∀ k : Fin 1000, idx_main_v67 (ridx_main_v68 (ix2 p q) k) = ix2 q k := fun k => funext fun a => Fin.ext (by match a with | ⟨0, _⟩ => rfl | ⟨1, _⟩ => rfl)
  simp only [val_main_v72_apply, val_main_v71_apply, val_main_call3_v0_apply, val_main_call3_cst_apply, val_main_v70_apply, val_main_v69_apply, val_main_v68_apply, val_main_v67_apply, val_main_v66_apply,
    ebias, el, er, Ideal.mulf_def, Ideal.addf_def, Ideal.maximumf_def, Ideal.ofBits_def, Ideal.ofBits_zero_f32]
  rfl

/-- The head, on the fourth layer's result: the product with the transposed head weight, plus the bias. -/
theorem head :
    val_main_v77 (F := Ideal) x0 x1 x2 x3 x4 x5 x6 x7 x8 x9 x10 x11 x12 x13 x14 x15 x16 x17 x18 x19 x20 x21 x22 x23 x24 x25 x26 = Cert.MaskedMlp.lin (val_main_v72 (F := Ideal) x0 x1 x2 x3 x4 x5 x6 x7 x8 x9 x10 x11 x12 x13 x14 x15 x16 x17 x18 x19 x20 x21 x22 x23 x24) x25 x26 := by
  funext i
  obtain ⟨p, q, rfl⟩ : ∃ (p : Fin 8192) (q : Fin 50), i = ix2 p q := ⟨i 0, i 1, eq_ix2 i⟩
  have ebias : idx_main_v75 (idx_main_v76 (ix2 p q)) = ix1 q := funext fun a => Fin.ext (by match a with | ⟨0, _⟩ => rfl)
  have el : ∀ k : Fin 200, lidx_main_v74 (ix2 p q) k = ix2 p k := fun k => funext fun a => Fin.ext (by match a with | ⟨0, _⟩ => rfl | ⟨1, _⟩ => rfl)
  have er : ∀ k : Fin 200, idx_main_v73 (ridx_main_v74 (ix2 p q) k) = ix2 q k := fun k => funext fun a => Fin.ext (by match a with | ⟨0, _⟩ => rfl | ⟨1, _⟩ => rfl)
  simp only [val_main_v77_apply, val_main_v76_apply, val_main_v75_apply, val_main_v74_apply, val_main_v73_apply,
    ebias, el, er, Ideal.addf_def]
  rfl

/-- The reference program's result is the network of the specification. -/
theorem ref_eq :
    val_main_v77 (F := Ideal) x0 x1 x2 x3 x4 x5 x6 x7 x8 x9 x10 x11 x12 x13 x14 x15 x16 x17 x18 x19 x20 x21 x22 x23 x24 x25 x26 =
      Cert.MaskedMlp.net x0 x1 x3 x2 x13 x14 x15 x16 x4 x6 x5 x17 x18 x19 x20 x7 x9 x8 x21 x22 x23 x24 x10 x12 x11 x25 x26 := by
  rw [head, layer4, layer3, layer2, layer1]
  rfl

end Cert.ReferenceIdeal.RefValue
-- ==== Proof.lean ====
/-
  The certificate of a masked multi-layer perceptron: a seven-region kernel program against its array-language
  reference, equal on the extended reals.

  Both programs compute four masked dense layers — the first three followed by a bias, a normalisation by stored
  statistics and a rectifier, the fourth by a bias and a rectifier — and an affine head (`Cert.MaskedMlp.net`).  The
  reference does so directly (`RefValue`).  The kernel program widens the first two layers with zero rows and
  columns so that their widths are multiples of 128, splits each of them into a tiled product and a normalisation
  region, and fuses the remaining layers into one region each; every region's output array is the layer of its
  input arrays (the region modules), the arrays in between are untouched (`Reads`, `Chain1`, `Chain2`), and the
  widened network is the network (`SpecPad`: a zero weight row gives a zero column, which stays zero through the
  normalisation, and zero columns add nothing to the next product).  No law used needs finiteness, so the
  precondition is never opened.  The three frames are the generated ones; the ideal pass rewrote nothing, so
  `preserves` holds trivially.
-/
import proofs.«120771_j77927886619274_1_alg».proof.Defs
import proofs.«120771_j77927886619274_1_alg».proof.Proof.Gen.Kernel
import proofs.«120771_j77927886619274_1_alg».proof.Proof.Gen.Kernel.Frame
import proofs.«120771_j77927886619274_1_alg».proof.Proof.Gen.KernelIdeal
import proofs.«120771_j77927886619274_1_alg».proof.Proof.Gen.KernelIdeal.Frame
import proofs.«120771_j77927886619274_1_alg».proof.Proof.Gen.ReferenceIdeal
import proofs.«120771_j77927886619274_1_alg».proof.Proof.Gen.Pre_finite_inputs
import proofs.«120771_j77927886619274_1_alg».proof.Proof.Gen.ReferenceIdeal.Run
import proofs.«120771_j77927886619274_1_alg».proof.Proof.Gen.ReferenceIdeal.Read
import proofs.«120771_j77927886619274_1_alg».proof.Proof.RunValue
import proofs.«120771_j77927886619274_1_alg».proof.Proof.Chain2
import proofs.«120771_j77927886619274_1_alg».proof.Proof.SpecPad
import proofs.«120771_j77927886619274_1_alg».proof.Proof.RefValue

noncomputable section

namespace Cert.Proof

open Idealize.ShloMosaic Idealize.ShloMosaic.TcCoe Idealize.SL.Sem Cert.MaskedMlp Cert.KernelIdeal.Val

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass recorded no rewrite. -/
theorem preserves : Cert.preserves_Kernel_KernelIdeal := trivial

set_option maxHeartbeats 1600000 in
/-- Run from memories that agree on the arguments, both programs end with the result array at the network of the
    launch memory: the kernel program at the widened network (the chain of its regions), which is the network; the
    reference at its composed term, which is the network. -/
theorem algebraic : Cert.algebraic_KernelIdeal_ReferenceIdeal := by
  intro m ρ m' ρ' _ hagree
  refine ⟨fun c => net (ar0 m c) (ar1 m c) (ar3 m c) (ar2 m c) (ar13 m c) (ar14 m c) (ar15 m c) (ar16 m c) (ar4 m c) (ar6 m c) (ar5 m c) (ar17 m c) (ar18 m c) (ar19 m c) (ar20 m c) (ar7 m c) (ar9 m c) (ar8 m c) (ar21 m c) (ar22 m c) (ar23 m c) (ar24 m c) (ar10 m c) (ar12 m c) (ar11 m c) (ar25 m c) (ar26 m c), ?_, ?_⟩
  · exact (θ_run Cert.KernelIdeal.defs _ _).mono
      (fun r h c => ⟨(h c).1.trans ((out6 m ρ c).trans (paddedNet_eq_net (by norm_num) (by norm_num) _ _ _ _ _ _ _ _ _ _ _ _ _ _ _ _ _ _ _ _ _ _ _ _ _ _ _)), (h c).2⟩)
      (run_value m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24, h25, h26⟩ := hagree c
    refine (Cert.ReferenceIdeal.Read.val_main_v77_eq m' c).trans
      ((Cert.ReferenceIdeal.RefValue.ref_eq _ _ _ _ _ _ _ _ _ _ _ _ _ _ _ _ _ _ _ _ _ _ _ _ _ _ _).trans ?_)
    rw [h0, h1, h2, h3, h4, h5, h6, h7, h8, h9, h10, h11, h12, h13, h14, h15, h16, h17, h18, h19, h20, h21, h22, h23, h24, h25, h26]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
